-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x384x128 : S_.BroadcastsInDim S2x384x128 (![] : Fin 0 → Fin S2x384x128.rank)
  reducesTo_S2x384x128_S_d0_1_2 : S2x384x128.ReducesTo [0, 1, 2] S_
  bcast_S_S2x384 : S_.BroadcastsInDim S2x384 (![] : Fin 0 → Fin S2x384.rank)
  reducesTo_S2x384_S_d0_1 : S2x384.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg14 : FVec F S128x40 .f32) (main_arg15 : FVec F S40 .f32) (main_v63 : IVec S_ 1) (main_v67 : IVec S_ 1) : IVec S_ 1 :=
  let main_v68 : IVec S_ 1 := andi main_v63 main_v67
  let main_v69 : FVec F S128x40 .f32 := Host.absf main_arg14
  let main_cst_26 : FVec F S_ .f32 := constant S_ .f32 0x7F800000#32
  let main_v70 : FVec F S128x40 .f32 := broadcastInDim S128x40 ![] bcast_S_S128x40 main_cst_26
  let main_v71 : IVec S128x40 1 := cmpf .olt main_v69 main_v70
  let main_c_27 : IVec S_ 1 := constantI S_ 1 1#1
  let main_v72 : IVec S_ 1 := (fun x v => Host.reduce IntOp.andi x v reducesTo_S128x40_S_d0_1 h_S_) main_v71 main_c_27
  let main_v73 : IVec S_ 1 := andi main_v68 main_v72
  let main_v74 : FVec F S40 .f32 := Host.absf main_arg15
  let main_cst_28 : FVec F S_ .f32 := constant S_ .f32 0x7F800000#32
  let main_v75 : FVec F S40 .f32 := broadcastInDim S40 ![] bcast_S_S40 main_cst_28
  let main_v76 : IVec S40 1 := cmpf .olt main_v74 main_v75
  let main_c_29 : IVec S_ 1 := constantI S_ 1 1#1
  let main_v77 : IVec S_ 1 := (fun x v => Host.reduce IntOp.andi x v reducesTo_S40_S_d0 h_S_) main_v76 main_c_29
  let main_v78 : IVec S_ 1 := andi main_v73 main_v77
  main_v78

def fn_part3 {F : FTy → Type} [FloatOps F] (main_arg11 : FVec F S2x128 .f32) (main_arg12 : FVec F S128x128 .f32) (main_arg13 : FVec F S128 .f32) (main_arg14 : FVec F S128x40 .f32) (main_arg15 : FVec F S40 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S2x384 .f32) (main_arg8 : FVec F S2x128x128 .f32) (main_arg9 : FVec F S2x128 .f32) (main_arg10 : FVec F S2x128x128 .f32) (main_arg11 : FVec F S2x128 .f32) (main_arg12 : FVec F S128x128 .f32) (main_arg13 : FVec F S128 .f32) (main_arg14 : FVec F S128x40 .f32) (main_arg15 : FVec F S40 .f32) (main_v33 : IVec S_ 1) : IVec S_ 1 :=
  let main_v34 : FVec F S2x384 .f32 := Host.absf main_arg7
  let main_cst_12 : FVec F S_ .f32 := constant S_ .f32 0x7F800000#32
  let main_v35 : FVec F S2x384 .f32 := broadcastInDim S2x384 ![] bcast_S_S2x384 main_cst_12
  let main_v36 : IVec S2x384 1 := cmpf .olt main_v34 main_v35
  let main_c_13 : IVec S_ 1 := constantI S_ 1 1#1
  let main_v37 : IVec S_ 1 := (fun x v => Host.reduce IntOp.andi x v reducesTo_S2x384_S_d0_1 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x128 .f32 := Host.absf main_arg10
  let main_cst_18 : FVec F S_ .f32 := constant S_ .f32 0x7F800000#32
  let main_v50 : FVec F S2x128x128 .f32 := broadcastInDim S2x128x128 ![] bcast_S_S2x128x128 main_cst_18
  fn_part3 (F := F) main_arg11 main_arg12 main_arg13 main_arg14 main_arg15 main_v48 main_v49 main_v50

def fn_part1 {F : FTy → Type} [FloatOps F] (main_arg4 : FVec F S2x384x128 .f32) (main_arg5 : FVec F S2x384x128 .f32) (main_arg6 : FVec F S2x384 .f32) (main_arg7 : FVec F S2x384 .f32) (main_arg8 : FVec F S2x128x128 .f32) (main_arg9 : FVec F S2x128 .f32) (main_arg10 : FVec F S2x128x128 .f32) (main_arg11 : FVec F S2x128 .f32) (main_arg12 : FVec F S128x128 .f32) (main_arg13 : FVec F S128 .f32) (main_arg14 : FVec F S128x40 .f32) (main_arg15 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x384x128 .f32 := Host.absf main_arg4
  let main_cst_6 : FVec F S_ .f32 := constant S_ .f32 0x7F800000#32
  let main_v20 : FVec F S2x384x128 .f32 := broadcastInDim S2x384x128 ![] bcast_S_S2x384x128 main_cst_6
  let main_v21 : IVec S2x384x128 1 := cmpf .olt main_v19 main_v20
  let main_c_7 : IVec S_ 1 := constantI S_ 1 1#1
  let main_v22 : IVec S_ 1 := (fun x v => Host.reduce IntOp.andi x v reducesTo_S2x384x128_S_d0_1_2 h_S_) main_v21 main_c_7
  let main_v23 : IVec S_ 1 := andi main_v18 main_v22
  let main_v24 : FVec F S2x384x128 .f32 := Host.absf main_arg5
  let main_cst_8 : FVec F S_ .f32 := constant S_ .f32 0x7F800000#32
  let main_v25 : FVec F S2x384x128 .f32 := broadcastInDim S2x384x128 ![] bcast_S_S2x384x128 main_cst_8
  let main_v26 : IVec S2x384x128 1 := cmpf .olt main_v24 main_v25
  let main_c_9 : IVec S_ 1 := constantI S_ 1 1#1
  let main_v27 : IVec S_ 1 := (fun x v => Host.reduce IntOp.andi x v reducesTo_S2x384x128_S_d0_1_2 h_S_) main_v26 main_c_9
  let main_v28 : IVec S_ 1 := andi main_v23 main_v27
  let main_v29 : FVec F S2x384 .f32 := Host.absf main_arg6
  let main_cst_10 : FVec F S_ .f32 := constant S_ .f32 0x7F800000#32
  let main_v30 : FVec F S2x384 .f32 := broadcastInDim S2x384 ![] bcast_S_S2x384 main_cst_10
  let main_v31 : IVec S2x384 1 := cmpf .olt main_v29 main_v30
  let main_c_11 : IVec S_ 1 := constantI S_ 1 1#1
  let main_v32 : IVec S_ 1 := (fun x v => Host.reduce IntOp.andi x v reducesTo_S2x384_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S2x384x128 .f32) (main_arg5 : FVec F S2x384x128 .f32) (main_arg6 : FVec F S2x384 .f32) (main_arg7 : FVec F S2x384 .f32) (main_arg8 : FVec F S2x128x128 .f32) (main_arg9 : FVec F S2x128 .f32) (main_arg10 : FVec F S2x128x128 .f32) (main_arg11 : FVec F S2x128 .f32) (main_arg12 : FVec F S128x128 .f32) (main_arg13 : FVec F S128 .f32) (main_arg14 : FVec F S128x40 .f32) (main_arg15 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S1x128 : Shape := ⟨2, ![1, 128]⟩
abbrev S400x128 : Shape := ⟨2, ![400, 128]⟩
abbrev S1x384x128 : Shape := ⟨3, ![1, 384, 128]⟩
abbrev S384x128 : Shape := ⟨2, ![384, 128]⟩
abbrev S128x384 : Shape := ⟨2, ![128, 384]⟩
abbrev S1x384 : Shape := ⟨2, ![1, 384]⟩
abbrev S384 : Shape := ⟨1, ![384]⟩
abbrev S1x128x128 : Shape := ⟨3, ![1, 128, 128]⟩
abbrev S400x10000 : Shape := ⟨2, ![400, 10000]⟩
abbrev S400x384 : Shape := ⟨2, ![400, 384]⟩
abbrev S1x40 : Shape := ⟨2, ![1, 40]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 68
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x384x128, .f32⟩
  | .hbm, ⟨5, _⟩ => ⟨S2x384x128, .f32⟩
  | .hbm, ⟨6, _⟩ => ⟨S2x384, .f32⟩
  | .hbm, ⟨7, _⟩ => ⟨S2x384, .f32⟩
  | .hbm, ⟨8, _⟩ => ⟨S2x128x128, .f32⟩
  | .hbm, ⟨9, _⟩ => ⟨S2x128, .f32⟩
  | .hbm, ⟨10, _⟩ => ⟨S2x128x128, .f32⟩
  | .hbm, ⟨11, _⟩ => ⟨S2x128, .f32⟩
  | .hbm, ⟨12, _⟩ => ⟨S128x128, .f32⟩
  | .hbm, ⟨13, _⟩ => ⟨S128, .f32⟩
  | .hbm, ⟨14, _⟩ => ⟨S128x40, .f32⟩
  | .hbm, ⟨15, _⟩ => ⟨S40, .f32⟩
  | .hbm, ⟨16, _⟩ => ⟨S1x128, .f32⟩
  | .hbm, ⟨17, _⟩ => ⟨S10000x128, .f32⟩
  | .hbm, ⟨18, _⟩ => ⟨S10000x128, .bf16⟩
  | .hbm, ⟨19, _⟩ => ⟨S1x384x128, .f32⟩
  | .hbm, ⟨20, _⟩ => ⟨S384x128, .f32⟩
  | .hbm, ⟨21, _⟩ => ⟨S128x384, .f32⟩
  | .hbm, ⟨22, _⟩ => ⟨S1x384x128, .f32⟩
  | .hbm, ⟨23, _⟩ => ⟨S384x128, .f32⟩
  | .hbm, ⟨24, _⟩ => ⟨S128x384, .f32⟩
  | .hbm, ⟨25, _⟩ => ⟨S1x384, .f32⟩
  | .hbm, ⟨26, _⟩ => ⟨S384, .f32⟩
  | .hbm, ⟨27, _⟩ => ⟨S1x384, .f32⟩
  | .hbm, ⟨28, _⟩ => ⟨S1x384, .f32⟩
  | .hbm, ⟨29, _⟩ => ⟨S384, .f32⟩
  | .hbm, ⟨30, _⟩ => ⟨S1x384, .f32⟩
  | .hbm, ⟨31, _⟩ => ⟨S1x128x128, .f32⟩
  | .hbm, ⟨32, _⟩ => ⟨S128x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S10000x128, .f32⟩
  | .hbm, ⟨42, _⟩ => ⟨S10000x128, .bf16⟩
  | .hbm, ⟨43, _⟩ => ⟨S1x384x128, .f32⟩
  | .hbm, ⟨44, _⟩ => ⟨S384x128, .f32⟩
  | .hbm, ⟨45, _⟩ => ⟨S128x384, .f32⟩
  | .hbm, ⟨46, _⟩ => ⟨S1x384x128, .f32⟩
  | .hbm, ⟨47, _⟩ => ⟨S384x128, .f32⟩
  | .hbm, ⟨48, _⟩ => ⟨S128x384, .f32⟩
  | .hbm, ⟨49, _⟩ => ⟨S1x384, .f32⟩
  | .hbm, ⟨50, _⟩ => ⟨S384, .f32⟩
  | .hbm, ⟨51, _⟩ => ⟨S1x384, .f32⟩
  | .hbm, ⟨52, _⟩ => ⟨S1x384, .f32⟩
  | .hbm, ⟨53, _⟩ => ⟨S384, .f32⟩
  | .hbm, ⟨54, _⟩ => ⟨S1x384, .f32⟩
  | .hbm, ⟨55, _⟩ => ⟨S1x128x128, .f32⟩
  | .hbm, ⟨56, _⟩ => ⟨S128x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S1x40, .f32⟩
  | .hbm, ⟨67, _⟩ => ⟨S10000x40, .f32⟩
  | .local _ .vmem, ⟨0, _⟩ => ⟨S400x128, .f32⟩
  | .local _ .vmem, ⟨1, _⟩ => ⟨S400x128, .f32⟩
  | .local _ .vmem, ⟨2, _⟩ => ⟨S128x128, .f32⟩
  | .local _ .vmem, ⟨3, _⟩ => ⟨S1x128, .f32⟩
  | .local _ .vmem, ⟨4, _⟩ => ⟨S400x128, .f32⟩
  | .local _ .vmem, ⟨5, _⟩ => ⟨S400x128, .f32⟩
  | .local _ .vmem, ⟨6, _⟩ => ⟨S400x128, .bf16⟩
  | .local _ .vmem, ⟨7, _⟩ => ⟨S400x128, .bf16⟩
  | .local _ .vmem, ⟨8, _⟩ => ⟨S400x10000, .f32⟩
  | .local _ .vmem, ⟨9, _⟩ => ⟨S400x10000, .f32⟩
  | .local _ .vmem, ⟨10, _⟩ => ⟨S10000x128, .bf16⟩
  | .local _ .vmem, ⟨11, _⟩ => ⟨S400x128, .f32⟩
  | .local _ .vmem, ⟨12, _⟩ => ⟨S400x128, .f32⟩
  | .local _ .vmem, ⟨13, _⟩ => ⟨S128x384, .f32⟩
  | .local _ .vmem, ⟨14, _⟩ => ⟨S128x384, .f32⟩
  | .local _ .vmem, ⟨15, _⟩ => ⟨S1x384, .f32⟩
  | .local _ .vmem, ⟨16, _⟩ => ⟨S1x384, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S400x128, .f32⟩
  | .local _ .vmem, ⟨22, _⟩ => ⟨S400x128, .f32⟩
  | .local _ .vmem, ⟨23, _⟩ => ⟨S400x128, .bf16⟩
  | .local _ .vmem, ⟨24, _⟩ => ⟨S400x128, .bf16⟩
  | .local _ .vmem, ⟨25, _⟩ => ⟨S400x10000, .f32⟩
  | .local _ .vmem, ⟨26, _⟩ => ⟨S400x10000, .f32⟩
  | .local _ .vmem, ⟨27, _⟩ => ⟨S10000x128, .bf16⟩
  | .local _ .vmem, ⟨28, _⟩ => ⟨S400x128, .f32⟩
  | .local _ .vmem, ⟨29, _⟩ => ⟨S400x128, .f32⟩
  | .local _ .vmem, ⟨30, _⟩ => ⟨S128x384, .f32⟩
  | .local _ .vmem, ⟨31, _⟩ => ⟨S128x384, .f32⟩
  | .local _ .vmem, ⟨32, _⟩ => ⟨S1x384, .f32⟩
  | .local _ .vmem, ⟨33, _⟩ => ⟨S1x384, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S128x40, .f32⟩
  | .local _ .vmem, ⟨41, _⟩ => ⟨S1x40, .f32⟩
  | .local _ .vmem, ⟨42, _⟩ => ⟨S400x40, .f32⟩
  | .local _ .vmem, ⟨43, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg11_0 : Ref sig .tc := ⟨.vmem, 38, rfl⟩
abbrev cc2_stg12_0 : Ref sig .tc := ⟨.vmem, 39, rfl⟩
abbrev cc2_stg13_0 : Ref sig .tc := ⟨.vmem, 40, rfl⟩
abbrev cc2_stg14_0 : Ref sig .tc := ⟨.vmem, 41, rfl⟩
abbrev cc2_stg15_0 : Ref sig .tc := ⟨.vmem, 42, rfl⟩
abbrev cc2_stg15_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem11_1 : DmaSem sig := 22
abbrev cc1_sem12_0 : DmaSem sig := 23
abbrev cc1_sem12_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem14_0 : DmaSem sig := 41
abbrev cc2_sem15_0 : DmaSem sig := 42
abbrev cc2_sem15_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S400x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S400x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x40 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x40 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S400x40 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  shapeCasts_S128_S1x128 : S128.ShapeCasts S1x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  bitsLt_bf16_f32 : FTy.bits .bf16 < FTy.bits .f32
  packedbf16_S400x128_S400x128_0_0 : (Rect.unit (s := S400x128) ![0, 0] S400x128.size inb_S400x128_S400x128_0_0).PackedRows (EltTy.packing .bf16)
  slices_S2x384x128_S1x384x128_0_0_0 : S2x384x128.Slices ![0, 0, 0] S1x384x128
  shapeCasts_S1x384x128_S384x128 : S1x384x128.ShapeCasts S384x128
  transposes_S384x128_S128x384_1_0 : S384x128.Transposes [1, 0] S128x384
  slices_S2x384_S1x384_0_0 : S2x384.Slices ![0, 0] S1x384
  shapeCasts_S1x384_S384 : S1x384.ShapeCasts S384
  shapeCasts_S384_S1x384 : S384.ShapeCasts S1x384
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S400x128_S400x128 : S400x128.ShapeCasts S400x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  shapeCasts_S128x128_S128x128 : S128x128.ShapeCasts S128x128
  broadcasts_S1x384_S400x384 : S1x384.Broadcasts S400x384
  slices_S400x384_o0_0_S400x128 : S400x384.Slices ![0, 0] S400x128
  slices_S400x384_o0_128_S400x128 : S400x384.Slices ![0, 128] S400x128
  slices_S400x384_o0_256_S400x128 : S400x384.Slices ![0, 256] S400x128
  slices_S2x384x128_S1x384x128_1_0_0 : S2x384x128.Slices ![1, 0, 0] S1x384x128
  slices_S2x384_S1x384_1_0 : S2x384.Slices ![1, 0] S1x384
  slices_S2x128x128_S1x128x128_1_0_0 : S2x128x128.Slices ![1, 0, 0] S1x128x128
  slices_S2x128_S1x128_1_0 : S2x128.Slices ![1, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S400x128_S128x128_S400x128_1_0_0_1_n_n_wf : DotDims.WF S400x128 S128x128 S400x128 [1] [0] [0] [1] [] []
  dot_S400x10000_S10000x128_S400x128_1_0_0_1_n_n_wf : DotDims.WF S400x10000 S10000x128 S400x128 [1] [0] [0] [1] [] []
  dot_S400x128_S128x384_S400x384_1_0_0_1_n_n_wf : DotDims.WF S400x128 S128x384 S400x384 [1] [0] [0] [1] [] []
  dot_S400x128_S128x40_S400x40_1_0_0_1_n_n_wf : DotDims.WF S400x128 S128x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .bf16 = 32 ∨ (Rect.block (s := S10000x128) S400x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S400x128.size a ≤ S10000x128.size a
  hwx1_11 : ∀ i : grid1.Coords, EltTy.bits .f32 = 32 ∨ (Rect.block (s := S10000x128) S400x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S400x128.size a ≤ S10000x128.size a
  hwx1_12 : ∀ i : grid1.Coords, EltTy.bits .bf16 = 32 ∨ (Rect.block (s := S10000x128) S400x128.size (cc1_transform_12 i) (hinb1_12 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x384.size a ≤ S128x384.size a
  hwx2_4 : ∀ i : grid2.Coords, EltTy.bits .f32 = 32 ∨ (Rect.block (s := S128x384) S128x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x384.size a ≤ S1x384.size a
  hwx2_6 : ∀ i : grid2.Coords, EltTy.bits .f32 = 32 ∨ (Rect.block (s := S1x384) S1x384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x40.size a ≤ S128x40.size a
  hwx2_13 : ∀ i : grid2.Coords, EltTy.bits .f32 = 32 ∨ (Rect.block (s := S128x40) S128x40.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x40.size a ≤ S1x40.size a
  hwx2_14 : ∀ i : grid2.Coords, EltTy.bits .f32 = 32 ∨ (Rect.block (s := S1x40) S1x40.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S400x40.size a ≤ S10000x40.size a
  hwx2_15 : ∀ i : grid2.Coords, EltTy.bits .f32 = 32 ∨ (Rect.block (s := S10000x40) S400x40.size (cc2_transform_15 i) (hinb2_15 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x384_S400x384_1_0_0_1_n_n : DotDims S400x128 S128x384 S400x384 where
  lhsContracting := [1]
  rhsContracting := [0]
  lhsNonContracting := [0]
  rhsNonContracting := [1]
  lhsBatch := []
  rhsBatch := []
  wf := dot_S400x128_S128x384_S400x384_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24_0) S400x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v24_1) S400x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24_0) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S128x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v46) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg12) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v47) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg14) S128x40.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v48) S1x40.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v49) S400x40.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S1x128 : Shape := ⟨2, ![1, 128]⟩
abbrev S_ : Shape := ⟨0, ![]⟩
abbrev S1x384x128 : Shape := ⟨3, ![1, 384, 128]⟩
abbrev S384x128 : Shape := ⟨2, ![384, 128]⟩
abbrev S1x384 : Shape := ⟨2, ![1, 384]⟩
abbrev S384 : Shape := ⟨1, ![384]⟩
abbrev S128x384 : Shape := ⟨2, ![128, 384]⟩
abbrev S10000x384 : Shape := ⟨2, ![10000, 384]⟩
abbrev S1x128x128 : Shape := ⟨3, ![1, 128, 128]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 196
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S128, .f32⟩
  | 4 => ⟨S2x384x128, .f32⟩
  | 5 => ⟨S2x384x128, .f32⟩
  | 6 => ⟨S2x384, .f32⟩
  | 7 => ⟨S2x384, .f32⟩
  | 8 => ⟨S2x128x128, .f32⟩
  | 9 => ⟨S2x128, .f32⟩
  | 10 => ⟨S2x128x128, .f32⟩
  | 11 => ⟨S2x128, .f32⟩
  | 12 => ⟨S128x128, .f32⟩
  | 13 => ⟨S128, .f32⟩
  | 14 => ⟨S128x40, .f32⟩
  | 15 => ⟨S40, .f32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S1x384x128, .f32⟩
  | 25 => ⟨S384x128, .f32⟩
  | 26 => ⟨S1x384x128, .f32⟩
  | 27 => ⟨S384x128, .f32⟩
  | 28 => ⟨S1x384, .f32⟩
  | 29 => ⟨S384, .f32⟩
  | 30 => ⟨S1x384, .f32⟩
  | 31 => ⟨S384, .f32⟩
  | 32 => ⟨S128x384, .f32⟩
  | 33 => ⟨S10000x384, .f32⟩
  | 34 => ⟨S1x384, .f32⟩
  | 35 => ⟨S10000x384, .f32⟩
  | 36 => ⟨S10000x384, .f32⟩
  | 37 => ⟨S128x384, .f32⟩
  | 38 => ⟨S10000x384, .f32⟩
  | 39 => ⟨S1x384, .f32⟩
  | 40 => ⟨S10000x384, .f32⟩
  | 41 => ⟨S10000x384, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | 48 => ⟨S10000x128, .f32⟩
  | 49 => ⟨S10000x128, .f32⟩
  | 50 => ⟨S10000x128, .f32⟩
  | 51 => ⟨S_, .f32⟩
  | 52 => ⟨S10000x128, .f32⟩
  | 53 => ⟨S10000x128, .f32⟩
  | 54 => ⟨S_, .f32⟩
  | 55 => ⟨S10000x128, .f32⟩
  | 56 => ⟨S10000x128, .f32⟩
  | 57 => ⟨S10000x128, .f32⟩
  | 58 => ⟨S10000x128, .f32⟩
  | 59 => ⟨S10000x128, .f32⟩
  | 60 => ⟨S_, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S10000x128, .f32⟩
  | 67 => ⟨S10000x128, .f32⟩
  | 68 => ⟨S10000x128, .f32⟩
  | 69 => ⟨S_, .f32⟩
  | 70 => ⟨S10000x128, .f32⟩
  | 71 => ⟨S10000x128, .f32⟩
  | 72 => ⟨S10000x128, .f32⟩
  | 73 => ⟨S10000x128, .f32⟩
  | 74 => ⟨S10000x128, .f32⟩
  | 75 => ⟨S1x128x128, .f32⟩
  | 76 => ⟨S128x128, .f32⟩
  | 77 => ⟨S10000x128, .f32⟩
  | 78 => ⟨S1x128, .f32⟩
  | 79 => ⟨S128, .f32⟩
  | 80 => ⟨S1x128, .f32⟩
  | 81 => ⟨S10000x128, .f32⟩
  | 82 => ⟨S10000x128, .f32⟩
  | 83 => ⟨S_, .f32⟩
  | 84 => ⟨S10000x128, .f32⟩
  | 85 => ⟨S10000x128, .f32⟩
  | 86 => ⟨S1x128x128, .f32⟩
  | 87 => ⟨S128x128, .f32⟩
  | 88 => ⟨S10000x128, .f32⟩
  | 89 => ⟨S1x128, .f32⟩
  | 90 => ⟨S128, .f32⟩
  | 91 => ⟨S1x128, .f32⟩
  | 92 => ⟨S10000x128, .f32⟩
  | 93 => ⟨S10000x128, .f32⟩
  | 94 => ⟨S_, .f32⟩
  | 95 => ⟨S10000x128, .f32⟩
  | 96 => ⟨S10000x128, .f32⟩
  | 97 => ⟨S10000x128, .f32⟩
  | 98 => ⟨S1x384x128, .f32⟩
  | 99 => ⟨S384x128, .f32⟩
  | 100 => ⟨S1x384x128, .f32⟩
  | 101 => ⟨S384x128, .f32⟩
  | 102 => ⟨S1x384, .f32⟩
  | 103 => ⟨S384, .f32⟩
  | 104 => ⟨S1x384, .f32⟩
  | 105 => ⟨S384, .f32⟩
  | 106 => ⟨S128x384, .f32⟩
  | 107 => ⟨S10000x384, .f32⟩
  | 108 => ⟨S1x384, .f32⟩
  | 109 => ⟨S10000x384, .f32⟩
  | 110 => ⟨S10000x384, .f32⟩
  | 111 => ⟨S128x384, .f32⟩
  | 112 => ⟨S10000x384, .f32⟩
  | 113 => ⟨S1x384, .f32⟩
  | 114 => ⟨S10000x384, .f32⟩
  | 115 => ⟨S10000x384, .f32⟩
  | 116 => ⟨S10000x128, .f32⟩
  | 117 => ⟨S10000x128, .f32⟩
  | 118 => ⟨S10000x128, .f32⟩
  | 119 => ⟨S10000x128, .f32⟩
  | 120 => ⟨S10000x128, .f32⟩
  | 121 => ⟨S10000x128, .f32⟩
  | 122 => ⟨S10000x128, .f32⟩
  | 123 => ⟨S10000x128, .f32⟩
  | 124 => ⟨S10000x128, .f32⟩
  | 125 => ⟨S_, .f32⟩
  | 126 => ⟨S10000x128, .f32⟩
  | 127 => ⟨S10000x128, .f32⟩
  | _ => ⟨S10000x128, .f32⟩

abbrev hbmTy0_1 (i : Nat) : BufTy := match i % 128 with
  | 0 => ⟨S_, .f32⟩
  | 1 => ⟨S10000x128, .f32⟩
  | 2 => ⟨S10000x128, .f32⟩
  | 3 => ⟨S10000x128, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S_, .f32⟩
  | 10 => ⟨S10000x128, .f32⟩
  | 11 => ⟨S10000x128, .f32⟩
  | 12 => ⟨S10000x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S10000x128, .f32⟩
  | 19 => ⟨S10000x128, .f32⟩
  | 20 => ⟨S10000x128, .f32⟩
  | 21 => ⟨S1x128x128, .f32⟩
  | 22 => ⟨S128x128, .f32⟩
  | 23 => ⟨S10000x128, .f32⟩
  | 24 => ⟨S1x128, .f32⟩
  | 25 => ⟨S128, .f32⟩
  | 26 => ⟨S1x128, .f32⟩
  | 27 => ⟨S10000x128, .f32⟩
  | 28 => ⟨S10000x128, .f32⟩
  | 29 => ⟨S_, .f32⟩
  | 30 => ⟨S10000x128, .f32⟩
  | 31 => ⟨S10000x128, .f32⟩
  | 32 => ⟨S1x128x128, .f32⟩
  | 33 => ⟨S128x128, .f32⟩
  | 34 => ⟨S10000x128, .f32⟩
  | 35 => ⟨S1x128, .f32⟩
  | 36 => ⟨S128, .f32⟩
  | 37 => ⟨S1x128, .f32⟩
  | 38 => ⟨S10000x128, .f32⟩
  | 39 => ⟨S10000x128, .f32⟩
  | 40 => ⟨S_, .f32⟩
  | 41 => ⟨S10000x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x40, .f32⟩
  | 51 => ⟨S1x40, .f32⟩
  | 52 => ⟨S10000x40, .f32⟩
  | 53 => ⟨S10000x40, .f32⟩
  | 54 => ⟨S_, .f32⟩
  | 55 => ⟨S10000, .f32⟩
  | 56 => ⟨S_, .f32⟩
  | 57 => ⟨S10000, .f32⟩
  | 58 => ⟨S10000, .f32⟩
  | 59 => ⟨S10000x1, .f32⟩
  | 60 => ⟨S10000x40, .f32⟩
  | 61 => ⟨S10000x40, .f32⟩
  | 62 => ⟨S10000x40, .f32⟩
  | 63 => ⟨S_, .f32⟩
  | 64 => ⟨S10000, .f32⟩
  | 65 => ⟨S10000x1, .f32⟩
  | 66 => ⟨S10000x40, .f32⟩
  | 67 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_1 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call2_cst : Ref sig .tc := ⟨.hbm, 94, rfl⟩
abbrev main_call2_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_4 : Ref sig .tc := ⟨.hbm, 125, rfl⟩
abbrev main_v98 : Ref sig .tc := ⟨.hbm, 126, rfl⟩
abbrev main_v99 : Ref sig .tc := ⟨.hbm, 127, rfl⟩
abbrev main_cst_5 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_6 : Ref sig .tc := ⟨.hbm, 134, rfl⟩
abbrev main_v105 : Ref sig .tc := ⟨.hbm, 135, rfl⟩
abbrev main_v106 : Ref sig .tc := ⟨.hbm, 136, rfl⟩
abbrev main_cst_7 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_8 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_call3_cst : Ref sig .tc := ⟨.hbm, 157, rfl⟩
abbrev main_call3_v0 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_call4_cst : Ref sig .tc := ⟨.hbm, 168, rfl⟩
abbrev main_call4_v0 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_call5_cst : Ref sig .tc := ⟨.hbm, 175, rfl⟩
abbrev main_call5_v0 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_9 : Ref sig .tc := ⟨.hbm, 182, rfl⟩
abbrev main_v144 : Ref sig .tc := ⟨.hbm, 183, rfl⟩
abbrev main_cst_10 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_11 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x384x128_S1x384x128_0_0_0 : S2x384x128.Slices ![0, 0, 0] S1x384x128
  shapeCasts_S1x384x128_S384x128 : S1x384x128.ShapeCasts S384x128
  slices_S2x384_S1x384_0_0 : S2x384.Slices ![0, 0] S1x384
  shapeCasts_S1x384_S384 : S1x384.ShapeCasts S384
  transposes_S384x128_S128x384_1_0 : S384x128.Transposes [1, 0] S128x384
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x384x128_S1x384x128_1_0_0 : S2x384x128.Slices ![1, 0, 0] S1x384x128
  slices_S2x384_S1x384_1_0 : S2x384.Slices ![1, 0] S1x384
  slices_S2x128x128_S1x128x128_1_0_0 : S2x128x128.Slices ![1, 0, 0] S1x128x128
  slices_S2x128_S1x128_1_0 : S2x128.Slices ![1, 0] S1x128
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x384_S10000x384_1_0_0_1_n_n_wf : DotDims.WF S10000x128 S128x384 S10000x384 [1] [0] [0] [1] [] []
  dot_S10000x128_S128x40_S10000x40_1_0_0_1_n_n_wf : DotDims.WF S10000x128 S128x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.KRun.lean ====
/-
  The idealized kernel's run with every buffer named: every weakly fair execution of @main terminates, nothing faulting, and
  in the final state every unscoped buffer of a core holds what the fold through @main's segments leaves there — the launch
  contents pushed through the host stretches and, at each kernel region, that region's arrays at what its write-backs leave.
  The result buffer and the argument buffers are read off this one post.
-/
import proofs.«172874_g6133213298789_cont_9to1_m_1291_3_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's six segments, the last thread state read against the final state: every unscoped buffer ends at
    the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KRun

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.LibRows.lean ====
/-
  Row blocks of a tall array, and the operations that commute with taking one.

  A [10000, n] array is cut into 25 blocks of 400 rows. `rows t x` is block `t` of `x`: its row `r` is row
  `400 t + r` of `x`. Every operation that works row by row — an elementwise operation, a product with a matrix on the right,
  adding a row vector to every row, taking a range of columns, a maximum or a sum along each row — gives, on block `t` of its
  operand, block `t` of its result. The lemmas below say so, at the ideal instance, for a kernel's vector operations on
  the left-hand side and the host's whole-array operations on the right-hand side.
-/
import Idealize.ShloMosaic.PureOps.Ideal.Laws
import Idealize.ShloMosaic.Lib.ValueIdx
import Idealize.ShloMosaic.Lib.Pipeline.Value
import Idealize.ShloMosaic.Lib.IdealHost
import Mathlib.Data.Finset.Fold
import proofs.«172874_g6133213298789_cont_9to1_m_1291_3_alg».proof.Proof.LibPlainDot

noncomputable section

namespace Cert.LibRows

open Idealize.ShloMosaic Idealize.ShloMosaic.ValueIdx Cert.LibPlainDot

/-- A block of 400 rows, a whole array of 10000 rows, and the same for vectors with one entry per row. -/
abbrev Blk (n : Nat) : Shape := ⟨2, ![400, n]⟩
abbrev Arr (n : Nat) : Shape := ⟨2, ![10000, n]⟩
abbrev BlkV : Shape := ⟨1, ![400]⟩
abbrev ArrV : Shape := ⟨1, ![10000]⟩
abbrev Sc : Shape := ⟨0, ![]⟩

/-- Row `r` of block `t` is row `400 t + r` of the array. -/
def upRow (t : Fin 25) (r : Fin 400) : Fin 10000 := ⟨400 * t.val + r.val, by have := t.isLt; have := r.isLt; omega⟩

def up {n : Nat} (t : Fin 25) (y : (Blk n).Idx) : (Arr n).Idx := ix2 (upRow t (y 0)) (y 1)
def upV (t : Fin 25) (y : BlkV.Idx) : ArrV.Idx := ix1 (upRow t (y 0))

/-- Block `t` of an array, and of a per-row vector. -/
def rows {α : Type} {n : Nat} (t : Fin 25) (x : (Arr n).Idx → α) : (Blk n).Idx → α := fun y => x (up t y)
def rowsV {α : Type} (t : Fin 25) (x : ArrV.Idx → α) : BlkV.Idx → α := fun y => x (upV t y)

variable {n : Nat} {φ : FTy} (t : Fin 25)

/-! ## Elementwise operations -/

theorem rows_addf (a b : FVec Ideal (Arr n) φ) : addf (rows t a) (rows t b) = rows t (addf a b) := rfl
theorem rows_subf (a b : FVec Ideal (Arr n) φ) : subf (rows t a) (rows t b) = rows t (subf a b) := rfl
theorem rows_mulf (a b : FVec Ideal (Arr n) φ) : mulf (rows t a) (rows t b) = rows t (mulf a b) := rfl
theorem rows_maximumf (a b : FVec Ideal (Arr n) φ) : maximumf (rows t a) (rows t b) = rows t (maximumf a b) := rfl
/-- The kernel's quotient is the host's. -/
theorem rows_divf (a b : FVec Ideal (Arr n) φ) : divf (rows t a) (rows t b) = rows t (Host.divf a b) := rfl
/-- The kernel's exponential and hyperbolic tangent are the host's. -/
theorem rows_exp (a : FVec Ideal (Arr n) φ) : exp (rows t a) = rows t (Host.exp a) := rfl
theorem rows_tanh (a : FVec Ideal (Arr n) φ) : tanh (rows t a) = rows t (Host.tanh a) := rfl
/-- A change of float format is the identity on extended reals. -/
theorem rows_truncf {ψ : FTy} (a : FVec Ideal (Arr n) φ) (h : ψ.bits < φ.bits) :
    (truncf ψ (rows t a) h : FVec Ideal (Blk n) ψ) = rows t (truncf ψ a h) := rfl
theorem truncf_eq {s : Shape} {ψ : FTy} (a : FVec Ideal s φ) (h : ψ.bits < φ.bits) :
    (truncf ψ a h : FVec Ideal s ψ) = (a : s.Idx → EReal) := rfl

/-- A scalar constant spread over a block is the block of the constant spread over the array. -/
theorem rows_splat (w : BitVec 32) (hb : Sc.BroadcastsInDim (Arr n) ![]) :
    (broadcast (Blk n) (Scalar.ofBits (F := Ideal) .f32 w) : FVec Ideal (Blk n) .f32)
      = rows t (broadcastInDim (Arr n) ![] hb (constant (F := Ideal) Sc .f32 w)) := rfl

/-- The logistic function is `1 / (1 + e^{-x})`, which is how the host spells it. -/
theorem rows_logistic (a : FVec Ideal (Arr n) .f32) (hb : Sc.BroadcastsInDim (Arr n) ![]) :
    logistic (rows t a)
      = rows t (Host.divf (broadcastInDim (Arr n) ![] hb (constant (F := Ideal) Sc .f32 0x3F800000#32))
          (addf (broadcastInDim (Arr n) ![] hb (constant (F := Ideal) Sc .f32 0x3F800000#32)) (Host.exp (Host.negf a)))) := by
  funext y
  show Ideal.logistic (a (up t y))
    = Ideal.div (Ideal.ofBits .f32 0x3F800000#32) (Ideal.ofBits .f32 0x3F800000#32 + Ideal.exp (-(a (up t y))))
  rw [Ideal.ofBits_one_f32]
  rfl

/-! ## Products with a matrix on the right -/

/-- Block `t` of `x · W` is (block `t` of `x`) `· W`: entry `(r, c)` of either is `∑ k, x (400 t + r, k) * W (k, c)`. -/
theorem rows_matmul {K : Nat} {φ₁ φ₂ : FTy} (pk : Option ContractPrecision) (x : FVec Ideal (Arr K) φ₁)
    (W : FVec Ideal ⟨2, ![K, n]⟩ φ₂) :
    FloatOps.matmul (DotDims.plain 400 K n) pk (rows t x) W (constant (Blk n) .f32 0x00000000#32)
      = rows t (FloatOps.dotGeneral (DotDims.plain 10000 K n) none .single x W) := by
  funext y
  rw [plain_matmul_apply]
  show _ = FloatOps.dotGeneral (DotDims.plain 10000 K n) none .single x W (up t y)
  rw [plain_dotGeneral_apply]
  rfl

/-! ## Adding a row vector to every row -/

/-- A vector of `n` entries laid out as a [1, n] array. -/
def asRow {α : Type} (b : (⟨1, ![n]⟩ : Shape).Idx → α) : (⟨2, ![1, n]⟩ : Shape).Idx → α := fun i => b (ix1 (i 1))

/-- Reshaping a vector to one row does not move its entries. -/
theorem shapeCast_asRow {α : Type} (b : (⟨1, ![n]⟩ : Shape).Idx → α) (h : (⟨1, ![n]⟩ : Shape).ShapeCasts ⟨2, ![1, n]⟩) :
    shapeCast ⟨2, ![1, n]⟩ b h = asRow b := by
  funext i
  refine shapeCast_apply b h i (ix1 (i 1)) ?_
  rw [Shape.rowMajor_val_one, Shape.rowMajor_val_two]
  have h0 : (i 0).val < 1 := (i 0).isLt
  show (i 1).val = (i 0).val * n + (i 1).val
  have : (i 0).val = 0 := by omega
  rw [this]; omega

/-- The kernel spreads the one-row array over the block's rows; the host spreads the vector to one row and then over the
    array's rows. Either way row `r` gets the vector. -/
theorem rows_bias {α : Type} (b : (⟨1, ![n]⟩ : Shape).Idx → α) (hk : (⟨2, ![1, n]⟩ : Shape).Broadcasts (Blk n))
    (h1 : (⟨1, ![n]⟩ : Shape).BroadcastsInDim ⟨2, ![1, n]⟩ ![1])
    (h2 : (⟨2, ![1, n]⟩ : Shape).BroadcastsInDim (Arr n) ![0, 1]) (hn : n ≠ 1) :
    broadcastTo (Blk n) (asRow b) hk = rows t (broadcastInDim (Arr n) ![0, 1] h2 (broadcastInDim ⟨2, ![1, n]⟩ ![1] h1 b)) := by
  funext y
  show _ = broadcastInDim (Arr n) ![0, 1] h2 (broadcastInDim ⟨2, ![1, n]⟩ ![1] h1 b) (up t y)
  have e1 : broadcastTo (Blk n) (asRow b) hk y = asRow b (ix2 (0 : Fin 1) (y 1)) :=
    broadcastTo_apply (asRow b) hk y (ix2 (0 : Fin 1) (y 1)) (fun a => by
      match a with
      | ⟨0, _⟩ => show 0 = if (1 : Nat) = 1 then 0 else _; rw [if_pos rfl]
      | ⟨1, _⟩ => show (y 1).val = if n = 1 then 0 else (y 1).val; rw [if_neg hn])
  have e2 : broadcastInDim (Arr n) ![0, 1] h2 (broadcastInDim ⟨2, ![1, n]⟩ ![1] h1 b) (up t y)
      = broadcastInDim ⟨2, ![1, n]⟩ ![1] h1 b (ix2 (0 : Fin 1) (y 1)) :=
    broadcastInDim_apply _ h2 _ (up t y) (ix2 (0 : Fin 1) (y 1)) (fun a => by
      match a with
      | ⟨0, _⟩ => show 0 = if (1 : Nat) = 1 then 0 else _; rw [if_pos rfl]
      | ⟨1, _⟩ => show (y 1).val = if n = 1 then 0 else (y 1).val; rw [if_neg hn])
  have e3 : broadcastInDim ⟨2, ![1, n]⟩ ![1] h1 b (ix2 (0 : Fin 1) (y 1)) = b (ix1 (y 1)) :=
    broadcastInDim_apply _ h1 b _ (ix1 (y 1)) (fun a => by
      match a with
      | ⟨0, _⟩ => show (y 1).val = if n = 1 then 0 else (y 1).val; rw [if_neg hn])
  rw [e1, e2, e3]
  rfl

/-! ## A range of columns -/

/-- Columns `[o, o + n)` of block `t` are block `t` of columns `[o, o + n)`. -/
theorem rows_slice {α : Type} {N : Nat} (o : Nat) (x : (Arr N).Idx → α) (hk : (Blk N).Slices ![0, o] (Blk n))
    (hh : (Arr N).Slices ![0, o] (Arr n)) :
    extractStridedSlice (Blk n) ![0, o] (rows t x) hk = rows t (extractStridedSlice (Arr n) ![0, o] x hh) := by
  funext y
  have hlt : o + (y 1).val < N := by
    have := hk.2 1
    have h1 : (y 1).val < n := (y 1).isLt
    show o + (y 1).val < N
    have h3 : (![0, o] : Fin 2 → Nat) 1 + n ≤ N := this
    have : (![0, o] : Fin 2 → Nat) 1 = o := rfl
    omega
  have e1 : extractStridedSlice (Blk n) ![0, o] (rows t x) hk y = rows t x (ix2 (y 0) ⟨o + (y 1).val, hlt⟩) :=
    extractStridedSlice_apply _ _ hk y (ix2 (y 0) ⟨o + (y 1).val, hlt⟩) (fun a => by
      match a with
      | ⟨0, _⟩ => show (y 0).val = 0 + (y 0).val; omega
      | ⟨1, _⟩ => rfl)
  have e2 : extractStridedSlice (Arr n) ![0, o] x hh (up t y) = x (ix2 (upRow t (y 0)) ⟨o + (y 1).val, hlt⟩) :=
    extractStridedSlice_apply _ _ hh (up t y) (ix2 (upRow t (y 0)) ⟨o + (y 1).val, hlt⟩) (fun a => by
      match a with
      | ⟨0, _⟩ => show (upRow t (y 0)).val = 0 + (upRow t (y 0)).val; omega
      | ⟨1, _⟩ => rfl)
  rw [e1]
  show _ = extractStridedSlice (Arr n) ![0, o] x hh (up t y)
  rw [e2]
  rfl

/-! ## One value per row, spread along the row -/

/-- The kernel reshapes the per-row vector of the block to a column and spreads it over the columns; the host does the same
    to the per-row vector of the array. Entry `(r, c)` is the value of row `r`. -/
theorem rows_spread {α : Type} (v : ArrV.Idx → α) (hc : BlkV.ShapeCasts (Blk 1)) (hk : (Blk 1).Broadcasts (Blk n))
    (h1 : ArrV.BroadcastsInDim (Arr 1) ![0]) (h2 : (Arr 1).BroadcastsInDim (Arr n) ![0, 1]) :
    broadcastTo (Blk n) (shapeCast (Blk 1) (rowsV t v) hc) hk
      = rows t (broadcastInDim (Arr n) ![0, 1] h2 (broadcastInDim (Arr 1) ![0] h1 v)) := by
  funext y
  show _ = broadcastInDim (Arr n) ![0, 1] h2 (broadcastInDim (Arr 1) ![0] h1 v) (up t y)
  have e1 : broadcastTo (Blk n) (shapeCast (Blk 1) (rowsV t v) hc) hk y
      = shapeCast (Blk 1) (rowsV t v) hc (ix2 (y 0) (0 : Fin 1)) :=
    broadcastTo_apply _ hk y (ix2 (y 0) (0 : Fin 1)) (fun a => by
      match a with
      | ⟨0, _⟩ => show (y 0).val = if (400 : Nat) = 1 then 0 else (y 0).val; rw [if_neg (by decide)]
      | ⟨1, _⟩ => show 0 = if (1 : Nat) = 1 then 0 else _; rw [if_pos rfl])
  have e2 : shapeCast (Blk 1) (rowsV t v) hc (ix2 (y 0) (0 : Fin 1)) = rowsV t v (ix1 (y 0)) :=
    shapeCast_apply _ hc _ (ix1 (y 0)) (by
      rw [Shape.rowMajor_val_one, Shape.rowMajor_val_two]
      show (y 0).val = (y 0).val * 1 + 0
      omega)
  have e3 : broadcastInDim (Arr n) ![0, 1] h2 (broadcastInDim (Arr 1) ![0] h1 v) (up t y)
      = broadcastInDim (Arr 1) ![0] h1 v (ix2 (upRow t (y 0)) (0 : Fin 1)) :=
    broadcastInDim_apply _ h2 _ (up t y) (ix2 (upRow t (y 0)) (0 : Fin 1)) (fun a => by
      match a with
      | ⟨0, _⟩ => show (upRow t (y 0)).val = if (10000 : Nat) = 1 then 0 else (upRow t (y 0)).val; rw [if_neg (by decide)]
      | ⟨1, _⟩ => show 0 = if (1 : Nat) = 1 then 0 else _; rw [if_pos rfl])
  have e4 : broadcastInDim (Arr 1) ![0] h1 v (ix2 (upRow t (y 0)) (0 : Fin 1)) = v (ix1 (upRow t (y 0))) :=
    broadcastInDim_apply _ h1 v _ (ix1 (upRow t (y 0))) (fun a => by
      match a with
      | ⟨0, _⟩ => show (upRow t (y 0)).val = if (10000 : Nat) = 1 then 0 else (upRow t (y 0)).val; rw [if_neg (by decide)])
  rw [e1, e2, e3, e4]
  rfl

/-! ## A maximum and a sum along each row -/

/-- The entry a reduction along the rows visits at row `r`, column `k`: row `400 t + r`, column `k` of the array. -/
theorem up_lift (hk : (Blk n).Reduces [1] BlkV) (hr : (Arr n).Reduces [1] ArrV) (y : BlkV.Idx) (k : Fin ((Blk n).size 1)) :
    up t (hk.lift y k) = hr.lift (upV t y) k := by
  funext c; apply Fin.ext
  match c with
  | ⟨0, _⟩ => rfl
  | ⟨1, _⟩ => rfl

/-- The maximum of each row, started from the accumulator's value: the kernel's reduction of the block, and the host's
    reduction of the array followed by one more maximum with the same starting value, which changes nothing. -/
theorem rows_rowMax (x : FVec Ideal (Arr n) .f32) (hk : (Blk n).Reduces [1] BlkV) (hφ : FKind.Formats .f32)
    (hacc : (0xFF800000#32 : BitVec 32) = 0xFF800000#32) (hr' : (Arr n).ReducesTo [1] ArrV) (hr : (Arr n).Reduces [1] ArrV)
    (hu : 0 < Sc.numel) (hb : Sc.BroadcastsInDim ArrV ![]) :
    multiReduction .maximumf [1] BlkV (rows t x) 0xFF800000#32 hk hφ hacc
      = rowsV t (maximumf (broadcastInDim ArrV ![] hb (constant (F := Ideal) Sc .f32 0xFF800000#32))
          (Host.reduce FloatOps.maximumf x (constant (F := Ideal) Sc .f32 0xFF800000#32) hr' hu)) := by
  funext y
  refine (Ideal.multiReduction_maximumf_single (rows t x) 0xFF800000#32 hk hφ hacc y).trans ?_
  show _ = max (Ideal.ofBits .f32 0xFF800000#32) (Host.reduce FloatOps.maximumf x (constant (F := Ideal) Sc .f32 0xFF800000#32) hr' hu (upV t y))
  rw [Host.reduce_eq_fold_single FloatOps.maximumf x _ hr' hr hu (upV t y)]
  have hfold : (Finset.univ : Finset (Fin ((Blk n).size 1))).fold max (FloatOps.ofBits (F := Ideal) .f32 0xFF800000#32) (rows t x ∘ hk.lift y)
      = (Finset.univ : Finset (Fin ((Arr n).size 1))).fold FloatOps.maximumf
          (constant (F := Ideal) Sc .f32 0xFF800000#32 (Shape.Idx.first hu)) (x ∘ hr.lift (upV t y)) :=
    Finset.fold_congr (fun k _ => congrArg x (up_lift t hk hr y k))
  rw [hfold]
  refine (max_eq_right ?_).symm
  exact (Finset.le_fold_max _).mpr (Or.inl le_rfl)

/-- The sum of each row. -/
theorem rows_rowSum (x : FVec Ideal (Arr n) .f32) (hk : (Blk n).Reduces [1] BlkV) (hφ : FKind.Formats .f32)
    (hacc : (0x00000000#32 : BitVec 32) = 0x00000000#32) (hr' : (Arr n).ReducesTo [1] ArrV)
    (hr : (Arr n).Reduces [1] ArrV) (hu : 0 < Sc.numel) :
    multiReduction .add [1] BlkV (rows t x) 0x00000000#32 hk hφ hacc
      = rowsV t (Host.reduceAdd x (constant (F := Ideal) Sc .f32 0x00000000#32) hr' hu) := by
  funext y
  refine (Ideal.multiReduction_add_single (rows t x) 0x00000000#32 hk hφ hacc y).trans ?_
  show _ = Ideal.hostReduceAdd hr' x (Ideal.ofBits .f32 0x00000000#32) (upV t y)
  rw [Ideal.hostReduceAdd_single hr' hr, Ideal.ofBits_zero_f32, zero_add]
  exact Finset.sum_congr rfl fun k _ => congrArg x (up_lift t hk hr y k)

end Cert.LibRows

end
-- ==== Proof.KWin.lean ====
/-
  The windows of the three kernel regions, read as row blocks.

  Every region runs over 25 grid points. At point `t` a row-blocked window (the adjacency rows, the node table, the outputs) holds
  rows `[400 t, 400 t + 400)` of its array, and a resident window (the weights, the biases, the bf16 node table) holds its
  whole array. The printed index maps are decided once over the grid; a block's coordinate along an axis is the block index
  times the block's extent plus the coordinate inside the block. The 25 row blocks of an output tile its array.
-/
import proofs.«172874_g6133213298789_cont_9to1_m_1291_3_alg».proof.Proof.Gen.KernelIdeal.Frame
import proofs.«172874_g6133213298789_cont_9to1_m_1291_3_alg».proof.Proof.LibRows

set_option maxRecDepth 16384

noncomputable section

namespace Cert.KWin

open Idealize.ShloMosaic Idealize.ShloMosaic.TcCoe Idealize.SL.Sem Cert.LibRows Cert.KernelIdeal Cert.KernelIdeal.Gen
open Idealize.ShloMosaic.Pipeline (Dat Cfg Window)

theorem hz : (![0, 0] : Fin 2 → Nat) = fun _ => 0 := funext fun a => by fin_cases a <;> rfl

/-! ## Region 0 -/

/-- Grid point `t` of region 0 as a block number. -/
def bn0 (t : Fin cfg0.N) : Fin 25 := ⟨t.val, lt_of_lt_of_eq t.isLt N_0⟩

theorem idx0_0 : ∀ t : Fin cfg0.N, win0_0.index t (0 : Fin 2) = t.val ∧ win0_0.index t (1 : Fin 2) = 0 :=
  (by decide +kernel : ∀ t : Fin grid0.N, _)
/-- Window 0's block at `t` is row block `t` of its array. -/
theorem read0_0 (t : Fin cfg0.N) (G : S10000x128.Idx → EReal) :
    ((cfg0.win 0).blk t).view.read (Elt Ideal) G = rows (bn0 t) G := by
  funext y
  show G (((cfg0.win 0).blk t).view.emb y) = G (up (bn0 t) y)
  refine congrArg G (funext fun a => Fin.ext ?_)
  obtain ⟨e0, e1⟩ := idx0_0 t
  match a with
  | ⟨0, _⟩ => show win0_0.index t (0 : Fin 2) * 400 + 1 * (y 0).val = 400 * t.val + (y 0).val; omega
  | ⟨1, _⟩ => show win0_0.index t (1 : Fin 2) * 128 + 1 * (y 1).val = (y 1).val; omega

theorem idx0_1 : ∀ t : Fin cfg0.N, win0_1.index t (0 : Fin 2) = 0 ∧ win0_1.index t (1 : Fin 2) = 0 :=
  (by decide +kernel : ∀ t : Fin grid0.N, _)
/-- Window 1 holds its whole array at every point. -/
theorem read0_1 (t : Fin cfg0.N) (G : S128x128.Idx → EReal) :
    ((cfg0.win 1).blk t).view.read (Elt Ideal) G = G := by
  funext y
  show G (((cfg0.win 1).blk t).view.emb y) = G y
  refine congrArg G (funext fun a => Fin.ext ?_)
  obtain ⟨e0, e1⟩ := idx0_1 t
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem idx0_2 : ∀ t : Fin cfg0.N, win0_2.index t (0 : Fin 2) = 0 ∧ win0_2.index t (1 : Fin 2) = 0 :=
  (by decide +kernel : ∀ t : Fin grid0.N, _)
/-- Window 2 holds its whole array at every point. -/
theorem read0_2 (t : Fin cfg0.N) (G : S1x128.Idx → EReal) :
    ((cfg0.win 2).blk t).view.read (Elt Ideal) G = G := by
  funext y
  show G (((cfg0.win 2).blk t).view.emb y) = G y
  refine congrArg G (funext fun a => Fin.ext ?_)
  obtain ⟨e0, e1⟩ := idx0_2 t
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem idx0_3 : ∀ t : Fin cfg0.N, win0_3.index t (0 : Fin 2) = t.val ∧ win0_3.index t (1 : Fin 2) = 0 :=
  (by decide +kernel : ∀ t : Fin grid0.N, _)
/-- Window 3's block at `t` is row block `t` of its array. -/
theorem read0_3 (t : Fin cfg0.N) (G : S10000x128.Idx → EReal) :
    ((cfg0.win 3).blk t).view.read (Elt Ideal) G = rows (bn0 t) G := by
  funext y
  show G (((cfg0.win 3).blk t).view.emb y) = G (up (bn0 t) y)
  refine congrArg G (funext fun a => Fin.ext ?_)
  obtain ⟨e0, e1⟩ := idx0_3 t
  match a with
  | ⟨0, _⟩ => show win0_3.index t (0 : Fin 2) * 400 + 1 * (y 0).val = 400 * t.val + (y 0).val; omega
  | ⟨1, _⟩ => show win0_3.index t (1 : Fin 2) * 128 + 1 * (y 1).val = (y 1).val; omega
/-- An index of the array is in point `t`'s block of window 3 iff each coordinate is in the block's range. -/
theorem mem0_3 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v1_0).slice (win0_3.rect t)).set ↔ _
  rw [View.set_slice_whole, Rect.mem_set_unit]
  exact Iff.rfl
/-- Row `r` of the array is in the block of point `r / 400`, which is written back: the blocks tile the array. -/
theorem tile0_3 (i : S10000x128.Idx) : ∃ t : Fin cfg0.N, (cfg0.win 3).flush t = true ∧ i ∈ ((cfg0.win 3).blk t).view.set := by
  have hi : (i 0).val < 10000 := (i 0).isLt
  have h1 : (i 1).val < 128 := (i 1).isLt
  have hN : cfg0.N = 25 := N_0
  refine ⟨⟨(i 0).val / 400, by rw [hN]; omega⟩, flush0_3 _, ?_⟩
  rw [mem0_3]
  obtain ⟨e0, e1⟩ := idx0_3 ⟨(i 0).val / 400, by rw [hN]; omega⟩
  intro a
  match a with
  | ⟨0, _⟩ =>
    show win0_3.index _ (0 : Fin 2) * 400 ≤ (i 0).val ∧ (i 0).val < win0_3.index _ (0 : Fin 2) * 400 + 400
    rw [e0]
    show (i 0).val / 400 * 400 ≤ (i 0).val ∧ (i 0).val < (i 0).val / 400 * 400 + 400
    omega
  | ⟨1, _⟩ =>
    show win0_3.index _ (1 : Fin 2) * 128 ≤ (i 1).val ∧ (i 1).val < win0_3.index _ (1 : Fin 2) * 128 + 128
    rw [e1]
    omega

theorem idx0_4 : ∀ t : Fin cfg0.N, win0_4.index t (0 : Fin 2) = t.val ∧ win0_4.index t (1 : Fin 2) = 0 :=
  (by decide +kernel : ∀ t : Fin grid0.N, _)
/-- Window 4's block at `t` is row block `t` of its array. -/
theorem read0_4 (t : Fin cfg0.N) (G : S10000x128.Idx → EReal) :
    ((cfg0.win 4).blk t).view.read (Elt Ideal) G = rows (bn0 t) G := by
  funext y
  show G (((cfg0.win 4).blk t).view.emb y) = G (up (bn0 t) y)
  refine congrArg G (funext fun a => Fin.ext ?_)
  obtain ⟨e0, e1⟩ := idx0_4 t
  match a with
  | ⟨0, _⟩ => show win0_4.index t (0 : Fin 2) * 400 + 1 * (y 0).val = 400 * t.val + (y 0).val; omega
  | ⟨1, _⟩ => show win0_4.index t (1 : Fin 2) * 128 + 1 * (y 1).val = (y 1).val; omega
/-- An index of the array is in point `t`'s block of window 4 iff each coordinate is in the block's range. -/
theorem mem0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1_1).slice (win0_4.rect t)).set ↔ _
  rw [View.set_slice_whole, Rect.mem_set_unit]
  exact Iff.rfl
/-- Row `r` of the array is in the block of point `r / 400`, which is written back: the blocks tile the array. -/
theorem tile0_4 (i : S10000x128.Idx) : ∃ t : Fin cfg0.N, (cfg0.win 4).flush t = true ∧ i ∈ ((cfg0.win 4).blk t).view.set := by
  have hi : (i 0).val < 10000 := (i 0).isLt
  have h1 : (i 1).val < 128 := (i 1).isLt
  have hN : cfg0.N = 25 := N_0
  refine ⟨⟨(i 0).val / 400, by rw [hN]; omega⟩, flush0_4 _, ?_⟩
  rw [mem0_4]
  obtain ⟨e0, e1⟩ := idx0_4 ⟨(i 0).val / 400, by rw [hN]; omega⟩
  intro a
  match a with
  | ⟨0, _⟩ =>
    show win0_4.index _ (0 : Fin 2) * 400 ≤ (i 0).val ∧ (i 0).val < win0_4.index _ (0 : Fin 2) * 400 + 400
    rw [e0]
    show (i 0).val / 400 * 400 ≤ (i 0).val ∧ (i 0).val < (i 0).val / 400 * 400 + 400
    omega
  | ⟨1, _⟩ =>
    show win0_4.index _ (1 : Fin 2) * 128 ≤ (i 1).val ∧ (i 1).val < win0_4.index _ (1 : Fin 2) * 128 + 128
    rw [e1]
    omega

/-! ## Region 1 -/

/-- Grid point `t` of region 1 as a block number. -/
def bn1 (t : Fin cfg1.N) : Fin 25 := ⟨t.val, lt_of_lt_of_eq t.isLt N_1⟩

theorem idx1_0 : ∀ t : Fin cfg1.N, win1_0.index t (0 : Fin 2) = t.val ∧ win1_0.index t (1 : Fin 2) = 0 :=
  (by decide +kernel : ∀ t : Fin grid1.N, _)
/-- Window 0's block at `t` is row block `t` of its array. -/
theorem read1_0 (t : Fin cfg1.N) (G : S10000x10000.Idx → EReal) :
    ((cfg1.win 0).blk t).view.read (Elt Ideal) G = rows (bn1 t) G := by
  funext y
  show G (((cfg1.win 0).blk t).view.emb y) = G (up (bn1 t) y)
  refine congrArg G (funext fun a => Fin.ext ?_)
  obtain ⟨e0, e1⟩ := idx1_0 t
  match a with
  | ⟨0, _⟩ => show win1_0.index t (0 : Fin 2) * 400 + 1 * (y 0).val = 400 * t.val + (y 0).val; omega
  | ⟨1, _⟩ => show win1_0.index t (1 : Fin 2) * 10000 + 1 * (y 1).val = (y 1).val; omega

theorem idx1_1 : ∀ t : Fin cfg1.N, win1_1.index t (0 : Fin 2) = 0 ∧ win1_1.index t (1 : Fin 2) = 0 :=
  (by decide +kernel : ∀ t : Fin grid1.N, _)
/-- Window 1 holds its whole array at every point. -/
theorem read1_1 (t : Fin cfg1.N) (G : S10000x128.Idx → EReal) :
    ((cfg1.win 1).blk t).view.read (Elt Ideal) G = G := by
  funext y
  show G (((cfg1.win 1).blk t).view.emb y) = G y
  refine congrArg G (funext fun a => Fin.ext ?_)
  obtain ⟨e0, e1⟩ := idx1_1 t
  match a with
  | ⟨0, _⟩ => show win1_1.index t (0 : Fin 2) * 10000 + 1 * (y 0).val = (y 0).val; omega
  | ⟨1, _⟩ => show win1_1.index t (1 : Fin 2) * 128 + 1 * (y 1).val = (y 1).val; omega

theorem idx1_2 : ∀ t : Fin cfg1.N, win1_2.index t (0 : Fin 2) = t.val ∧ win1_2.index t (1 : Fin 2) = 0 :=
  (by decide +kernel : ∀ t : Fin grid1.N, _)
/-- Window 2's block at `t` is row block `t` of its array. -/
theorem read1_2 (t : Fin cfg1.N) (G : S10000x128.Idx → EReal) :
    ((cfg1.win 2).blk t).view.read (Elt Ideal) G = rows (bn1 t) G := by
  funext y
  show G (((cfg1.win 2).blk t).view.emb y) = G (up (bn1 t) y)
  refine congrArg G (funext fun a => Fin.ext ?_)
  obtain ⟨e0, e1⟩ := idx1_2 t
  match a with
  | ⟨0, _⟩ => show win1_2.index t (0 : Fin 2) * 400 + 1 * (y 0).val = 400 * t.val + (y 0).val; omega
  | ⟨1, _⟩ => show win1_2.index t (1 : Fin 2) * 128 + 1 * (y 1).val = (y 1).val; omega

theorem idx1_3 : ∀ t : Fin cfg1.N, win1_3.index t (0 : Fin 2) = 0 ∧ win1_3.index t (1 : Fin 2) = 0 :=
  (by decide +kernel : ∀ t : Fin grid1.N, _)
/-- Window 3 holds its whole array at every point. -/
theorem read1_3 (t : Fin cfg1.N) (G : S128x384.Idx → EReal) :
    ((cfg1.win 3).blk t).view.read (Elt Ideal) G = G := by
  funext y
  show G (((cfg1.win 3).blk t).view.emb y) = G y
  refine congrArg G (funext fun a => Fin.ext ?_)
  obtain ⟨e0, e1⟩ := idx1_3 t
  match a with
  | ⟨0, _⟩ => show win1_3.index t (0 : Fin 2) * 128 + 1 * (y 0).val = (y 0).val; omega
  | ⟨1, _⟩ => show win1_3.index t (1 : Fin 2) * 384 + 1 * (y 1).val = (y 1).val; omega

theorem idx1_4 : ∀ t : Fin cfg1.N, win1_4.index t (0 : Fin 2) = 0 ∧ win1_4.index t (1 : Fin 2) = 0 :=
  (by decide +kernel : ∀ t : Fin grid1.N, _)
/-- Window 4 holds its whole array at every point. -/
theorem read1_4 (t : Fin cfg1.N) (G : S128x384.Idx → EReal) :
    ((cfg1.win 4).blk t).view.read (Elt Ideal) G = G := by
  funext y
  show G (((cfg1.win 4).blk t).view.emb y) = G y
  refine congrArg G (funext fun a => Fin.ext ?_)
  obtain ⟨e0, e1⟩ := idx1_4 t
  match a with
  | ⟨0, _⟩ => show win1_4.index t (0 : Fin 2) * 128 + 1 * (y 0).val = (y 0).val; omega
  | ⟨1, _⟩ => show win1_4.index t (1 : Fin 2) * 384 + 1 * (y 1).val = (y 1).val; omega

theorem idx1_5 : ∀ t : Fin cfg1.N, win1_5.index t (0 : Fin 2) = 0 ∧ win1_5.index t (1 : Fin 2) = 0 :=
  (by decide +kernel : ∀ t : Fin grid1.N, _)
/-- Window 5 holds its whole array at every point. -/
theorem read1_5 (t : Fin cfg1.N) (G : S1x384.Idx → EReal) :
    ((cfg1.win 5).blk t).view.read (Elt Ideal) G = G := by
  funext y
  show G (((cfg1.win 5).blk t).view.emb y) = G y
  refine congrArg G (funext fun a => Fin.ext ?_)
  obtain ⟨e0, e1⟩ := idx1_5 t
  match a with
  | ⟨0, _⟩ => show win1_5.index t (0 : Fin 2) * 1 + 1 * (y 0).val = (y 0).val; omega
  | ⟨1, _⟩ => show win1_5.index t (1 : Fin 2) * 384 + 1 * (y 1).val = (y 1).val; omega

theorem idx1_6 : ∀ t : Fin cfg1.N, win1_6.index t (0 : Fin 2) = 0 ∧ win1_6.index t (1 : Fin 2) = 0 :=
  (by decide +kernel : ∀ t : Fin grid1.N, _)
/-- Window 6 holds its whole array at every point. -/
theorem read1_6 (t : Fin cfg1.N) (G : S1x384.Idx → EReal) :
    ((cfg1.win 6).blk t).view.read (Elt Ideal) G = G := by
  funext y
  show G (((cfg1.win 6).blk t).view.emb y) = G y
  refine congrArg G (funext fun a => Fin.ext ?_)
  obtain ⟨e0, e1⟩ := idx1_6 t
  match a with
  | ⟨0, _⟩ => show win1_6.index t (0 : Fin 2) * 1 + 1 * (y 0).val = (y 0).val; omega
  | ⟨1, _⟩ => show win1_6.index t (1 : Fin 2) * 384 + 1 * (y 1).val = (y 1).val; omega

theorem idx1_7 : ∀ t : Fin cfg1.N, win1_7.index t (0 : Fin 2) = 0 ∧ win1_7.index t (1 : Fin 2) = 0 :=
  (by decide +kernel : ∀ t : Fin grid1.N, _)
/-- Window 7 holds its whole array at every point. -/
theorem read1_7 (t : Fin cfg1.N) (G : S128x128.Idx → EReal) :
    ((cfg1.win 7).blk t).view.read (Elt Ideal) G = G := by
  funext y
  show G (((cfg1.win 7).blk t).view.emb y) = G y
  refine congrArg G (funext fun a => Fin.ext ?_)
  obtain ⟨e0, e1⟩ := idx1_7 t
  match a with
  | ⟨0, _⟩ => show win1_7.index t (0 : Fin 2) * 128 + 1 * (y 0).val = (y 0).val; omega
  | ⟨1, _⟩ => show win1_7.index t (1 : Fin 2) * 128 + 1 * (y 1).val = (y 1).val; omega

theorem idx1_8 : ∀ t : Fin cfg1.N, win1_8.index t (0 : Fin 2) = 0 ∧ win1_8.index t (1 : Fin 2) = 0 :=
  (by decide +kernel : ∀ t : Fin grid1.N, _)
/-- Window 8 holds its whole array at every point. -/
theorem read1_8 (t : Fin cfg1.N) (G : S1x128.Idx → EReal) :
    ((cfg1.win 8).blk t).view.read (Elt Ideal) G = G := by
  funext y
  show G (((cfg1.win 8).blk t).view.emb y) = G y
  refine congrArg G (funext fun a => Fin.ext ?_)
  obtain ⟨e0, e1⟩ := idx1_8 t
  match a with
  | ⟨0, _⟩ => show win1_8.index t (0 : Fin 2) * 1 + 1 * (y 0).val = (y 0).val; omega
  | ⟨1, _⟩ => show win1_8.index t (1 : Fin 2) * 128 + 1 * (y 1).val = (y 1).val; omega

theorem idx1_9 : ∀ t : Fin cfg1.N, win1_9.index t (0 : Fin 2) = 0 ∧ win1_9.index t (1 : Fin 2) = 0 :=
  (by decide +kernel : ∀ t : Fin grid1.N, _)
/-- Window 9 holds its whole array at every point. -/
theorem read1_9 (t : Fin cfg1.N) (G : S128x128.Idx → EReal) :
    ((cfg1.win 9).blk t).view.read (Elt Ideal) G = G := by
  funext y
  show G (((cfg1.win 9).blk t).view.emb y) = G y
  refine congrArg G (funext fun a => Fin.ext ?_)
  obtain ⟨e0, e1⟩ := idx1_9 t
  match a with
  | ⟨0, _⟩ => show win1_9.index t (0 : Fin 2) * 128 + 1 * (y 0).val = (y 0).val; omega
  | ⟨1, _⟩ => show win1_9.index t (1 : Fin 2) * 128 + 1 * (y 1).val = (y 1).val; omega

theorem idx1_10 : ∀ t : Fin cfg1.N, win1_10.index t (0 : Fin 2) = 0 ∧ win1_10.index t (1 : Fin 2) = 0 :=
  (by decide +kernel : ∀ t : Fin grid1.N, _)
/-- Window 10 holds its whole array at every point. -/
theorem read1_10 (t : Fin cfg1.N) (G : S1x128.Idx → EReal) :
    ((cfg1.win 10).blk t).view.read (Elt Ideal) G = G := by
  funext y
  show G (((cfg1.win 10).blk t).view.emb y) = G y
  refine congrArg G (funext fun a => Fin.ext ?_)
  obtain ⟨e0, e1⟩ := idx1_10 t
  match a with
  | ⟨0, _⟩ => show win1_10.index t (0 : Fin 2) * 1 + 1 * (y 0).val = (y 0).val; omega
  | ⟨1, _⟩ => show win1_10.index t (1 : Fin 2) * 128 + 1 * (y 1).val = (y 1).val; omega

theorem idx1_11 : ∀ t : Fin cfg1.N, win1_11.index t (0 : Fin 2) = t.val ∧ win1_11.index t (1 : Fin 2) = 0 :=
  (by decide +kernel : ∀ t : Fin grid1.N, _)
/-- Window 11's block at `t` is row block `t` of its array. -/
theorem read1_11 (t : Fin cfg1.N) (G : S10000x128.Idx → EReal) :
    ((cfg1.win 11).blk t).view.read (Elt Ideal) G = rows (bn1 t) G := by
  funext y
  show G (((cfg1.win 11).blk t).view.emb y) = G (up (bn1 t) y)
  refine congrArg G (funext fun a => Fin.ext ?_)
  obtain ⟨e0, e1⟩ := idx1_11 t
  match a with
  | ⟨0, _⟩ => show win1_11.index t (0 : Fin 2) * 400 + 1 * (y 0).val = 400 * t.val + (y 0).val; omega
  | ⟨1, _⟩ => show win1_11.index t (1 : Fin 2) * 128 + 1 * (y 1).val = (y 1).val; omega
/-- An index of the array is in point `t`'s block of window 11 iff each coordinate is in the block's range. -/
theorem mem1_11 (t : Fin cfg1.N) (i : S10000x128.Idx) :
    i ∈ ((cfg1.win 11).blk t).view.set ↔ ∀ a : Fin 2, win1_11.index t a * S400x128.size a ≤ (i a).val ∧ (i a).val < win1_11.index t a * S400x128.size a + S400x128.size a := by
  show i ∈ ((View.whole main_v24_0).slice (win1_11.rect t)).set ↔ _
  rw [View.set_slice_whole, Rect.mem_set_unit]
  exact Iff.rfl
/-- Row `r` of the array is in the block of point `r / 400`, which is written back: the blocks tile the array. -/
theorem tile1_11 (i : S10000x128.Idx) : ∃ t : Fin cfg1.N, (cfg1.win 11).flush t = true ∧ i ∈ ((cfg1.win 11).blk t).view.set := by
  have hi : (i 0).val < 10000 := (i 0).isLt
  have h1 : (i 1).val < 128 := (i 1).isLt
  have hN : cfg1.N = 25 := N_1
  refine ⟨⟨(i 0).val / 400, by rw [hN]; omega⟩, flush1_11 _, ?_⟩
  rw [mem1_11]
  obtain ⟨e0, e1⟩ := idx1_11 ⟨(i 0).val / 400, by rw [hN]; omega⟩
  intro a
  match a with
  | ⟨0, _⟩ =>
    show win1_11.index _ (0 : Fin 2) * 400 ≤ (i 0).val ∧ (i 0).val < win1_11.index _ (0 : Fin 2) * 400 + 400
    rw [e0]
    show (i 0).val / 400 * 400 ≤ (i 0).val ∧ (i 0).val < (i 0).val / 400 * 400 + 400
    omega
  | ⟨1, _⟩ =>
    show win1_11.index _ (1 : Fin 2) * 128 ≤ (i 1).val ∧ (i 1).val < win1_11.index _ (1 : Fin 2) * 128 + 128
    rw [e1]
    omega

theorem idx1_12 : ∀ t : Fin cfg1.N, win1_12.index t (0 : Fin 2) = t.val ∧ win1_12.index t (1 : Fin 2) = 0 :=
  (by decide +kernel : ∀ t : Fin grid1.N, _)
/-- Window 12's block at `t` is row block `t` of its array. -/
theorem read1_12 (t : Fin cfg1.N) (G : S10000x128.Idx → EReal) :
    ((cfg1.win 12).blk t).view.read (Elt Ideal) G = rows (bn1 t) G := by
  funext y
  show G (((cfg1.win 12).blk t).view.emb y) = G (up (bn1 t) y)
  refine congrArg G (funext fun a => Fin.ext ?_)
  obtain ⟨e0, e1⟩ := idx1_12 t
  match a with
  | ⟨0, _⟩ => show win1_12.index t (0 : Fin 2) * 400 + 1 * (y 0).val = 400 * t.val + (y 0).val; omega
  | ⟨1, _⟩ => show win1_12.index t (1 : Fin 2) * 128 + 1 * (y 1).val = (y 1).val; omega
/-- An index of the array is in point `t`'s block of window 12 iff each coordinate is in the block's range. -/
theorem mem1_12 (t : Fin cfg1.N) (i : S10000x128.Idx) :
    i ∈ ((cfg1.win 12).blk t).view.set ↔ ∀ a : Fin 2, win1_12.index t a * S400x128.size a ≤ (i a).val ∧ (i a).val < win1_12.index t a * S400x128.size a + S400x128.size a := by
  show i ∈ ((View.whole main_v24_1).slice (win1_12.rect t)).set ↔ _
  rw [View.set_slice_whole, Rect.mem_set_unit]
  exact Iff.rfl
/-- Row `r` of the array is in the block of point `r / 400`, which is written back: the blocks tile the array. -/
theorem tile1_12 (i : S10000x128.Idx) : ∃ t : Fin cfg1.N, (cfg1.win 12).flush t = true ∧ i ∈ ((cfg1.win 12).blk t).view.set := by
  have hi : (i 0).val < 10000 := (i 0).isLt
  have h1 : (i 1).val < 128 := (i 1).isLt
  have hN : cfg1.N = 25 := N_1
  refine ⟨⟨(i 0).val / 400, by rw [hN]; omega⟩, flush1_12 _, ?_⟩
  rw [mem1_12]
  obtain ⟨e0, e1⟩ := idx1_12 ⟨(i 0).val / 400, by rw [hN]; omega⟩
  intro a
  match a with
  | ⟨0, _⟩ =>
    show win1_12.index _ (0 : Fin 2) * 400 ≤ (i 0).val ∧ (i 0).val < win1_12.index _ (0 : Fin 2) * 400 + 400
    rw [e0]
    show (i 0).val / 400 * 400 ≤ (i 0).val ∧ (i 0).val < (i 0).val / 400 * 400 + 400
    omega
  | ⟨1, _⟩ =>
    show win1_12.index _ (1 : Fin 2) * 128 ≤ (i 1).val ∧ (i 1).val < win1_12.index _ (1 : Fin 2) * 128 + 128
    rw [e1]
    omega

/-! ## Region 2 -/

/-- Grid point `t` of region 2 as a block number. -/
def bn2 (t : Fin cfg2.N) : Fin 25 := ⟨t.val, lt_of_lt_of_eq t.isLt N_2⟩

theorem idx2_0 : ∀ t : Fin cfg2.N, win2_0.index t (0 : Fin 2) = t.val ∧ win2_0.index t (1 : Fin 2) = 0 :=
  (by decide +kernel : ∀ t : Fin grid2.N, _)
/-- Window 0's block at `t` is row block `t` of its array. -/
theorem read2_0 (t : Fin cfg2.N) (G : S10000x10000.Idx → EReal) :
    ((cfg2.win 0).blk t).view.read (Elt Ideal) G = rows (bn2 t) G := by
  funext y
  show G (((cfg2.win 0).blk t).view.emb y) = G (up (bn2 t) y)
  refine congrArg G (funext fun a => Fin.ext ?_)
  obtain ⟨e0, e1⟩ := idx2_0 t
  match a with
  | ⟨0, _⟩ => show win2_0.index t (0 : Fin 2) * 400 + 1 * (y 0).val = 400 * t.val + (y 0).val; omega
  | ⟨1, _⟩ => show win2_0.index t (1 : Fin 2) * 10000 + 1 * (y 1).val = (y 1).val; omega

theorem idx2_1 : ∀ t : Fin cfg2.N, win2_1.index t (0 : Fin 2) = 0 ∧ win2_1.index t (1 : Fin 2) = 0 :=
  (by decide +kernel : ∀ t : Fin grid2.N, _)
/-- Window 1 holds its whole array at every point. -/
theorem read2_1 (t : Fin cfg2.N) (G : S10000x128.Idx → EReal) :
    ((cfg2.win 1).blk t).view.read (Elt Ideal) G = G := by
  funext y
  show G (((cfg2.win 1).blk t).view.emb y) = G y
  refine congrArg G (funext fun a => Fin.ext ?_)
  obtain ⟨e0, e1⟩ := idx2_1 t
  match a with
  | ⟨0, _⟩ => show win2_1.index t (0 : Fin 2) * 10000 + 1 * (y 0).val = (y 0).val; omega
  | ⟨1, _⟩ => show win2_1.index t (1 : Fin 2) * 128 + 1 * (y 1).val = (y 1).val; omega

theorem idx2_2 : ∀ t : Fin cfg2.N, win2_2.index t (0 : Fin 2) = t.val ∧ win2_2.index t (1 : Fin 2) = 0 :=
  (by decide +kernel : ∀ t : Fin grid2.N, _)
/-- Window 2's block at `t` is row block `t` of its array. -/
theorem read2_2 (t : Fin cfg2.N) (G : S10000x128.Idx → EReal) :
    ((cfg2.win 2).blk t).view.read (Elt Ideal) G = rows (bn2 t) G := by
  funext y
  show G (((cfg2.win 2).blk t).view.emb y) = G (up (bn2 t) y)
  refine congrArg G (funext fun a => Fin.ext ?_)
  obtain ⟨e0, e1⟩ := idx2_2 t
  match a with
  | ⟨0, _⟩ => show win2_2.index t (0 : Fin 2) * 400 + 1 * (y 0).val = 400 * t.val + (y 0).val; omega
  | ⟨1, _⟩ => show win2_2.index t (1 : Fin 2) * 128 + 1 * (y 1).val = (y 1).val; omega

theorem idx2_3 : ∀ t : Fin cfg2.N, win2_3.index t (0 : Fin 2) = 0 ∧ win2_3.index t (1 : Fin 2) = 0 :=
  (by decide +kernel : ∀ t : Fin grid2.N, _)
/-- Window 3 holds its whole array at every point. -/
theorem read2_3 (t : Fin cfg2.N) (G : S128x384.Idx → EReal) :
    ((cfg2.win 3).blk t).view.read (Elt Ideal) G = G := by
  funext y
  show G (((cfg2.win 3).blk t).view.emb y) = G y
  refine congrArg G (funext fun a => Fin.ext ?_)
  obtain ⟨e0, e1⟩ := idx2_3 t
  match a with
  | ⟨0, _⟩ => show win2_3.index t (0 : Fin 2) * 128 + 1 * (y 0).val = (y 0).val; omega
  | ⟨1, _⟩ => show win2_3.index t (1 : Fin 2) * 384 + 1 * (y 1).val = (y 1).val; omega

theorem idx2_4 : ∀ t : Fin cfg2.N, win2_4.index t (0 : Fin 2) = 0 ∧ win2_4.index t (1 : Fin 2) = 0 :=
  (by decide +kernel : ∀ t : Fin grid2.N, _)
/-- Window 4 holds its whole array at every point. -/
theorem read2_4 (t : Fin cfg2.N) (G : S128x384.Idx → EReal) :
    ((cfg2.win 4).blk t).view.read (Elt Ideal) G = G := by
  funext y
  show G (((cfg2.win 4).blk t).view.emb y) = G y
  refine congrArg G (funext fun a => Fin.ext ?_)
  obtain ⟨e0, e1⟩ := idx2_4 t
  match a with
  | ⟨0, _⟩ => show win2_4.index t (0 : Fin 2) * 128 + 1 * (y 0).val = (y 0).val; omega
  | ⟨1, _⟩ => show win2_4.index t (1 : Fin 2) * 384 + 1 * (y 1).val = (y 1).val; omega

theorem idx2_5 : ∀ t : Fin cfg2.N, win2_5.index t (0 : Fin 2) = 0 ∧ win2_5.index t (1 : Fin 2) = 0 :=
  (by decide +kernel : ∀ t : Fin grid2.N, _)
/-- Window 5 holds its whole array at every point. -/
theorem read2_5 (t : Fin cfg2.N) (G : S1x384.Idx → EReal) :
    ((cfg2.win 5).blk t).view.read (Elt Ideal) G = G := by
  funext y
  show G (((cfg2.win 5).blk t).view.emb y) = G y
  refine congrArg G (funext fun a => Fin.ext ?_)
  obtain ⟨e0, e1⟩ := idx2_5 t
  match a with
  | ⟨0, _⟩ => show win2_5.index t (0 : Fin 2) * 1 + 1 * (y 0).val = (y 0).val; omega
  | ⟨1, _⟩ => show win2_5.index t (1 : Fin 2) * 384 + 1 * (y 1).val = (y 1).val; omega

theorem idx2_6 : ∀ t : Fin cfg2.N, win2_6.index t (0 : Fin 2) = 0 ∧ win2_6.index t (1 : Fin 2) = 0 :=
  (by decide +kernel : ∀ t : Fin grid2.N, _)
/-- Window 6 holds its whole array at every point. -/
theorem read2_6 (t : Fin cfg2.N) (G : S1x384.Idx → EReal) :
    ((cfg2.win 6).blk t).view.read (Elt Ideal) G = G := by
  funext y
  show G (((cfg2.win 6).blk t).view.emb y) = G y
  refine congrArg G (funext fun a => Fin.ext ?_)
  obtain ⟨e0, e1⟩ := idx2_6 t
  match a with
  | ⟨0, _⟩ => show win2_6.index t (0 : Fin 2) * 1 + 1 * (y 0).val = (y 0).val; omega
  | ⟨1, _⟩ => show win2_6.index t (1 : Fin 2) * 384 + 1 * (y 1).val = (y 1).val; omega

theorem idx2_7 : ∀ t : Fin cfg2.N, win2_7.index t (0 : Fin 2) = 0 ∧ win2_7.index t (1 : Fin 2) = 0 :=
  (by decide +kernel : ∀ t : Fin grid2.N, _)
/-- Window 7 holds its whole array at every point. -/
theorem read2_7 (t : Fin cfg2.N) (G : S128x128.Idx → EReal) :
    ((cfg2.win 7).blk t).view.read (Elt Ideal) G = G := by
  funext y
  show G (((cfg2.win 7).blk t).view.emb y) = G y
  refine congrArg G (funext fun a => Fin.ext ?_)
  obtain ⟨e0, e1⟩ := idx2_7 t
  match a with
  | ⟨0, _⟩ => show win2_7.index t (0 : Fin 2) * 128 + 1 * (y 0).val = (y 0).val; omega
  | ⟨1, _⟩ => show win2_7.index t (1 : Fin 2) * 128 + 1 * (y 1).val = (y 1).val; omega

theorem idx2_8 : ∀ t : Fin cfg2.N, win2_8.index t (0 : Fin 2) = 0 ∧ win2_8.index t (1 : Fin 2) = 0 :=
  (by decide +kernel : ∀ t : Fin grid2.N, _)
/-- Window 8 holds its whole array at every point. -/
theorem read2_8 (t : Fin cfg2.N) (G : S1x128.Idx → EReal) :
    ((cfg2.win 8).blk t).view.read (Elt Ideal) G = G := by
  funext y
  show G (((cfg2.win 8).blk t).view.emb y) = G y
  refine congrArg G (funext fun a => Fin.ext ?_)
  obtain ⟨e0, e1⟩ := idx2_8 t
  match a with
  | ⟨0, _⟩ => show win2_8.index t (0 : Fin 2) * 1 + 1 * (y 0).val = (y 0).val; omega
  | ⟨1, _⟩ => show win2_8.index t (1 : Fin 2) * 128 + 1 * (y 1).val = (y 1).val; omega

theorem idx2_9 : ∀ t : Fin cfg2.N, win2_9.index t (0 : Fin 2) = 0 ∧ win2_9.index t (1 : Fin 2) = 0 :=
  (by decide +kernel : ∀ t : Fin grid2.N, _)
/-- Window 9 holds its whole array at every point. -/
theorem read2_9 (t : Fin cfg2.N) (G : S128x128.Idx → EReal) :
    ((cfg2.win 9).blk t).view.read (Elt Ideal) G = G := by
  funext y
  show G (((cfg2.win 9).blk t).view.emb y) = G y
  refine congrArg G (funext fun a => Fin.ext ?_)
  obtain ⟨e0, e1⟩ := idx2_9 t
  match a with
  | ⟨0, _⟩ => show win2_9.index t (0 : Fin 2) * 128 + 1 * (y 0).val = (y 0).val; omega
  | ⟨1, _⟩ => show win2_9.index t (1 : Fin 2) * 128 + 1 * (y 1).val = (y 1).val; omega

theorem idx2_10 : ∀ t : Fin cfg2.N, win2_10.index t (0 : Fin 2) = 0 ∧ win2_10.index t (1 : Fin 2) = 0 :=
  (by decide +kernel : ∀ t : Fin grid2.N, _)
/-- Window 10 holds its whole array at every point. -/
theorem read2_10 (t : Fin cfg2.N) (G : S1x128.Idx → EReal) :
    ((cfg2.win 10).blk t).view.read (Elt Ideal) G = G := by
  funext y
  show G (((cfg2.win 10).blk t).view.emb y) = G y
  refine congrArg G (funext fun a => Fin.ext ?_)
  obtain ⟨e0, e1⟩ := idx2_10 t
  match a with
  | ⟨0, _⟩ => show win2_10.index t (0 : Fin 2) * 1 + 1 * (y 0).val = (y 0).val; omega
  | ⟨1, _⟩ => show win2_10.index t (1 : Fin 2) * 128 + 1 * (y 1).val = (y 1).val; omega

theorem idx2_11 : ∀ t : Fin cfg2.N, win2_11.index t (0 : Fin 2) = 0 ∧ win2_11.index t (1 : Fin 2) = 0 :=
  (by decide +kernel : ∀ t : Fin grid2.N, _)
/-- Window 11 holds its whole array at every point. -/
theorem read2_11 (t : Fin cfg2.N) (G : S128x128.Idx → EReal) :
    ((cfg2.win 11).blk t).view.read (Elt Ideal) G = G := by
  funext y
  show G (((cfg2.win 11).blk t).view.emb y) = G y
  refine congrArg G (funext fun a => Fin.ext ?_)
  obtain ⟨e0, e1⟩ := idx2_11 t
  match a with
  | ⟨0, _⟩ => show win2_11.index t (0 : Fin 2) * 128 + 1 * (y 0).val = (y 0).val; omega
  | ⟨1, _⟩ => show win2_11.index t (1 : Fin 2) * 128 + 1 * (y 1).val = (y 1).val; omega

theorem idx2_12 : ∀ t : Fin cfg2.N, win2_12.index t (0 : Fin 2) = 0 ∧ win2_12.index t (1 : Fin 2) = 0 :=
  (by decide +kernel : ∀ t : Fin grid2.N, _)
/-- Window 12 holds its whole array at every point. -/
theorem read2_12 (t : Fin cfg2.N) (G : S1x128.Idx → EReal) :
    ((cfg2.win 12).blk t).view.read (Elt Ideal) G = G := by
  funext y
  show G (((cfg2.win 12).blk t).view.emb y) = G y
  refine congrArg G (funext fun a => Fin.ext ?_)
  obtain ⟨e0, e1⟩ := idx2_12 t
  match a with
  | ⟨0, _⟩ => show win2_12.index t (0 : Fin 2) * 1 + 1 * (y 0).val = (y 0).val; omega
  | ⟨1, _⟩ => show win2_12.index t (1 : Fin 2) * 128 + 1 * (y 1).val = (y 1).val; omega

theorem idx2_13 : ∀ t : Fin cfg2.N, win2_13.index t (0 : Fin 2) = 0 ∧ win2_13.index t (1 : Fin 2) = 0 :=
  (by decide +kernel : ∀ t : Fin grid2.N, _)
/-- Window 13 holds its whole array at every point. -/
theorem read2_13 (t : Fin cfg2.N) (G : S128x40.Idx → EReal) :
    ((cfg2.win 13).blk t).view.read (Elt Ideal) G = G := by
  funext y
  show G (((cfg2.win 13).blk t).view.emb y) = G y
  refine congrArg G (funext fun a => Fin.ext ?_)
  obtain ⟨e0, e1⟩ := idx2_13 t
  match a with
  | ⟨0, _⟩ => show win2_13.index t (0 : Fin 2) * 128 + 1 * (y 0).val = (y 0).val; omega
  | ⟨1, _⟩ => show win2_13.index t (1 : Fin 2) * 40 + 1 * (y 1).val = (y 1).val; omega

theorem idx2_14 : ∀ t : Fin cfg2.N, win2_14.index t (0 : Fin 2) = 0 ∧ win2_14.index t (1 : Fin 2) = 0 :=
  (by decide +kernel : ∀ t : Fin grid2.N, _)
/-- Window 14 holds its whole array at every point. -/
theorem read2_14 (t : Fin cfg2.N) (G : S1x40.Idx → EReal) :
    ((cfg2.win 14).blk t).view.read (Elt Ideal) G = G := by
  funext y
  show G (((cfg2.win 14).blk t).view.emb y) = G y
  refine congrArg G (funext fun a => Fin.ext ?_)
  obtain ⟨e0, e1⟩ := idx2_14 t
  match a with
  | ⟨0, _⟩ => show win2_14.index t (0 : Fin 2) * 1 + 1 * (y 0).val = (y 0).val; omega
  | ⟨1, _⟩ => show win2_14.index t (1 : Fin 2) * 40 + 1 * (y 1).val = (y 1).val; omega

theorem idx2_15 : ∀ t : Fin cfg2.N, win2_15.index t (0 : Fin 2) = t.val ∧ win2_15.index t (1 : Fin 2) = 0 :=
  (by decide +kernel : ∀ t : Fin grid2.N, _)
/-- Window 15's block at `t` is row block `t` of its array. -/
theorem read2_15 (t : Fin cfg2.N) (G : S10000x40.Idx → EReal) :
    ((cfg2.win 15).blk t).view.read (Elt Ideal) G = rows (bn2 t) G := by
  funext y
  show G (((cfg2.win 15).blk t).view.emb y) = G (up (bn2 t) y)
  refine congrArg G (funext fun a => Fin.ext ?_)
  obtain ⟨e0, e1⟩ := idx2_15 t
  match a with
  | ⟨0, _⟩ => show win2_15.index t (0 : Fin 2) * 400 + 1 * (y 0).val = 400 * t.val + (y 0).val; omega
  | ⟨1, _⟩ => show win2_15.index t (1 : Fin 2) * 40 + 1 * (y 1).val = (y 1).val; omega
/-- An index of the array is in point `t`'s block of window 15 iff each coordinate is in the block's range. -/
theorem mem2_15 (t : Fin cfg2.N) (i : S10000x40.Idx) :
    i ∈ ((cfg2.win 15).blk t).view.set ↔ ∀ a : Fin 2, win2_15.index t a * S400x40.size a ≤ (i a).val ∧ (i a).val < win2_15.index t a * S400x40.size a + S400x40.size a := by
  show i ∈ ((View.whole main_v49).slice (win2_15.rect t)).set ↔ _
  rw [View.set_slice_whole, Rect.mem_set_unit]
  exact Iff.rfl
/-- Row `r` of the array is in the block of point `r / 400`, which is written back: the blocks tile the array. -/
theorem tile2_15 (i : S10000x40.Idx) : ∃ t : Fin cfg2.N, (cfg2.win 15).flush t = true ∧ i ∈ ((cfg2.win 15).blk t).view.set := by
  have hi : (i 0).val < 10000 := (i 0).isLt
  have h1 : (i 1).val < 40 := (i 1).isLt
  have hN : cfg2.N = 25 := N_2
  refine ⟨⟨(i 0).val / 400, by rw [hN]; omega⟩, flush2_15 _, ?_⟩
  rw [mem2_15]
  obtain ⟨e0, e1⟩ := idx2_15 ⟨(i 0).val / 400, by rw [hN]; omega⟩
  intro a
  match a with
  | ⟨0, _⟩ =>
    show win2_15.index _ (0 : Fin 2) * 400 ≤ (i 0).val ∧ (i 0).val < win2_15.index _ (0 : Fin 2) * 400 + 400
    rw [e0]
    show (i 0).val / 400 * 400 ≤ (i 0).val ∧ (i 0).val < (i 0).val / 400 * 400 + 400
    omega
  | ⟨1, _⟩ =>
    show win2_15.index _ (1 : Fin 2) * 40 ≤ (i 1).val ∧ (i 1).val < win2_15.index _ (1 : Fin 2) * 40 + 40
    rw [e1]
    omega

end Cert.KWin

end
-- ==== Proof.Model.lean ====
/-
  The network both programs compute, as one function of the sixteen argument arrays, at the ideal instance.

  X0 = relu (features · W1 + b1); a layer takes the node table `h` (and a second copy `xb` of it, which the aggregation
  reads) to relu (relu (g · Wg1 + bg1) · Wg2 + bg2), where g is the GRU cell's new state from the aggregated input
  `adj · xb` and the old state `h`:
    r = σ (gi[:, 0:128] + gh[:, 0:128]),  z = σ (gi[:, 128:256] + gh[:, 128:256]),
    n = tanh (gi[:, 256:384] + r * gh[:, 256:384]),  g = (1 - z) * n + z * h,
  with gi = (adj · xb) · Wihᵀ + bih, gh = h · Whhᵀ + bhh and σ x = 1 / (1 + e^{-x}); after two layers the head
  relu (x · Wc + bc) · Wd + bd is normalised row by row by the softmax e^{t - max t} / ∑ e^{t - max t}.
  The definitions are written with the host's whole-array operations, over the shapes and side conditions the printed reference
  states, so the reference's composed term unfolds to them.
-/
import proofs.«172874_g6133213298789_cont_9to1_m_1291_3_alg».proof.ReferenceIdeal
import proofs.«172874_g6133213298789_cont_9to1_m_1291_3_alg».proof.Proof.Gen.ReferenceIdeal
import Idealize.ShloMosaic.PureOps.Ideal

noncomputable section

namespace Cert.Model

open Idealize.ShloMosaic Cert.ReferenceIdeal Cert.ReferenceIdeal.Facts₀ Cert.ReferenceIdeal.Facts

/-- An f32 array of shape `s` at the ideal instance: a function from indices to extended reals. -/
abbrev A (s : Shape) : Type := FVec Ideal s .f32

/-- A scalar constant spread over a [10000, 128] array. -/
def splat128 (w : BitVec 32) : A S10000x128 := broadcastInDim S10000x128 ![] bcast_S_S10000x128 (constant S_ .f32 w)
def relu (x : A S10000x128) : A S10000x128 := maximumf x (splat128 0x00000000#32)
/-- The logistic function as the host spells it. -/
def sigm (x : A S10000x128) : A S10000x128 :=
  Host.divf (splat128 0x3F800000#32) (addf (splat128 0x3F800000#32) (Host.exp (Host.negf x)))

/-- A bias vector added to every row. -/
def bias128 (b : A S128) : A S10000x128 :=
  broadcastInDim S10000x128 ![0, 1] bcast_S1x128_S10000x128_0_1 (broadcastInDim S1x128 ![1] bcast_S128_S1x128_1 b)
def bias384 (b : A S384) : A S10000x384 :=
  broadcastInDim S10000x384 ![0, 1] bcast_S1x384_S10000x384_0_1 (broadcastInDim S1x384 ![1] bcast_S384_S1x384_1 b)
def bias40 (b : A S40) : A S10000x40 :=
  broadcastInDim S10000x40 ![0, 1] bcast_S1x40_S10000x40_0_1 (broadcastInDim S1x40 ![1] bcast_S40_S1x40_1 b)

/-- The dense layers `x · W + b`. -/
def lin128 (x : A S10000x128) (W : A S128x128) (b : A S128) : A S10000x128 :=
  addf (Host.dotGeneral dot_S10000x128_S128x128_S10000x128_1_0_0_1_n_n none x W) (bias128 b)
def lin384 (x : A S10000x128) (W : A S128x384) (b : A S384) : A S10000x384 :=
  addf (Host.dotGeneral dot_S10000x128_S128x384_S10000x384_1_0_0_1_n_n none x W) (bias384 b)
def lin40 (x : A S10000x128) (W : A S128x40) (b : A S40) : A S10000x40 :=
  addf (Host.dotGeneral dot_S10000x128_S128x40_S10000x40_1_0_0_1_n_n none x W) (bias40 b)

/-- The three gate ranges of the 384 columns. -/
def gate0 (x : A S10000x384) : A S10000x128 := extractStridedSlice S10000x128 ![0, 0] x slices_S10000x384_S10000x128_0_0
def gate1 (x : A S10000x384) : A S10000x128 := extractStridedSlice S10000x128 ![0, 128] x slices_S10000x384_S10000x128_0_128
def gate2 (x : A S10000x384) : A S10000x128 := extractStridedSlice S10000x128 ![0, 256] x slices_S10000x384_S10000x128_0_256

/-- The GRU cell from its two gate pre-activations `gi`, `gh` and the old state `h`. -/
def gruOf (gi gh : A S10000x384) (h : A S10000x128) : A S10000x128 :=
  addf (mulf (subf (splat128 0x3F800000#32) (sigm (addf (gate1 gi) (gate1 gh))))
          (Host.tanh (addf (gate2 gi) (mulf (sigm (addf (gate0 gi) (gate0 gh))) (gate2 gh)))))
       (mulf (sigm (addf (gate1 gi) (gate1 gh))) h)

/-- One layer: aggregate, GRU, the two-layer perceptron. -/
def layer (adj : A S10000x10000) (xb h : A S10000x128) (wih whh : A S128x384) (bih bhh : A S384)
    (wg1 : A S128x128) (bg1 : A S128) (wg2 : A S128x128) (bg2 : A S128) : A S10000x128 :=
  relu (lin128 (relu (lin128
    (gruOf (lin384 (Host.dotGeneral dot_S10000x10000_S10000x128_S10000x128_1_0_0_1_n_n none adj xb) wih bih) (lin384 h whh bhh) h)
    wg1 bg1)) wg2 bg2)

/-- One value per row spread along a row of 40. -/
def spread40 (v : A S10000) : A S10000x40 :=
  broadcastInDim S10000x40 ![0, 1] bcast_S10000x1_S10000x40_0_1 (broadcastInDim S10000x1 ![0] bcast_S10000_S10000x1_0 v)

/-- The row maximum (from -∞), and the softmax of each row. -/
def rowMax (x : A S10000x40) : A S10000 :=
  maximumf (broadcastInDim S10000 ![] bcast_S_S10000 (constant S_ .f32 0xFF800000#32))
    (Host.reduce FloatOps.maximumf x (constant S_ .f32 0xFF800000#32) reducesTo_S10000x40_S10000_d1 h_S_)
def expShift (x : A S10000x40) : A S10000x40 := Host.exp (subf x (spread40 (rowMax x)))
def softmax (x : A S10000x40) : A S10000x40 :=
  Host.divf (expShift x) (spread40 (Host.reduceAdd (expShift x) (constant S_ .f32 0x00000000#32) reducesTo_S10000x40_S10000_d1 h_S_))

/-- The classifier head. -/
def head (x : A S10000x128) (wc : A S128x128) (bc : A S128) (wd : A S128x40) (bd : A S40) : A S10000x40 :=
  softmax (lin40 (relu (lin128 x wc bc)) wd bd)

/-! ## A layer's parameters, cut out of the stacked arguments -/

def wT0 (W : A S2x384x128) : A S128x384 :=
  transpose S128x384 [1, 0] (shapeCast S384x128 (extractStridedSlice S1x384x128 ![0, 0, 0] W slices_S2x384x128_S1x384x128_0_0_0)
    shapeCasts_S1x384x128_S384x128) transposes_S384x128_S128x384_1_0
def wT1 (W : A S2x384x128) : A S128x384 :=
  transpose S128x384 [1, 0] (shapeCast S384x128 (extractStridedSlice S1x384x128 ![1, 0, 0] W slices_S2x384x128_S1x384x128_1_0_0)
    shapeCasts_S1x384x128_S384x128) transposes_S384x128_S128x384_1_0
def b384_0 (b : A S2x384) : A S384 := shapeCast S384 (extractStridedSlice S1x384 ![0, 0] b slices_S2x384_S1x384_0_0) shapeCasts_S1x384_S384
def b384_1 (b : A S2x384) : A S384 := shapeCast S384 (extractStridedSlice S1x384 ![1, 0] b slices_S2x384_S1x384_1_0) shapeCasts_S1x384_S384
def m128_0 (W : A S2x128x128) : A S128x128 :=
  shapeCast S128x128 (extractStridedSlice S1x128x128 ![0, 0, 0] W slices_S2x128x128_S1x128x128_0_0_0) shapeCasts_S1x128x128_S128x128
def m128_1 (W : A S2x128x128) : A S128x128 :=
  shapeCast S128x128 (extractStridedSlice S1x128x128 ![1, 0, 0] W slices_S2x128x128_S1x128x128_1_0_0) shapeCasts_S1x128x128_S128x128
def b128_0 (b : A S2x128) : A S128 := shapeCast S128 (extractStridedSlice S1x128 ![0, 0] b slices_S2x128_S1x128_0_0) shapeCasts_S1x128_S128
def b128_1 (b : A S2x128) : A S128 := shapeCast S128 (extractStridedSlice S1x128 ![1, 0] b slices_S2x128_S1x128_1_0) shapeCasts_S1x128_S128

/-! ## The network -/

def x0 (feat : A S10000x128) (w1 : A S128x128) (b1 : A S128) : A S10000x128 := relu (lin128 feat w1 b1)

def x1 (feat : A S10000x128) (adj : A S10000x10000) (w1 : A S128x128) (b1 : A S128) (wih whh : A S2x384x128) (bih bhh : A S2x384)
    (wg1 : A S2x128x128) (bg1 : A S2x128) (wg2 : A S2x128x128) (bg2 : A S2x128) : A S10000x128 :=
  layer adj (x0 feat w1 b1) (x0 feat w1 b1) (wT0 wih) (wT0 whh) (b384_0 bih) (b384_0 bhh) (m128_0 wg1) (b128_0 bg1) (m128_0 wg2) (b128_0 bg2)

def x2 (feat : A S10000x128) (adj : A S10000x10000) (w1 : A S128x128) (b1 : A S128) (wih whh : A S2x384x128) (bih bhh : A S2x384)
    (wg1 : A S2x128x128) (bg1 : A S2x128) (wg2 : A S2x128x128) (bg2 : A S2x128) : A S10000x128 :=
  layer adj (x1 feat adj w1 b1 wih whh bih bhh wg1 bg1 wg2 bg2) (x1 feat adj w1 b1 wih whh bih bhh wg1 bg1 wg2 bg2)
    (wT1 wih) (wT1 whh) (b384_1 bih) (b384_1 bhh) (m128_1 wg1) (b128_1 bg1) (m128_1 wg2) (b128_1 bg2)

def net (feat : A S10000x128) (adj : A S10000x10000) (w1 : A S128x128) (b1 : A S128) (wih whh : A S2x384x128) (bih bhh : A S2x384)
    (wg1 : A S2x128x128) (bg1 : A S2x128) (wg2 : A S2x128x128) (bg2 : A S2x128)
    (wc : A S128x128) (bc : A S128) (wd : A S128x40) (bd : A S40) : A S10000x40 :=
  head (x2 feat adj w1 b1 wih whh bih bhh wg1 bg1 wg2 bg2) wc bc wd bd

end Cert.Model

end
-- ==== Proof.KBody.lean ====
/-
  What the three kernel bodies compute on one block of 400 rows, at the ideal instance: block `t` of the network's
  corresponding whole-array stage. Each body is a composition of vector operations that work row by row, so it commutes with
  taking a row block (LibRows.lean), operation by operation.
-/
import proofs.«172874_g6133213298789_cont_9to1_m_1291_3_alg».proof.Proof.Gen.KernelIdeal
import proofs.«172874_g6133213298789_cont_9to1_m_1291_3_alg».proof.Proof.Gen.KernelIdeal.Skeleton
import proofs.«172874_g6133213298789_cont_9to1_m_1291_3_alg».proof.Proof.Model
import proofs.«172874_g6133213298789_cont_9to1_m_1291_3_alg».proof.Proof.LibRows

noncomputable section

namespace Cert.KBody

open Idealize.ShloMosaic Cert.LibRows Cert.KernelIdeal.Gen
open Cert.Model (A)

/-! ## The printed dimension records are the plain products' -/

theorem dotK_128_128 : Cert.KernelIdeal.dot_S400x128_S128x128_S400x128_1_0_0_1_n_n = DotDims.plain 400 128 128 := rfl
theorem dotK_10000_128 : Cert.KernelIdeal.dot_S400x10000_S10000x128_S400x128_1_0_0_1_n_n = DotDims.plain 400 10000 128 := rfl
theorem dotK_128_384 : Cert.KernelIdeal.dot_S400x128_S128x384_S400x384_1_0_0_1_n_n = DotDims.plain 400 128 384 := rfl
theorem dotK_128_40 : Cert.KernelIdeal.dot_S400x128_S128x40_S400x40_1_0_0_1_n_n = DotDims.plain 400 128 40 := rfl

/-! ## The input layer -/

/-- On block `t` of the features the first kernel's body computes block `t` of `relu (features · W1 + b1)`. -/
theorem pay0 (t : Fin 25) (feat : A (Arr 128)) (w1 : A ⟨2, ![128, 128]⟩) (b1 : A ⟨1, ![128]⟩) :
    k0_pay1 (F := Ideal) (rows t feat) w1 (asRow b1) = rows t (Cert.Model.x0 feat w1 b1) := by
  unfold k0_pay1
  dsimp only [matmul]
  rw [dotK_128_128, shapeCast_self, rows_matmul,
    rows_bias t b1 _ Cert.ReferenceIdeal.Facts₀.bcast_S128_S1x128_1 Cert.ReferenceIdeal.Facts₀.bcast_S1x128_S10000x128_0_1 (by decide),
    rows_addf, rows_splat t _ Cert.ReferenceIdeal.Facts₀.bcast_S_S10000x128, rows_maximumf]
  rfl

/-- The input gates' pre-activation `(adj · xb) · Wih + bih` on block `t` (region 1). -/
theorem gi1 (t : Fin 25) (adj : A (Arr 10000)) (xb : A (Arr 128)) (wih : A ⟨2, ![128, 384]⟩) (bih : A ⟨1, ![384]⟩) :
    k1_pay8 (F := Ideal) (rows t adj) xb wih (asRow bih)
      = rows t (Cert.Model.lin384 (Host.dotGeneral Cert.ReferenceIdeal.dot_S10000x10000_S10000x128_S10000x128_1_0_0_1_n_n none adj xb) wih bih) := by
  unfold k1_pay8
  dsimp only [matmul]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- The hidden gates' pre-activation `h · Whh + bhh` on block `t` (region 1). -/
theorem gh1 (t : Fin 25) (h : A (Arr 128)) (whh : A ⟨2, ![128, 384]⟩) (bhh : A ⟨1, ![384]⟩) :
    k1_pay9 (F := Ideal) (rows t h) whh (asRow bhh) = rows t (Cert.Model.lin384 h whh bhh) := by
  unfold k1_pay9 k1_pay3
  dsimp only [matmul]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- The reset gate `σ (gi[:, 0:128] + gh[:, 0:128])` on block `t` (region 1). -/
theorem rg1 (t : Fin 25) (adj : A (Arr 10000)) (xb h : A (Arr 128)) (wih whh : A ⟨2, ![128, 384]⟩) (bih bhh : A ⟨1, ![384]⟩) :
    k1_pay10 (F := Ideal) (rows t adj) xb (rows t h) wih whh (asRow bih) (asRow bhh)
      = rows t (Cert.Model.sigm (addf (Cert.Model.gate0 (Cert.Model.lin384 (Host.dotGeneral Cert.ReferenceIdeal.dot_S10000x10000_S10000x128_S10000x128_1_0_0_1_n_n none adj xb) wih bih)) (Cert.Model.gate0 (Cert.Model.lin384 h whh bhh)))) := by
  unfold k1_pay10
  rw [gi1, gh1]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- The update gate's input half `gi[:, 128:256]` on block `t` (region 1). -/
theorem ug1 (t : Fin 25) (adj : A (Arr 10000)) (xb : A (Arr 128)) (wih : A ⟨2, ![128, 384]⟩) (bih : A ⟨1, ![384]⟩) :
    k1_pay11 (F := Ideal) (rows t adj) xb wih (asRow bih) = rows t (Cert.Model.gate1 (Cert.Model.lin384 (Host.dotGeneral Cert.ReferenceIdeal.dot_S10000x10000_S10000x128_S10000x128_1_0_0_1_n_n none adj xb) wih bih)) := by
  unfold k1_pay11
  rw [gi1]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-! ## The GRU cell and the perceptron after it, from the gate pre-activations -/

/-- The GRU's new state from the two pre-activations, the reset gate `r`, the update gate's input half `u` and the old state. -/
def gruCore (gi gh : A (Arr 384)) (r u h : A (Arr 128)) : A (Arr 128) :=
  addf (mulf (subf (Cert.Model.splat128 0x3F800000#32) (Cert.Model.sigm (addf u (Cert.Model.gate1 gh))))
          (Host.tanh (addf (Cert.Model.gate2 gi) (mulf r (Cert.Model.gate2 gh)))))
       (mulf (Cert.Model.sigm (addf u (Cert.Model.gate1 gh))) h)

def mlp2 (g : A (Arr 128)) (wg1 : A ⟨2, ![128, 128]⟩) (bg1 : A ⟨1, ![128]⟩) (wg2 : A ⟨2, ![128, 128]⟩) (bg2 : A ⟨1, ![128]⟩) : A (Arr 128) :=
  Cert.Model.relu (Cert.Model.lin128 (Cert.Model.relu (Cert.Model.lin128 g wg1 bg1)) wg2 bg2)

/-- The rest of the layer kernel's body, from blocks of the pre-activations and gates: block `t` of the perceptron of the GRU. -/
theorem core1 (t : Fin 25) (gi gh : A (Arr 384)) (r u h : A (Arr 128)) (wg1 wg2 : A ⟨2, ![128, 128]⟩) (bg1 bg2 : A ⟨1, ![128]⟩) :
    k1_pay1 (F := Ideal) (rows t h) wg1 (asRow bg1) wg2 (asRow bg2) (rows t gi) (rows t gh) (rows t r) (rows t u)
      = rows t (mlp2 (gruCore gi gh r u h) wg1 bg1 wg2 bg2) := by
  unfold k1_pay1
  dsimp only [matmul]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- THE LAYER KERNEL'S BODY on block `t`: block `t` of the layer. -/
theorem pay1 (t : Fin 25) (adj : A (Arr 10000)) (xb h : A (Arr 128)) (wih whh : A ⟨2, ![128, 384]⟩) (bih bhh : A ⟨1, ![384]⟩)
    (wg1 wg2 : A ⟨2, ![128, 128]⟩) (bg1 bg2 : A ⟨1, ![128]⟩) :
    k1_pay1 (F := Ideal) (k1_pay3 (rows t h)) (k1_pay4 wg1) (k1_pay5 (asRow bg1)) (k1_pay6 wg2) (k1_pay7 (asRow bg2))
        (k1_pay8 (rows t adj) xb wih (asRow bih)) (k1_pay9 (rows t h) whh (asRow bhh))
        (k1_pay10 (rows t adj) xb (rows t h) wih whh (asRow bih) (asRow bhh)) (k1_pay11 (rows t adj) xb wih (asRow bih))
      = rows t (Cert.Model.layer adj xb h wih whh bih bhh wg1 bg1 wg2 bg2) := by
  rw [gi1, gh1, rg1, ug1]
  unfold k1_pay3 k1_pay4 k1_pay5 k1_pay6 k1_pay7
  simp only [shapeCast_self]
  rw [core1]
  rfl

/-- The input gates' pre-activation `(adj · xb) · Wih + bih` on block `t` (region 2). -/
theorem gi2 (t : Fin 25) (adj : A (Arr 10000)) (xb : A (Arr 128)) (wih : A ⟨2, ![128, 384]⟩) (bih : A ⟨1, ![384]⟩) :
    k2_pay7 (F := Ideal) (rows t adj) xb wih (asRow bih)
      = rows t (Cert.Model.lin384 (Host.dotGeneral Cert.ReferenceIdeal.dot_S10000x10000_S10000x128_S10000x128_1_0_0_1_n_n none adj xb) wih bih) := by
  unfold k2_pay7
  dsimp only [matmul]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- The hidden gates' pre-activation `h · Whh + bhh` on block `t` (region 2). -/
theorem gh2 (t : Fin 25) (h : A (Arr 128)) (whh : A ⟨2, ![128, 384]⟩) (bhh : A ⟨1, ![384]⟩) :
    k2_pay8 (F := Ideal) (rows t h) whh (asRow bhh) = rows t (Cert.Model.lin384 h whh bhh) := by
  unfold k2_pay8 k2_pay2
  dsimp only [matmul]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- The reset gate `σ (gi[:, 0:128] + gh[:, 0:128])` on block `t` (region 2). -/
theorem rg2 (t : Fin 25) (adj : A (Arr 10000)) (xb h : A (Arr 128)) (wih whh : A ⟨2, ![128, 384]⟩) (bih bhh : A ⟨1, ![384]⟩) :
    k2_pay9 (F := Ideal) (rows t adj) xb (rows t h) wih whh (asRow bih) (asRow bhh)
      = rows t (Cert.Model.sigm (addf (Cert.Model.gate0 (Cert.Model.lin384 (Host.dotGeneral Cert.ReferenceIdeal.dot_S10000x10000_S10000x128_S10000x128_1_0_0_1_n_n none adj xb) wih bih)) (Cert.Model.gate0 (Cert.Model.lin384 h whh bhh)))) := by
  unfold k2_pay9
  rw [gi2, gh2]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-- The update gate's input half `gi[:, 128:256]` on block `t` (region 2). -/
theorem ug2 (t : Fin 25) (adj : A (Arr 10000)) (xb : A (Arr 128)) (wih : A ⟨2, ![128, 384]⟩) (bih : A ⟨1, ![384]⟩) :
    k2_pay10 (F := Ideal) (rows t adj) xb wih (asRow bih) = rows t (Cert.Model.gate1 (Cert.Model.lin384 (Host.dotGeneral Cert.ReferenceIdeal.dot_S10000x10000_S10000x128_S10000x128_1_0_0_1_n_n none adj xb) wih bih)) := by
  unfold k2_pay10
  rw [gi2]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide)]
  rfl

/-! ## The last kernel: the layer, the head and the softmax -/

/-- Reducing the columns of a [10000, 40] array leaves one value per row. -/
theorem red_arr : (Arr 40).Reduces [1] ArrV := by decide

set_option maxRecDepth 16384 in
/-- The last kernel's body up to the shifted exponentials `e^{t - max t}`, from blocks of the pre-activations and gates. -/
theorem core2 (t : Fin 25) (gi gh : A (Arr 384)) (r u h : A (Arr 128)) (wg1 wg2 : A ⟨2, ![128, 128]⟩) (bg1 bg2 : A ⟨1, ![128]⟩)
    (wc : A ⟨2, ![128, 128]⟩) (bc : A ⟨1, ![128]⟩) (wd : A ⟨2, ![128, 40]⟩) (bd : A ⟨1, ![40]⟩) :
    k2_pay11 (F := Ideal) (rows t h) wg1 (asRow bg1) wg2 (asRow bg2) (rows t gi) (rows t gh) (rows t r) (rows t u)
        wc (asRow bc) wd (asRow bd)
      = rows t (Cert.Model.expShift (Cert.Model.lin40 (Cert.Model.relu (Cert.Model.lin128 (mlp2 (gruCore gi gh r u h) wg1 bg1 wg2 bg2) wc bc)) wd bd)) := by
  unfold k2_pay11
  dsimp only [matmul]
  simp only [rows_addf, rows_subf, rows_mulf, rows_maximumf, rows_divf, rows_exp, rows_tanh, rows_truncf, shapeCast_self,
    dotK_128_128, dotK_10000_128, dotK_128_384, dotK_128_40, rows_matmul,
    rows_slice t 0 (hh := Cert.ReferenceIdeal.Facts₀.slices_S10000x384_S10000x128_0_0), rows_slice t 128 (hh := Cert.ReferenceIdeal.Facts₀.slices_S10000x384_S10000x128_0_128),
    rows_slice t 256 (hh := Cert.ReferenceIdeal.Facts₀.slices_S10000x384_S10000x128_0_256),
    rows_logistic t (hb := Cert.ReferenceIdeal.Facts₀.bcast_S_S10000x128), rows_splat t (hb := Cert.ReferenceIdeal.Facts₀.bcast_S_S10000x128),
    rows_bias (n := 128) t (h1 := Cert.ReferenceIdeal.Facts₀.bcast_S128_S1x128_1) (h2 := Cert.ReferenceIdeal.Facts₀.bcast_S1x128_S10000x128_0_1) (hn := by decide),
    rows_bias (n := 384) t (h1 := Cert.ReferenceIdeal.Facts₀.bcast_S384_S1x384_1) (h2 := Cert.ReferenceIdeal.Facts₀.bcast_S1x384_S10000x384_0_1) (hn := by decide),
    rows_bias (n := 40) t (h1 := Cert.ReferenceIdeal.Facts₀.bcast_S40_S1x40_1) (h2 := Cert.ReferenceIdeal.Facts₀.bcast_S1x40_S10000x40_0_1) (hn := by decide),
    rows_rowMax t (hr' := Cert.ReferenceIdeal.Facts₀.reducesTo_S10000x40_S10000_d1) (hr := red_arr) (hu := Cert.ReferenceIdeal.Facts₀.h_S_) (hb := Cert.ReferenceIdeal.Facts₀.bcast_S_S10000),
    rows_rowSum t (hr' := Cert.ReferenceIdeal.Facts₀.reducesTo_S10000x40_S10000_d1) (hr := red_arr) (hu := Cert.ReferenceIdeal.Facts₀.h_S_),
    rows_spread (n := 40) t (h1 := Cert.ReferenceIdeal.Facts₀.bcast_S10000_S10000x1_0) (h2 := Cert.ReferenceIdeal.Facts₀.bcast_S10000x1_S10000x40_0_1)]
  rfl

/-- The normalisation: each shifted exponential over its row's sum. -/
theorem norm2 (t : Fin 25) (e : A (Arr 40)) :
    k2_pay1 (F := Ideal) (rows t e)
      = rows t (Host.divf e (Cert.Model.spread40 (Host.reduceAdd e (constant (F := Ideal) Cert.ReferenceIdeal.S_ .f32 0x00000000#32)
          Cert.ReferenceIdeal.Facts₀.reducesTo_S10000x40_S10000_d1 Cert.ReferenceIdeal.Facts₀.h_S_))) := by
  unfold k2_pay1
  dsimp only
  rw [rows_rowSum t e _ _ _ Cert.ReferenceIdeal.Facts₀.reducesTo_S10000x40_S10000_d1 red_arr Cert.ReferenceIdeal.Facts₀.h_S_,
    rows_spread (n := 40) t _ _ _ Cert.ReferenceIdeal.Facts₀.bcast_S10000_S10000x1_0 Cert.ReferenceIdeal.Facts₀.bcast_S10000x1_S10000x40_0_1, rows_divf]
  rfl

/-- THE LAST KERNEL'S BODY on block `t`: block `t` of the head of the layer. -/
theorem pay2 (t : Fin 25) (adj : A (Arr 10000)) (xb h : A (Arr 128)) (wih whh : A ⟨2, ![128, 384]⟩) (bih bhh : A ⟨1, ![384]⟩)
    (wg1 wg2 : A ⟨2, ![128, 128]⟩) (bg1 bg2 : A ⟨1, ![128]⟩)
    (wc : A ⟨2, ![128, 128]⟩) (bc : A ⟨1, ![128]⟩) (wd : A ⟨2, ![128, 40]⟩) (bd : A ⟨1, ![40]⟩) :
    k2_pay1 (F := Ideal) (k2_pay11 (k2_pay2 (rows t h)) (k2_pay3 wg1) (k2_pay4 (asRow bg1)) (k2_pay5 wg2) (k2_pay6 (asRow bg2))
        (k2_pay7 (rows t adj) xb wih (asRow bih)) (k2_pay8 (rows t h) whh (asRow bhh))
        (k2_pay9 (rows t adj) xb (rows t h) wih whh (asRow bih) (asRow bhh)) (k2_pay10 (rows t adj) xb wih (asRow bih))
        wc (asRow bc) wd (asRow bd))
      = rows t (Cert.Model.head (Cert.Model.layer adj xb h wih whh bih bhh wg1 bg1 wg2 bg2) wc bc wd bd) := by
  rw [gi2, gh2, rg2, ug2]
  unfold k2_pay2 k2_pay3 k2_pay4 k2_pay5 k2_pay6
  simp only [shapeCast_self]
  rw [core2, norm2]
  rfl

end Cert.KBody

end
-- ==== Proof.KRegion.lean ====
/-
  What each kernel region leaves in its output arrays, given what its input arrays hold when it is entered.

  At grid point `t` the body runs on the windows' blocks: row block `t` of the row-blocked inputs and the whole resident ones. What it
  stores is block `t` of the network's stage (KBody.lean), and that block is written back to rows `[400 t, 400 t + 400)` of the
  output. The 25 blocks tile the output (KWin.lean), so the array ends holding the stage itself. The bf16 copy of an output is the
  same array of extended reals: a change of float format is the identity at the ideal instance.
-/
import proofs.«172874_g6133213298789_cont_9to1_m_1291_3_alg».proof.Proof.KWin
import proofs.«172874_g6133213298789_cont_9to1_m_1291_3_alg».proof.Proof.KBody

set_option maxRecDepth 16384

noncomputable section

namespace Cert.KRegion

open Idealize.ShloMosaic Idealize.ShloMosaic.TcCoe Idealize.SL.Sem Cert.LibRows Cert.KernelIdeal Cert.KernelIdeal.Gen Cert.KWin Cert.KBody
open Idealize.ShloMosaic.Pipeline (Dat Cfg Window)
open Cert.Model (A)

variable (V : (c : Dev nD) → (b : Ref sig .tc) → Buf (Elt Ideal) ((c : Thread nD τ).loc b)) (c : Dev nD)

/-! ## Region 0: the input layer -/

section R0
variable (feat : A S10000x128) (w1 : A S128x128) (b1 : A S128)
  (h0 : (V c main_arg0 : S10000x128.Idx → EReal) = feat) (h1 : (V c main_arg2 : S128x128.Idx → EReal) = w1) (h2 : (V c main_v0 : S1x128.Idx → EReal) = asRow b1)
include h0 h1 h2

/-- What point `t` writes back to the f32 output: block `t` of `relu (features · W1 + b1)`. -/
theorem flushed0_3 (t : Fin cfg0.N) :
    (dat0 V c).flushed 3 t = ((cfg0.win 3).blk t).view.read (Elt Ideal) (Cert.Model.x0 feat w1 b1) := by
  have i0 : iblk0 V c 0 t = rows (bn0 t) feat := by rw [← h0]; exact read0_0 t _
  have i1 : iblk0 V c 1 t = w1 := by rw [← h1]; exact read0_1 t _
  have i2 : iblk0 V c 2 t = asRow b1 := by rw [← h2]; exact read0_2 t _
  show (cfg0.win 3).cut (grid0.coords t) ((dat0 V c).after 3 t) = _
  rw [after0_3]
  unfold out0_3
  rw [View.canon_unit_zero hz]
  simp only [View.ld_unit_zero (S := S400x128) hz, View.ld_unit_zero (S := S128x128) hz, View.ld_unit_zero (S := S1x128) hz]
  rw [i0, i1, i2, pay0]
  exact (read0_3 t _).symm

/-- The bf16 output gets the same block. -/
theorem flushed0_4 (t : Fin cfg0.N) :
    (dat0 V c).flushed 4 t = ((cfg0.win 4).blk t).view.read (Elt Ideal) (Cert.Model.x0 feat w1 b1) := by
  have i0 : iblk0 V c 0 t = rows (bn0 t) feat := by rw [← h0]; exact read0_0 t _
  have i1 : iblk0 V c 1 t = w1 := by rw [← h1]; exact read0_1 t _
  have i2 : iblk0 V c 2 t = asRow b1 := by rw [← h2]; exact read0_2 t _
  show (cfg0.win 4).cut (grid0.coords t) ((dat0 V c).after 4 t) = _
  rw [after0_4]
  unfold out0_4
  rw [View.canon_unit_zero hz]
  simp only [View.ld_unit_zero (S := S400x128) hz, View.ld_unit_zero (S := S128x128) hz, View.ld_unit_zero (S := S1x128) hz]
  unfold k0_pay2
  dsimp only
  rw [i0, i1, i2, pay0, truncf_eq]
  exact (read0_4 t _).symm

/-- Both output arrays end holding `relu (features · W1 + b1)`. -/
theorem arr0_3 : (dat0 V c).arrAt 3 cfg0.N = Cert.Model.x0 feat w1 b1 :=
  (dat0 V c).arrAt_eq_of_cover 3 _ (fun t _ => flushed0_3 V c feat w1 b1 h0 h1 h2 t) tile0_3
theorem arr0_4 : (dat0 V c).arrAt 4 cfg0.N = Cert.Model.x0 feat w1 b1 :=
  (dat0 V c).arrAt_eq_of_cover 4 _ (fun t _ => flushed0_4 V c feat w1 b1 h0 h1 h2 t) tile0_4
end R0

/-! ## Region 1: the first layer -/

section R1
variable (adj : A S10000x10000) (xb h : A S10000x128) (wih whh : A S128x384) (bih bhh : A S384) (wg1 wg2 : A S128x128) (bg1 bg2 : A S128)
  (h0 : (V c main_arg1 : S10000x10000.Idx → EReal) = adj) (h1 : (V c main_v1_1 : S10000x128.Idx → EReal) = xb) (h2 : (V c main_v1_0 : S10000x128.Idx → EReal) = h)
    (h3 : (V c main_v4 : S128x384.Idx → EReal) = wih) (h4 : (V c main_v7 : S128x384.Idx → EReal) = whh) (h5 : (V c main_v10 : S1x384.Idx → EReal) = asRow bih) (h6 : (V c main_v13 : S1x384.Idx → EReal) = asRow bhh)
    (h7 : (V c main_v15 : S128x128.Idx → EReal) = wg1) (h8 : (V c main_v18 : S1x128.Idx → EReal) = asRow bg1) (h9 : (V c main_v20 : S128x128.Idx → EReal) = wg2) (h10 : (V c main_v23 : S1x128.Idx → EReal) = asRow bg2)
include h0 h1 h2 h3 h4 h5 h6 h7 h8 h9 h10

theorem flushed1_11 (t : Fin cfg1.N) :
    (dat1 V c).flushed 11 t = ((cfg1.win 11).blk t).view.read (Elt Ideal) (Cert.Model.layer adj xb h wih whh bih bhh wg1 bg1 wg2 bg2) := by
  have i0 : iblk1 V c 0 t = rows (bn1 t) adj := by rw [← h0]; exact read1_0 t _
  have i1 : iblk1 V c 1 t = xb := by rw [← h1]; exact read1_1 t _
  have i2 : iblk1 V c 2 t = rows (bn1 t) h := by rw [← h2]; exact read1_2 t _
  have i3 : iblk1 V c 3 t = wih := by rw [← h3]; exact read1_3 t _
  have i4 : iblk1 V c 4 t = whh := by rw [← h4]; exact read1_4 t _
  have i5 : iblk1 V c 5 t = asRow bih := by rw [← h5]; exact read1_5 t _
  have i6 : iblk1 V c 6 t = asRow bhh := by rw [← h6]; exact read1_6 t _
  have i7 : iblk1 V c 7 t = wg1 := by rw [← h7]; exact read1_7 t _
  have i8 : iblk1 V c 8 t = asRow bg1 := by rw [← h8]; exact read1_8 t _
  have i9 : iblk1 V c 9 t = wg2 := by rw [← h9]; exact read1_9 t _
  have i10 : iblk1 V c 10 t = asRow bg2 := by rw [← h10]; exact read1_10 t _
  show (cfg1.win 11).cut (grid1.coords t) ((dat1 V c).after 11 t) = _
  rw [after1_11]
  unfold out1_11
  rw [View.canon_unit_zero hz]
  simp only [View.ld_unit_zero (S := S400x10000) hz, View.ld_unit_zero (S := S10000x128) hz, View.ld_unit_zero (S := S400x128) hz, View.ld_unit_zero (S := S128x384) hz, View.ld_unit_zero (S := S1x384) hz, View.ld_unit_zero (S := S128x128) hz, View.ld_unit_zero (S := S1x128) hz]
  rw [i0, i1, i2, i3, i4, i5, i6, i7, i8, i9, i10, pay1]
  exact (read1_11 t _).symm

theorem flushed1_12 (t : Fin cfg1.N) :
    (dat1 V c).flushed 12 t = ((cfg1.win 12).blk t).view.read (Elt Ideal) (Cert.Model.layer adj xb h wih whh bih bhh wg1 bg1 wg2 bg2) := by
  have i0 : iblk1 V c 0 t = rows (bn1 t) adj := by rw [← h0]; exact read1_0 t _
  have i1 : iblk1 V c 1 t = xb := by rw [← h1]; exact read1_1 t _
  have i2 : iblk1 V c 2 t = rows (bn1 t) h := by rw [← h2]; exact read1_2 t _
  have i3 : iblk1 V c 3 t = wih := by rw [← h3]; exact read1_3 t _
  have i4 : iblk1 V c 4 t = whh := by rw [← h4]; exact read1_4 t _
  have i5 : iblk1 V c 5 t = asRow bih := by rw [← h5]; exact read1_5 t _
  have i6 : iblk1 V c 6 t = asRow bhh := by rw [← h6]; exact read1_6 t _
  have i7 : iblk1 V c 7 t = wg1 := by rw [← h7]; exact read1_7 t _
  have i8 : iblk1 V c 8 t = asRow bg1 := by rw [← h8]; exact read1_8 t _
  have i9 : iblk1 V c 9 t = wg2 := by rw [← h9]; exact read1_9 t _
  have i10 : iblk1 V c 10 t = asRow bg2 := by rw [← h10]; exact read1_10 t _
  show (cfg1.win 12).cut (grid1.coords t) ((dat1 V c).after 12 t) = _
  rw [after1_12]
  unfold out1_12
  rw [View.canon_unit_zero hz]
  simp only [View.ld_unit_zero (S := S400x10000) hz, View.ld_unit_zero (S := S10000x128) hz, View.ld_unit_zero (S := S400x128) hz, View.ld_unit_zero (S := S128x384) hz, View.ld_unit_zero (S := S1x384) hz, View.ld_unit_zero (S := S128x128) hz, View.ld_unit_zero (S := S1x128) hz]
  unfold k1_pay2
  dsimp only
  rw [i0, i1, i2, i3, i4, i5, i6, i7, i8, i9, i10, pay1, truncf_eq]
  exact (read1_12 t _).symm

/-- Both output arrays end holding the layer of the entry arrays. -/
theorem arr1_11 : (dat1 V c).arrAt 11 cfg1.N = Cert.Model.layer adj xb h wih whh bih bhh wg1 bg1 wg2 bg2 :=
  (dat1 V c).arrAt_eq_of_cover 11 _ (fun t _ => flushed1_11 V c adj xb h wih whh bih bhh wg1 wg2 bg1 bg2 h0 h1 h2 h3 h4 h5 h6 h7 h8 h9 h10 t) tile1_11
theorem arr1_12 : (dat1 V c).arrAt 12 cfg1.N = Cert.Model.layer adj xb h wih whh bih bhh wg1 bg1 wg2 bg2 :=
  (dat1 V c).arrAt_eq_of_cover 12 _ (fun t _ => flushed1_12 V c adj xb h wih whh bih bhh wg1 wg2 bg1 bg2 h0 h1 h2 h3 h4 h5 h6 h7 h8 h9 h10 t) tile1_12
end R1

/-! ## Region 2: the second layer, the head and the softmax -/

section R2
variable (adj : A S10000x10000) (xb h : A S10000x128) (wih whh : A S128x384) (bih bhh : A S384) (wg1 wg2 : A S128x128) (bg1 bg2 : A S128) (wc : A S128x128) (bc : A S128) (wd : A S128x40) (bd : A S40)
  (h0 : (V c main_arg1 : S10000x10000.Idx → EReal) = adj) (h1 : (V c main_v24_1 : S10000x128.Idx → EReal) = xb) (h2 : (V c main_v24_0 : S10000x128.Idx → EReal) = h)
    (h3 : (V c main_v27 : S128x384.Idx → EReal) = wih) (h4 : (V c main_v30 : S128x384.Idx → EReal) = whh) (h5 : (V c main_v33 : S1x384.Idx → EReal) = asRow bih) (h6 : (V c main_v36 : S1x384.Idx → EReal) = asRow bhh)
    (h7 : (V c main_v38 : S128x128.Idx → EReal) = wg1) (h8 : (V c main_v41 : S1x128.Idx → EReal) = asRow bg1) (h9 : (V c main_v43 : S128x128.Idx → EReal) = wg2) (h10 : (V c main_v46 : S1x128.Idx → EReal) = asRow bg2)
    (h11 : (V c main_arg12 : S128x128.Idx → EReal) = wc) (h12 : (V c main_v47 : S1x128.Idx → EReal) = asRow bc)
    (h13 : (V c main_arg14 : S128x40.Idx → EReal) = wd) (h14 : (V c main_v48 : S1x40.Idx → EReal) = asRow bd)
include h0 h1 h2 h3 h4 h5 h6 h7 h8 h9 h10 h11 h12 h13 h14

theorem flushed2_15 (t : Fin cfg2.N) :
    (dat2 V c).flushed 15 t
      = ((cfg2.win 15).blk t).view.read (Elt Ideal) (Cert.Model.head (Cert.Model.layer adj xb h wih whh bih bhh wg1 bg1 wg2 bg2) wc bc wd bd) := by
  have i0 : iblk2 V c 0 t = rows (bn2 t) adj := by rw [← h0]; exact read2_0 t _
  have i1 : iblk2 V c 1 t = xb := by rw [← h1]; exact read2_1 t _
  have i2 : iblk2 V c 2 t = rows (bn2 t) h := by rw [← h2]; exact read2_2 t _
  have i3 : iblk2 V c 3 t = wih := by rw [← h3]; exact read2_3 t _
  have i4 : iblk2 V c 4 t = whh := by rw [← h4]; exact read2_4 t _
  have i5 : iblk2 V c 5 t = asRow bih := by rw [← h5]; exact read2_5 t _
  have i6 : iblk2 V c 6 t = asRow bhh := by rw [← h6]; exact read2_6 t _
  have i7 : iblk2 V c 7 t = wg1 := by rw [← h7]; exact read2_7 t _
  have i8 : iblk2 V c 8 t = asRow bg1 := by rw [← h8]; exact read2_8 t _
  have i9 : iblk2 V c 9 t = wg2 := by rw [← h9]; exact read2_9 t _
  have i10 : iblk2 V c 10 t = asRow bg2 := by rw [← h10]; exact read2_10 t _
  have i11 : iblk2 V c 11 t = wc := by rw [← h11]; exact read2_11 t _
  have i12 : iblk2 V c 12 t = asRow bc := by rw [← h12]; exact read2_12 t _
  have i13 : iblk2 V c 13 t = wd := by rw [← h13]; exact read2_13 t _
  have i14 : iblk2 V c 14 t = asRow bd := by rw [← h14]; exact read2_14 t _
  show (cfg2.win 15).cut (grid2.coords t) ((dat2 V c).after 15 t) = _
  rw [after2_15]
  unfold out2_15
  rw [View.canon_unit_zero hz]
  simp only [View.ld_unit_zero (S := S400x10000) hz, View.ld_unit_zero (S := S10000x128) hz, View.ld_unit_zero (S := S400x128) hz, View.ld_unit_zero (S := S128x384) hz, View.ld_unit_zero (S := S1x384) hz, View.ld_unit_zero (S := S128x128) hz, View.ld_unit_zero (S := S1x128) hz, View.ld_unit_zero (S := S128x40) hz, View.ld_unit_zero (S := S1x40) hz]
  rw [i0, i1, i2, i3, i4, i5, i6, i7, i8, i9, i10, i11, i12, i13, i14, pay2]
  exact (read2_15 t _).symm

set_option maxHeartbeats 2000000 in
/-- The result array ends holding the head of the layer of the entry arrays. -/
theorem arr2_15 : (dat2 V c).arrAt 15 cfg2.N = Cert.Model.head (Cert.Model.layer adj xb h wih whh bih bhh wg1 bg1 wg2 bg2) wc bc wd bd :=
  (dat2 V c).arrAt_eq_of_cover 15 _ (fun t _ => flushed2_15 V c adj xb h wih whh bih bhh wg1 wg2 bg1 bg2 wc bc wd bd h0 h1 h2 h3 h4 h5 h6 h7 h8 h9 h10 h11 h12 h13 h14 t) tile2_15
end R2

end Cert.KRegion

end
-- ==== Proof.KValue.lean ====
/-
  The idealized kernel's result array as the network of the launch arguments.

  The buffer contents are followed through @main: the host stretches cut each layer's parameters out of the stacked arguments (a
  slice, a reshape, for the GRU weights a transpose; a bias additionally laid out as one row), the first region writes
  `x0 = relu (features · W1 + b1)` to both of its outputs, the second the first layer of `x0`, the third the head of the
  second layer. No operation and no region writes an argument, so every stage reads the launch contents.
-/
import proofs.«172874_g6133213298789_cont_9to1_m_1291_3_alg».proof.Proof.KRegion
import Idealize.ShloMosaic.Lib.StableHlo.Run

set_option maxRecDepth 16384

noncomputable section

namespace Cert.KValue

open Idealize.ShloMosaic Idealize.ShloMosaic.TcCoe Idealize.SL.Sem Idealize.ShloMosaic.StableHlo
open Cert.LibRows Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-! ## The arguments at each boundary -/
theorem w1_arg0 : W1 m ρ c (Proc.devRef .tc main_arg0) = m ((c : Thread nD τ).loc main_arg0) := by
  show StableHlo.after hostOps0 (W0 m ρ c) (Proc.devRef .tc main_arg0) = _
  after_results
theorem w1_arg1 : W1 m ρ c (Proc.devRef .tc main_arg1) = m ((c : Thread nD τ).loc main_arg1) := by
  show StableHlo.after hostOps0 (W0 m ρ c) (Proc.devRef .tc main_arg1) = _
  after_results
theorem w1_arg2 : W1 m ρ c (Proc.devRef .tc main_arg2) = m ((c : Thread nD τ).loc main_arg2) := by
  show StableHlo.after hostOps0 (W0 m ρ c) (Proc.devRef .tc main_arg2) = _
  after_results
theorem w1_arg3 : W1 m ρ c (Proc.devRef .tc main_arg3) = m ((c : Thread nD τ).loc main_arg3) := by
  show StableHlo.after hostOps0 (W0 m ρ c) (Proc.devRef .tc main_arg3) = _
  after_results
theorem w1_arg4 : W1 m ρ c (Proc.devRef .tc main_arg4) = m ((c : Thread nD τ).loc main_arg4) := by
  show StableHlo.after hostOps0 (W0 m ρ c) (Proc.devRef .tc main_arg4) = _
  after_results
theorem w1_arg5 : W1 m ρ c (Proc.devRef .tc main_arg5) = m ((c : Thread nD τ).loc main_arg5) := by
  show StableHlo.after hostOps0 (W0 m ρ c) (Proc.devRef .tc main_arg5) = _
  after_results
theorem w1_arg6 : W1 m ρ c (Proc.devRef .tc main_arg6) = m ((c : Thread nD τ).loc main_arg6) := by
  show StableHlo.after hostOps0 (W0 m ρ c) (Proc.devRef .tc main_arg6) = _
  after_results
theorem w1_arg7 : W1 m ρ c (Proc.devRef .tc main_arg7) = m ((c : Thread nD τ).loc main_arg7) := by
  show StableHlo.after hostOps0 (W0 m ρ c) (Proc.devRef .tc main_arg7) = _
  after_results
theorem w1_arg8 : W1 m ρ c (Proc.devRef .tc main_arg8) = m ((c : Thread nD τ).loc main_arg8) := by
  show StableHlo.after hostOps0 (W0 m ρ c) (Proc.devRef .tc main_arg8) = _
  after_results
theorem w1_arg9 : W1 m ρ c (Proc.devRef .tc main_arg9) = m ((c : Thread nD τ).loc main_arg9) := by
  show StableHlo.after hostOps0 (W0 m ρ c) (Proc.devRef .tc main_arg9) = _
  after_results
theorem w1_arg10 : W1 m ρ c (Proc.devRef .tc main_arg10) = m ((c : Thread nD τ).loc main_arg10) := by
  show StableHlo.after hostOps0 (W0 m ρ c) (Proc.devRef .tc main_arg10) = _
  after_results
theorem w1_arg11 : W1 m ρ c (Proc.devRef .tc main_arg11) = m ((c : Thread nD τ).loc main_arg11) := by
  show StableHlo.after hostOps0 (W0 m ρ c) (Proc.devRef .tc main_arg11) = _
  after_results
theorem w1_arg12 : W1 m ρ c (Proc.devRef .tc main_arg12) = m ((c : Thread nD τ).loc main_arg12) := by
  show StableHlo.after hostOps0 (W0 m ρ c) (Proc.devRef .tc main_arg12) = _
  after_results
theorem w1_arg13 : W1 m ρ c (Proc.devRef .tc main_arg13) = m ((c : Thread nD τ).loc main_arg13) := by
  show StableHlo.after hostOps0 (W0 m ρ c) (Proc.devRef .tc main_arg13) = _
  after_results
theorem w1_arg14 : W1 m ρ c (Proc.devRef .tc main_arg14) = m ((c : Thread nD τ).loc main_arg14) := by
  show StableHlo.after hostOps0 (W0 m ρ c) (Proc.devRef .tc main_arg14) = _
  after_results
theorem w1_arg15 : W1 m ρ c (Proc.devRef .tc main_arg15) = m ((c : Thread nD τ).loc main_arg15) := by
  show StableHlo.after hostOps0 (W0 m ρ c) (Proc.devRef .tc main_arg15) = _
  after_results
theorem w2_arg1 : W2 m ρ c (Proc.devRef .tc main_arg1) = m ((c : Thread nD τ).loc main_arg1) :=
  (W2_of_ne m ρ c main_arg1 (by decide)).trans (w1_arg1 m ρ c)
theorem w3_arg1 : W3 m ρ c (Proc.devRef .tc main_arg1) = m ((c : Thread nD τ).loc main_arg1) := by
  show StableHlo.after hostOps1 (W2 m ρ c) (Proc.devRef .tc main_arg1) = _
  after_results
  exact w2_arg1 m ρ c
theorem w4_arg1 : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (w3_arg1 m ρ c)
theorem w2_arg4 : W2 m ρ c (Proc.devRef .tc main_arg4) = m ((c : Thread nD τ).loc main_arg4) :=
  (W2_of_ne m ρ c main_arg4 (by decide)).trans (w1_arg4 m ρ c)
theorem w3_arg4 : W3 m ρ c (Proc.devRef .tc main_arg4) = m ((c : Thread nD τ).loc main_arg4) := by
  show StableHlo.after hostOps1 (W2 m ρ c) (Proc.devRef .tc main_arg4) = _
  after_results
  exact w2_arg4 m ρ c
theorem w4_arg4 : W4 m ρ c (Proc.devRef .tc main_arg4) = m ((c : Thread nD τ).loc main_arg4) :=
  (W4_of_ne m ρ c main_arg4 (by decide)).trans (w3_arg4 m ρ c)
theorem w2_arg5 : W2 m ρ c (Proc.devRef .tc main_arg5) = m ((c : Thread nD τ).loc main_arg5) :=
  (W2_of_ne m ρ c main_arg5 (by decide)).trans (w1_arg5 m ρ c)
theorem w3_arg5 : W3 m ρ c (Proc.devRef .tc main_arg5) = m ((c : Thread nD τ).loc main_arg5) := by
  show StableHlo.after hostOps1 (W2 m ρ c) (Proc.devRef .tc main_arg5) = _
  after_results
  exact w2_arg5 m ρ c
theorem w4_arg5 : W4 m ρ c (Proc.devRef .tc main_arg5) = m ((c : Thread nD τ).loc main_arg5) :=
  (W4_of_ne m ρ c main_arg5 (by decide)).trans (w3_arg5 m ρ c)
theorem w2_arg6 : W2 m ρ c (Proc.devRef .tc main_arg6) = m ((c : Thread nD τ).loc main_arg6) :=
  (W2_of_ne m ρ c main_arg6 (by decide)).trans (w1_arg6 m ρ c)
theorem w3_arg6 : W3 m ρ c (Proc.devRef .tc main_arg6) = m ((c : Thread nD τ).loc main_arg6) := by
  show StableHlo.after hostOps1 (W2 m ρ c) (Proc.devRef .tc main_arg6) = _
  after_results
  exact w2_arg6 m ρ c
theorem w4_arg6 : W4 m ρ c (Proc.devRef .tc main_arg6) = m ((c : Thread nD τ).loc main_arg6) :=
  (W4_of_ne m ρ c main_arg6 (by decide)).trans (w3_arg6 m ρ c)
theorem w2_arg7 : W2 m ρ c (Proc.devRef .tc main_arg7) = m ((c : Thread nD τ).loc main_arg7) :=
  (W2_of_ne m ρ c main_arg7 (by decide)).trans (w1_arg7 m ρ c)
theorem w3_arg7 : W3 m ρ c (Proc.devRef .tc main_arg7) = m ((c : Thread nD τ).loc main_arg7) := by
  show StableHlo.after hostOps1 (W2 m ρ c) (Proc.devRef .tc main_arg7) = _
  after_results
  exact w2_arg7 m ρ c
theorem w4_arg7 : W4 m ρ c (Proc.devRef .tc main_arg7) = m ((c : Thread nD τ).loc main_arg7) :=
  (W4_of_ne m ρ c main_arg7 (by decide)).trans (w3_arg7 m ρ c)
theorem w2_arg8 : W2 m ρ c (Proc.devRef .tc main_arg8) = m ((c : Thread nD τ).loc main_arg8) :=
  (W2_of_ne m ρ c main_arg8 (by decide)).trans (w1_arg8 m ρ c)
theorem w3_arg8 : W3 m ρ c (Proc.devRef .tc main_arg8) = m ((c : Thread nD τ).loc main_arg8) := by
  show StableHlo.after hostOps1 (W2 m ρ c) (Proc.devRef .tc main_arg8) = _
  after_results
  exact w2_arg8 m ρ c
theorem w4_arg8 : W4 m ρ c (Proc.devRef .tc main_arg8) = m ((c : Thread nD τ).loc main_arg8) :=
  (W4_of_ne m ρ c main_arg8 (by decide)).trans (w3_arg8 m ρ c)
theorem w2_arg9 : W2 m ρ c (Proc.devRef .tc main_arg9) = m ((c : Thread nD τ).loc main_arg9) :=
  (W2_of_ne m ρ c main_arg9 (by decide)).trans (w1_arg9 m ρ c)
theorem w3_arg9 : W3 m ρ c (Proc.devRef .tc main_arg9) = m ((c : Thread nD τ).loc main_arg9) := by
  show StableHlo.after hostOps1 (W2 m ρ c) (Proc.devRef .tc main_arg9) = _
  after_results
  exact w2_arg9 m ρ c
theorem w4_arg9 : W4 m ρ c (Proc.devRef .tc main_arg9) = m ((c : Thread nD τ).loc main_arg9) :=
  (W4_of_ne m ρ c main_arg9 (by decide)).trans (w3_arg9 m ρ c)
theorem w2_arg10 : W2 m ρ c (Proc.devRef .tc main_arg10) = m ((c : Thread nD τ).loc main_arg10) :=
  (W2_of_ne m ρ c main_arg10 (by decide)).trans (w1_arg10 m ρ c)
theorem w3_arg10 : W3 m ρ c (Proc.devRef .tc main_arg10) = m ((c : Thread nD τ).loc main_arg10) := by
  show StableHlo.after hostOps1 (W2 m ρ c) (Proc.devRef .tc main_arg10) = _
  after_results
  exact w2_arg10 m ρ c
theorem w4_arg10 : W4 m ρ c (Proc.devRef .tc main_arg10) = m ((c : Thread nD τ).loc main_arg10) :=
  (W4_of_ne m ρ c main_arg10 (by decide)).trans (w3_arg10 m ρ c)
theorem w2_arg11 : W2 m ρ c (Proc.devRef .tc main_arg11) = m ((c : Thread nD τ).loc main_arg11) :=
  (W2_of_ne m ρ c main_arg11 (by decide)).trans (w1_arg11 m ρ c)
theorem w3_arg11 : W3 m ρ c (Proc.devRef .tc main_arg11) = m ((c : Thread nD τ).loc main_arg11) := by
  show StableHlo.after hostOps1 (W2 m ρ c) (Proc.devRef .tc main_arg11) = _
  after_results
  exact w2_arg11 m ρ c
theorem w4_arg11 : W4 m ρ c (Proc.devRef .tc main_arg11) = m ((c : Thread nD τ).loc main_arg11) :=
  (W4_of_ne m ρ c main_arg11 (by decide)).trans (w3_arg11 m ρ c)
theorem w2_arg12 : W2 m ρ c (Proc.devRef .tc main_arg12) = m ((c : Thread nD τ).loc main_arg12) :=
  (W2_of_ne m ρ c main_arg12 (by decide)).trans (w1_arg12 m ρ c)
theorem w3_arg12 : W3 m ρ c (Proc.devRef .tc main_arg12) = m ((c : Thread nD τ).loc main_arg12) := by
  show StableHlo.after hostOps1 (W2 m ρ c) (Proc.devRef .tc main_arg12) = _
  after_results
  exact w2_arg12 m ρ c
theorem w4_arg12 : W4 m ρ c (Proc.devRef .tc main_arg12) = m ((c : Thread nD τ).loc main_arg12) :=
  (W4_of_ne m ρ c main_arg12 (by decide)).trans (w3_arg12 m ρ c)
theorem w2_arg13 : W2 m ρ c (Proc.devRef .tc main_arg13) = m ((c : Thread nD τ).loc main_arg13) :=
  (W2_of_ne m ρ c main_arg13 (by decide)).trans (w1_arg13 m ρ c)
theorem w3_arg13 : W3 m ρ c (Proc.devRef .tc main_arg13) = m ((c : Thread nD τ).loc main_arg13) := by
  show StableHlo.after hostOps1 (W2 m ρ c) (Proc.devRef .tc main_arg13) = _
  after_results
  exact w2_arg13 m ρ c
theorem w4_arg13 : W4 m ρ c (Proc.devRef .tc main_arg13) = m ((c : Thread nD τ).loc main_arg13) :=
  (W4_of_ne m ρ c main_arg13 (by decide)).trans (w3_arg13 m ρ c)
theorem w2_arg14 : W2 m ρ c (Proc.devRef .tc main_arg14) = m ((c : Thread nD τ).loc main_arg14) :=
  (W2_of_ne m ρ c main_arg14 (by decide)).trans (w1_arg14 m ρ c)
theorem w3_arg14 : W3 m ρ c (Proc.devRef .tc main_arg14) = m ((c : Thread nD τ).loc main_arg14) := by
  show StableHlo.after hostOps1 (W2 m ρ c) (Proc.devRef .tc main_arg14) = _
  after_results
  exact w2_arg14 m ρ c
theorem w4_arg14 : W4 m ρ c (Proc.devRef .tc main_arg14) = m ((c : Thread nD τ).loc main_arg14) :=
  (W4_of_ne m ρ c main_arg14 (by decide)).trans (w3_arg14 m ρ c)
theorem w2_arg15 : W2 m ρ c (Proc.devRef .tc main_arg15) = m ((c : Thread nD τ).loc main_arg15) :=
  (W2_of_ne m ρ c main_arg15 (by decide)).trans (w1_arg15 m ρ c)
theorem w3_arg15 : W3 m ρ c (Proc.devRef .tc main_arg15) = m ((c : Thread nD τ).loc main_arg15) := by
  show StableHlo.after hostOps1 (W2 m ρ c) (Proc.devRef .tc main_arg15) = _
  after_results
  exact w2_arg15 m ρ c
theorem w4_arg15 : W4 m ρ c (Proc.devRef .tc main_arg15) = m ((c : Thread nD τ).loc main_arg15) :=
  (W4_of_ne m ρ c main_arg15 (by decide)).trans (w3_arg15 m ρ c)

/-! ## Region 0 -/

/-- The bias of the input layer, reshaped to one row by the host. -/
theorem v1_b1 : (V1 m ρ c main_v0 : S1x128.Idx → EReal) = asRow (m ((c : Thread nD τ).loc main_arg3)) := by
  have e : (V1 m ρ c main_v0 : S1x128.Idx → EReal) = shapeCast S1x128 (m ((c : Thread nD τ).loc main_arg3)) Facts₀.shapeCasts_S128_S1x128 := by
    show StableHlo.after hostOps0 (W0 m ρ c) (Proc.devRef .tc main_v0) = _
    after_results
    rfl
  exact e.trans (shapeCast_asRow _ _)

/-- Both outputs of the first region hold `x0`. -/
theorem x0_f32 : W2 m ρ c (Proc.devRef .tc main_v1_0) = Cert.Model.x0 (m ((c : Thread nD τ).loc main_arg0)) (m ((c : Thread nD τ).loc main_arg2)) (m ((c : Thread nD τ).loc main_arg3)) :=
  (W2_arr m ρ c 3).trans (Cert.KRegion.arr0_3 (V1 m ρ) c _ _ _ (w1_arg0 m ρ c) (w1_arg2 m ρ c) (v1_b1 m ρ c))
theorem x0_bf16 : W2 m ρ c (Proc.devRef .tc main_v1_1) = Cert.Model.x0 (m ((c : Thread nD τ).loc main_arg0)) (m ((c : Thread nD τ).loc main_arg2)) (m ((c : Thread nD τ).loc main_arg3)) :=
  (W2_arr m ρ c 4).trans (Cert.KRegion.arr0_4 (V1 m ρ) c _ _ _ (w1_arg0 m ρ c) (w1_arg2 m ρ c) (v1_b1 m ρ c))

/-! ## Region 1: its entry arrays, then its outputs -/

theorem e0_adj : (V3 m ρ c main_arg1 : S10000x10000.Idx → EReal) = m ((c : Thread nD τ).loc main_arg1) := w3_arg1 m ρ c
theorem e0_xb : (V3 m ρ c main_v1_1 : S10000x128.Idx → EReal) = (Cert.Model.x0 (m ((c : Thread nD τ).loc main_arg0)) (m ((c : Thread nD τ).loc main_arg2)) (m ((c : Thread nD τ).loc main_arg3))) := by
  show StableHlo.after hostOps1 (W2 m ρ c) (Proc.devRef .tc main_v1_1) = _
  after_results
  exact x0_bf16 m ρ c
theorem e0_h : (V3 m ρ c main_v1_0 : S10000x128.Idx → EReal) = (Cert.Model.x0 (m ((c : Thread nD τ).loc main_arg0)) (m ((c : Thread nD τ).loc main_arg2)) (m ((c : Thread nD τ).loc main_arg3))) := by
  show StableHlo.after hostOps1 (W2 m ρ c) (Proc.devRef .tc main_v1_0) = _
  after_results
  exact x0_f32 m ρ c
theorem e0_wih : (V3 m ρ c main_v4 : S128x384.Idx → EReal) = Cert.Model.wT0 (m ((c : Thread nD τ).loc main_arg4)) := by
  show StableHlo.after hostOps1 (W2 m ρ c) (Proc.devRef .tc main_v4) = _
  after_results
  rw [w2_arg4 m ρ c]
  rfl
theorem e0_whh : (V3 m ρ c main_v7 : S128x384.Idx → EReal) = Cert.Model.wT0 (m ((c : Thread nD τ).loc main_arg5)) := by
  show StableHlo.after hostOps1 (W2 m ρ c) (Proc.devRef .tc main_v7) = _
  after_results
  rw [w2_arg5 m ρ c]
  rfl
theorem e0_bih : (V3 m ρ c main_v10 : S1x384.Idx → EReal) = asRow (Cert.Model.b384_0 (m ((c : Thread nD τ).loc main_arg6))) := by
  show StableHlo.after hostOps1 (W2 m ρ c) (Proc.devRef .tc main_v10) = _
  after_results
  rw [w2_arg6 m ρ c]
  exact shapeCast_asRow _ _
theorem e0_bhh : (V3 m ρ c main_v13 : S1x384.Idx → EReal) = asRow (Cert.Model.b384_0 (m ((c : Thread nD τ).loc main_arg7))) := by
  show StableHlo.after hostOps1 (W2 m ρ c) (Proc.devRef .tc main_v13) = _
  after_results
  rw [w2_arg7 m ρ c]
  exact shapeCast_asRow _ _
theorem e0_wg1 : (V3 m ρ c main_v15 : S128x128.Idx → EReal) = Cert.Model.m128_0 (m ((c : Thread nD τ).loc main_arg8)) := by
  show StableHlo.after hostOps1 (W2 m ρ c) (Proc.devRef .tc main_v15) = _
  after_results
  rw [w2_arg8 m ρ c]
  rfl
theorem e0_bg1 : (V3 m ρ c main_v18 : S1x128.Idx → EReal) = asRow (Cert.Model.b128_0 (m ((c : Thread nD τ).loc main_arg9))) := by
  show StableHlo.after hostOps1 (W2 m ρ c) (Proc.devRef .tc main_v18) = _
  after_results
  rw [w2_arg9 m ρ c]
  exact shapeCast_asRow _ _
theorem e0_wg2 : (V3 m ρ c main_v20 : S128x128.Idx → EReal) = Cert.Model.m128_0 (m ((c : Thread nD τ).loc main_arg10)) := by
  show StableHlo.after hostOps1 (W2 m ρ c) (Proc.devRef .tc main_v20) = _
  after_results
  rw [w2_arg10 m ρ c]
  rfl
theorem e0_bg2 : (V3 m ρ c main_v23 : S1x128.Idx → EReal) = asRow (Cert.Model.b128_0 (m ((c : Thread nD τ).loc main_arg11))) := by
  show StableHlo.after hostOps1 (W2 m ρ c) (Proc.devRef .tc main_v23) = _
  after_results
  rw [w2_arg11 m ρ c]
  exact shapeCast_asRow _ _

/-- Both outputs of the second region hold `x1`, the first layer of `x0`. -/
theorem x1_f32 : W4 m ρ c (Proc.devRef .tc main_v24_0) = (Cert.Model.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W4_arr m ρ c 11).trans (Cert.KRegion.arr1_11 (V3 m ρ) c _ _ _ _ _ _ _ _ _ _ _ (e0_adj m ρ c) (e0_xb m ρ c) (e0_h m ρ c)
    (e0_wih m ρ c) (e0_whh m ρ c) (e0_bih m ρ c) (e0_bhh m ρ c) (e0_wg1 m ρ c) (e0_bg1 m ρ c) (e0_wg2 m ρ c) (e0_bg2 m ρ c))
theorem x1_bf16 : W4 m ρ c (Proc.devRef .tc main_v24_1) = (Cert.Model.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W4_arr m ρ c 12).trans (Cert.KRegion.arr1_12 (V3 m ρ) c _ _ _ _ _ _ _ _ _ _ _ (e0_adj m ρ c) (e0_xb m ρ c) (e0_h m ρ c)
    (e0_wih m ρ c) (e0_whh m ρ c) (e0_bih m ρ c) (e0_bhh m ρ c) (e0_wg1 m ρ c) (e0_bg1 m ρ c) (e0_wg2 m ρ c) (e0_bg2 m ρ c))

/-! ## Region 2: its entry arrays, then the result -/

theorem e1_adj : (V5 m ρ c main_arg1 : S10000x10000.Idx → EReal) = m ((c : Thread nD τ).loc main_arg1) := by
  show StableHlo.after hostOps2 (W4 m ρ c) (Proc.devRef .tc main_arg1) = _
  after_results
  exact w4_arg1 m ρ c
theorem e1_xb : (V5 m ρ c main_v24_1 : S10000x128.Idx → EReal) = (Cert.Model.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps2 (W4 m ρ c) (Proc.devRef .tc main_v24_1) = _
  after_results
  exact x1_bf16 m ρ c
theorem e1_h : (V5 m ρ c main_v24_0 : S10000x128.Idx → EReal) = (Cert.Model.x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps2 (W4 m ρ c) (Proc.devRef .tc main_v24_0) = _
  after_results
  exact x1_f32 m ρ c
theorem e1_wih : (V5 m ρ c main_v27 : S128x384.Idx → EReal) = Cert.Model.wT1 (m ((c : Thread nD τ).loc main_arg4)) := by
  show StableHlo.after hostOps2 (W4 m ρ c) (Proc.devRef .tc main_v27) = _
  after_results
  rw [w4_arg4 m ρ c]
  rfl
theorem e1_whh : (V5 m ρ c main_v30 : S128x384.Idx → EReal) = Cert.Model.wT1 (m ((c : Thread nD τ).loc main_arg5)) := by
  show StableHlo.after hostOps2 (W4 m ρ c) (Proc.devRef .tc main_v30) = _
  after_results
  rw [w4_arg5 m ρ c]
  rfl
theorem e1_bih : (V5 m ρ c main_v33 : S1x384.Idx → EReal) = asRow (Cert.Model.b384_1 (m ((c : Thread nD τ).loc main_arg6))) := by
  show StableHlo.after hostOps2 (W4 m ρ c) (Proc.devRef .tc main_v33) = _
  after_results
  rw [w4_arg6 m ρ c]
  exact shapeCast_asRow _ _
theorem e1_bhh : (V5 m ρ c main_v36 : S1x384.Idx → EReal) = asRow (Cert.Model.b384_1 (m ((c : Thread nD τ).loc main_arg7))) := by
  show StableHlo.after hostOps2 (W4 m ρ c) (Proc.devRef .tc main_v36) = _
  after_results
  rw [w4_arg7 m ρ c]
  exact shapeCast_asRow _ _
theorem e1_wg1 : (V5 m ρ c main_v38 : S128x128.Idx → EReal) = Cert.Model.m128_1 (m ((c : Thread nD τ).loc main_arg8)) := by
  show StableHlo.after hostOps2 (W4 m ρ c) (Proc.devRef .tc main_v38) = _
  after_results
  rw [w4_arg8 m ρ c]
  rfl
theorem e1_bg1 : (V5 m ρ c main_v41 : S1x128.Idx → EReal) = asRow (Cert.Model.b128_1 (m ((c : Thread nD τ).loc main_arg9))) := by
  show StableHlo.after hostOps2 (W4 m ρ c) (Proc.devRef .tc main_v41) = _
  after_results
  rw [w4_arg9 m ρ c]
  exact shapeCast_asRow _ _
theorem e1_wg2 : (V5 m ρ c main_v43 : S128x128.Idx → EReal) = Cert.Model.m128_1 (m ((c : Thread nD τ).loc main_arg10)) := by
  show StableHlo.after hostOps2 (W4 m ρ c) (Proc.devRef .tc main_v43) = _
  after_results
  rw [w4_arg10 m ρ c]
  rfl
theorem e1_bg2 : (V5 m ρ c main_v46 : S1x128.Idx → EReal) = asRow (Cert.Model.b128_1 (m ((c : Thread nD τ).loc main_arg11))) := by
  show StableHlo.after hostOps2 (W4 m ρ c) (Proc.devRef .tc main_v46) = _
  after_results
  rw [w4_arg11 m ρ c]
  exact shapeCast_asRow _ _

theorem e1_wc : (V5 m ρ c main_arg12 : S128x128.Idx → EReal) = m ((c : Thread nD τ).loc main_arg12) := by
  show StableHlo.after hostOps2 (W4 m ρ c) (Proc.devRef .tc main_arg12) = _
  after_results
  exact w4_arg12 m ρ c
theorem e1_wd : (V5 m ρ c main_arg14 : S128x40.Idx → EReal) = m ((c : Thread nD τ).loc main_arg14) := by
  show StableHlo.after hostOps2 (W4 m ρ c) (Proc.devRef .tc main_arg14) = _
  after_results
  exact w4_arg14 m ρ c
theorem e1_bc : (V5 m ρ c main_v47 : S1x128.Idx → EReal) = asRow (m ((c : Thread nD τ).loc main_arg13)) := by
  show StableHlo.after hostOps2 (W4 m ρ c) (Proc.devRef .tc main_v47) = _
  after_results
  rw [w4_arg13 m ρ c]
  exact shapeCast_asRow _ _
theorem e1_bd : (V5 m ρ c main_v48 : S1x40.Idx → EReal) = asRow (m ((c : Thread nD τ).loc main_arg15)) := by
  show StableHlo.after hostOps2 (W4 m ρ c) (Proc.devRef .tc main_v48) = _
  after_results
  rw [w4_arg15 m ρ c]
  exact shapeCast_asRow _ _

/-- THE RESULT: the last boundary's contents of the result buffer are the network of the launch arguments. -/
theorem result : W6 m ρ c (Proc.devRef .tc main_v49) = Cert.Model.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W6_arr m ρ c 15).trans (Cert.KRegion.arr2_15 (V5 m ρ) c _ _ _ _ _ _ _ _ _ _ _ _ _ _ _ (e1_adj m ρ c) (e1_xb m ρ c) (e1_h m ρ c)
    (e1_wih m ρ c) (e1_whh m ρ c) (e1_bih m ρ c) (e1_bhh m ρ c) (e1_wg1 m ρ c) (e1_bg1 m ρ c) (e1_wg2 m ρ c) (e1_bg2 m ρ c)
    (e1_wc m ρ c) (e1_bc m ρ c) (e1_wd m ρ c) (e1_bd m ρ c))

end Cert.KValue

end
-- ==== Proof.HostRun.lean ====
/-
  The reference's run, read back: every weakly fair execution of the reference's @main terminates with its result
  array at the network's function `Cert.Model.net` of the argument arrays, and the arguments unchanged.

  @main is a straight line of host operations; its run leaves in each buffer the composition of the operations that
  wrote it, and for the result buffer that composition, unfolded, is `Model.net` of the arguments: the definitions of
  Model.lean are the program's own operations grouped by layer.
-/
import proofs.«172874_g6133213298789_cont_9to1_m_1291_3_alg».proof.Proof.Gen.ReferenceIdeal
import proofs.«172874_g6133213298789_cont_9to1_m_1291_3_alg».proof.Proof.Model
import Idealize.ShloMosaic.Lib.StableHlo.Run

noncomputable section

namespace Cert.HostRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 16000000 in
/-- @main's 180 operations, in order (a called function's operations stand in its call's place, spelt `TRef.…`). -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S10000x128 ![0, 1] bcast_S1x128_S10000x128_0_1 : (⟨S1x128, .f32⟩ : BufTy).Contents (Elt F) → (⟨S10000x128, .f32⟩ : BufTy).Contents (Elt F)),
    binary main_v0 main_v2 main_v3 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v3) (TRef.of (T := ⟨S10000x128, .f32⟩) main_call0_v0) (TRef.of (T := ⟨S10000x128, .f32⟩) main_v4) maximumf,
    binary main_arg1 main_v4 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg4 main_v6 ((extractStridedSlice S1x384x128 ![0, 0, 0] · slices_S2x384x128_S1x384x128_0_0_0) : (⟨S2x384x128, .f32⟩ : BufTy).Contents (Elt F) → (⟨S1x384x128, .f32⟩ : BufTy).Contents (Elt F)),
    reshape main_v6 main_v7 rfl shapeCasts_S1x384x128_S384x128,
    unary main_arg5 main_v8 ((extractStridedSlice S1x384x128 ![0, 0, 0] · slices_S2x384x128_S1x384x128_0_0_0) : (⟨S2x384x128, .f32⟩ : BufTy).Contents (Elt F) → (⟨S1x384x128, .f32⟩ : BufTy).Contents (Elt F)),
    reshape main_v8 main_v9 rfl shapeCasts_S1x384x128_S384x128,
    unary main_arg6 main_v10 ((extractStridedSlice S1x384 ![0, 0] · slices_S2x384_S1x384_0_0) : (⟨S2x384, .f32⟩ : BufTy).Contents (Elt F) → (⟨S1x384, .f32⟩ : BufTy).Contents (Elt F)),
    reshape main_v10 main_v11 rfl shapeCasts_S1x384_S384,
    unary main_arg7 main_v12 ((extractStridedSlice S1x384 ![0, 0] · slices_S2x384_S1x384_0_0) : (⟨S2x384, .f32⟩ : BufTy).Contents (Elt F) → (⟨S1x384, .f32⟩ : BufTy).Contents (Elt F)),
    reshape main_v12 main_v13 rfl shapeCasts_S1x384_S384,
    unary main_v7 main_v14 ((transpose S128x384 [1, 0] · transposes_S384x128_S128x384_1_0) : (⟨S384x128, .f32⟩ : BufTy).Contents (Elt F) → (⟨S128x384, .f32⟩ : BufTy).Contents (Elt F)),
    binary main_v5 main_v14 main_v15 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_v11 main_v16 (broadcastInDim S1x384 ![1] bcast_S384_S1x384_1 : (⟨S384, .f32⟩ : BufTy).Contents (Elt F) → (⟨S1x384, .f32⟩ : BufTy).Contents (Elt F)),
    unary main_v16 main_v17 (broadcastInDim S10000x384 ![0, 1] bcast_S1x384_S10000x384_0_1 : (⟨S1x384, .f32⟩ : BufTy).Contents (Elt F) → (⟨S10000x384, .f32⟩ : BufTy).Contents (Elt F)),
    binary main_v15 main_v17 main_v18 (addf : (⟨S10000x384, .f32⟩ : BufTy).Contents (Elt F) → (⟨S10000x384, .f32⟩ : BufTy).Contents (Elt F) → (⟨S10000x384, .f32⟩ : BufTy).Contents (Elt F)),
    unary main_v9 main_v19 ((transpose S128x384 [1, 0] · transposes_S384x128_S128x384_1_0) : (⟨S384x128, .f32⟩ : BufTy).Contents (Elt F) → (⟨S128x384, .f32⟩ : BufTy).Contents (Elt F)),
    binary main_v4 main_v19 main_v20 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_v13 main_v21 (broadcastInDim S1x384 ![1] bcast_S384_S1x384_1 : (⟨S384, .f32⟩ : BufTy).Contents (Elt F) → (⟨S1x384, .f32⟩ : BufTy).Contents (Elt F)),
    unary main_v21 main_v22 (broadcastInDim S10000x384 ![0, 1] bcast_S1x384_S10000x384_0_1 : (⟨S1x384, .f32⟩ : BufTy).Contents (Elt F) → (⟨S10000x384, .f32⟩ : BufTy).Contents (Elt F)),
    binary main_v20 main_v22 main_v23 (addf : (⟨S10000x384, .f32⟩ : BufTy).Contents (Elt F) → (⟨S10000x384, .f32⟩ : BufTy).Contents (Elt F) → (⟨S10000x384, .f32⟩ : BufTy).Contents (Elt F)),
    unary main_v18 main_v24 ((extractStridedSlice S10000x128 ![0, 0] · slices_S10000x384_S10000x128_0_0) : (⟨S10000x384, .f32⟩ : BufTy).Contents (Elt F) → (⟨S10000x128, .f32⟩ : BufTy).Contents (Elt F)),
    unary main_v18 main_v25 ((extractStridedSlice S10000x128 ![0, 128] · slices_S10000x384_S10000x128_0_128) : (⟨S10000x384, .f32⟩ : BufTy).Contents (Elt F) → (⟨S10000x128, .f32⟩ : BufTy).Contents (Elt F)),
    unary main_v18 main_v26 ((extractStridedSlice S10000x128 ![0, 256] · slices_S10000x384_S10000x128_0_256) : (⟨S10000x384, .f32⟩ : BufTy).Contents (Elt F) → (⟨S10000x128, .f32⟩ : BufTy).Contents (Elt F)),
    unary main_v23 main_v27 ((extractStridedSlice S10000x128 ![0, 0] · slices_S10000x384_S10000x128_0_0) : (⟨S10000x384, .f32⟩ : BufTy).Contents (Elt F) → (⟨S10000x128, .f32⟩ : BufTy).Contents (Elt F)),
    unary main_v23 main_v28 ((extractStridedSlice S10000x128 ![0, 128] · slices_S10000x384_S10000x128_0_128) : (⟨S10000x384, .f32⟩ : BufTy).Contents (Elt F) → (⟨S10000x128, .f32⟩ : BufTy).Contents (Elt F)),
    unary main_v23 main_v29 ((extractStridedSlice S10000x128 ![0, 256] · slices_S10000x384_S10000x128_0_256) : (⟨S10000x384, .f32⟩ : BufTy).Contents (Elt F) → (⟨S10000x128, .f32⟩ : BufTy).Contents (Elt F)),
    binary main_v24 main_v27 main_v30 (addf : (⟨S10000x128, .f32⟩ : BufTy).Contents (Elt F) → (⟨S10000x128, .f32⟩ : BufTy).Contents (Elt F) → (⟨S10000x128, .f32⟩ : BufTy).Contents (Elt F)),
    unary main_v30 main_v31 (Host.negf : (⟨S10000x128, .f32⟩ : BufTy).Contents (Elt F) → (⟨S10000x128, .f32⟩ : BufTy).Contents (Elt F)),
    unary main_v31 main_v32 (Host.exp : (⟨S10000x128, .f32⟩ : BufTy).Contents (Elt F) → (⟨S10000x128, .f32⟩ : BufTy).Contents (Elt F)),
    nullary main_cst (constant S_ .f32 0x3F800000#32),
    unary main_cst main_v33 (broadcastInDim S10000x128 ![] bcast_S_S10000x128 : (⟨S_, .f32⟩ : BufTy).Contents (Elt F) → (⟨S10000x128, .f32⟩ : BufTy).Contents (Elt F)),
    binary main_v33 main_v32 main_v34 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3F800000#32),
    unary main_cst_0 main_v35 (broadcastInDim S10000x128 ![] bcast_S_S10000x128 : (⟨S_, .f32⟩ : BufTy).Contents (Elt F) → (⟨S10000x128, .f32⟩ : BufTy).Contents (Elt F)),
    binary main_v35 main_v34 main_v36 (Host.divf : (⟨S10000x128, .f32⟩ : BufTy).Contents (Elt F) → (⟨S10000x128, .f32⟩ : BufTy).Contents (Elt F) → (⟨S10000x128, .f32⟩ : BufTy).Contents (Elt F)),
    binary main_v25 main_v28 main_v37 (addf : (⟨S10000x128, .f32⟩ : BufTy).Contents (Elt F) → (⟨S10000x128, .f32⟩ : BufTy).Contents (Elt F) → (⟨S10000x128, .f32⟩ : BufTy).Contents (Elt F)),
    unary main_v37 main_v38 (Host.negf : (⟨S10000x128, .f32⟩ : BufTy).Contents (Elt F) → (⟨S10000x128, .f32⟩ : BufTy).Contents (Elt F)),
    unary main_v38 main_v39 (Host.exp : (⟨S10000x128, .f32⟩ : BufTy).Contents (Elt F) → (⟨S10000x128, .f32⟩ : BufTy).Contents (Elt F)),
    nullary main_cst_1 (constant S_ .f32 0x3F800000#32),
    unary main_cst_1 main_v40 (broadcastInDim S10000x128 ![] bcast_S_S10000x128 : (⟨S_, .f32⟩ : BufTy).Contents (Elt F) → (⟨S10000x128, .f32⟩ : BufTy).Contents (Elt F)),
    binary main_v40 main_v39 main_v41 (addf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x3F800000#32),
    unary main_cst_2 main_v42 (broadcastInDim S10000x128 ![] bcast_S_S10000x128 : (⟨S_, .f32⟩ : BufTy).Contents (Elt F) → (⟨S10000x128, .f32⟩ : BufTy).Contents (Elt F)),
    binary main_v42 main_v41 main_v43 (Host.divf : (⟨S10000x128, .f32⟩ : BufTy).Contents (Elt F) → (⟨S10000x128, .f32⟩ : BufTy).Contents (Elt F) → (⟨S10000x128, .f32⟩ : BufTy).Contents (Elt F)),
    binary main_v36 main_v29 main_v44 (mulf : (⟨S10000x128, .f32⟩ : BufTy).Contents (Elt F) → (⟨S10000x128, .f32⟩ : BufTy).Contents (Elt F) → (⟨S10000x128, .f32⟩ : BufTy).Contents (Elt F)),
    binary main_v26 main_v44 main_v45 (addf : (⟨S10000x128, .f32⟩ : BufTy).Contents (Elt F) → (⟨S10000x128, .f32⟩ : BufTy).Contents (Elt F) → (⟨S10000x128, .f32⟩ : BufTy).Contents (Elt F)),
    unary main_v45 main_v46 (Host.tanh : (⟨S10000x128, .f32⟩ : BufTy).Contents (Elt F) → (⟨S10000x128, .f32⟩ : BufTy).Contents (Elt F)),
    nullary main_cst_3 (constant S_ .f32 0x3F800000#32),
    unary main_cst_3 main_v47 (broadcastInDim S10000x128 ![] bcast_S_S10000x128 : (⟨S_, .f32⟩ : BufTy).Contents (Elt F) → (⟨S10000x128, .f32⟩ : BufTy).Contents (Elt F)),
    binary main_v47 main_v43 main_v48 (subf : (⟨S10000x128, .f32⟩ : BufTy).Contents (Elt F) → (⟨S10000x128, .f32⟩ : BufTy).Contents (Elt F) → (⟨S10000x128, .f32⟩ : BufTy).Contents (Elt F)),
    binary main_v48 main_v46 main_v49 (mulf : (⟨S10000x128, .f32⟩ : BufTy).Contents (Elt F) → (⟨S10000x128, .f32⟩ : BufTy).Contents (Elt F) → (⟨S10000x128, .f32⟩ : BufTy).Contents (Elt F)),
    binary main_v43 main_v4 main_v50 (mulf : (⟨S10000x128, .f32⟩ : BufTy).Contents (Elt F) → (⟨S10000x128, .f32⟩ : BufTy).Contents (Elt F) → (⟨S10000x128, .f32⟩ : BufTy).Contents (Elt F)),
    binary main_v49 main_v50 main_v51 (addf : (⟨S10000x128, .f32⟩ : BufTy).Contents (Elt F) → (⟨S10000x128, .f32⟩ : BufTy).Contents (Elt F) → (⟨S10000x128, .f32⟩ : BufTy).Contents (Elt F)),
    unary main_arg8 main_v52 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v52 main_v53 rfl shapeCasts_S1x128x128_S128x128,
    binary main_v51 main_v53 main_v54 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v55 ((extractStridedSlice S1x128 ![0, 0] · slices_S2x128_S1x128_0_0) : (⟨S2x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S10000x128 ![0, 1] bcast_S1x128_S10000x128_0_1 : (⟨S1x128, .f32⟩ : BufTy).Contents (Elt F) → (⟨S10000x128, .f32⟩ : BufTy).Contents (Elt F)),
    binary main_v54 main_v58 main_v59 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v59) (TRef.of (T := ⟨S10000x128, .f32⟩) main_call1_v0) (TRef.of (T := ⟨S10000x128, .f32⟩) main_v60) maximumf,
    unary main_arg10 main_v61 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v61 main_v62 rfl shapeCasts_S1x128x128_S128x128,
    binary main_v60 main_v62 main_v63 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg11 main_v64 ((extractStridedSlice S1x128 ![0, 0] · slices_S2x128_S1x128_0_0) : (⟨S2x128, .f32⟩ : BufTy).Contents (Elt F) → (⟨S1x128, .f32⟩ : BufTy).Contents (Elt F)),
    reshape main_v64 main_v65 rfl shapeCasts_S1x128_S128,
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S10000x128 ![0, 1] bcast_S1x128_S10000x128_0_1 : (⟨S1x128, .f32⟩ : BufTy).Contents (Elt F) → (⟨S10000x128, .f32⟩ : BufTy).Contents (Elt F)),
    binary main_v63 main_v67 main_v68 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v68) (TRef.of (T := ⟨S10000x128, .f32⟩) main_call2_v0) (TRef.of (T := ⟨S10000x128, .f32⟩) main_v69) maximumf,
    binary main_arg1 main_v69 main_v70 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg4 main_v71 ((extractStridedSlice S1x384x128 ![1, 0, 0] · slices_S2x384x128_S1x384x128_1_0_0) : (⟨S2x384x128, .f32⟩ : BufTy).Contents (Elt F) → (⟨S1x384x128, .f32⟩ : BufTy).Contents (Elt F)),
    reshape main_v71 main_v72 rfl shapeCasts_S1x384x128_S384x128,
    unary main_arg5 main_v73 ((extractStridedSlice S1x384x128 ![1, 0, 0] · slices_S2x384x128_S1x384x128_1_0_0) : (⟨S2x384x128, .f32⟩ : BufTy).Contents (Elt F) → (⟨S1x384x128, .f32⟩ : BufTy).Contents (Elt F)),
    reshape main_v73 main_v74 rfl shapeCasts_S1x384x128_S384x128,
    unary main_arg6 main_v75 ((extractStridedSlice S1x384 ![1, 0] · slices_S2x384_S1x384_1_0) : (⟨S2x384, .f32⟩ : BufTy).Contents (Elt F) → (⟨S1x384, .f32⟩ : BufTy).Contents (Elt F)),
    reshape main_v75 main_v76 rfl shapeCasts_S1x384_S384,
    unary main_arg7 main_v77 ((extractStridedSlice S1x384 ![1, 0] · slices_S2x384_S1x384_1_0) : (⟨S2x384, .f32⟩ : BufTy).Contents (Elt F) → (⟨S1x384, .f32⟩ : BufTy).Contents (Elt F)),
    reshape main_v77 main_v78 rfl shapeCasts_S1x384_S384,
    unary main_v72 main_v79 ((transpose S128x384 [1, 0] · transposes_S384x128_S128x384_1_0) : (⟨S384x128, .f32⟩ : BufTy).Contents (Elt F) → (⟨S128x384, .f32⟩ : BufTy).Contents (Elt F)),
    binary main_v70 main_v79 main_v80 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_v76 main_v81 (broadcastInDim S1x384 ![1] bcast_S384_S1x384_1 : (⟨S384, .f32⟩ : BufTy).Contents (Elt F) → (⟨S1x384, .f32⟩ : BufTy).Contents (Elt F)),
    unary main_v81 main_v82 (broadcastInDim S10000x384 ![0, 1] bcast_S1x384_S10000x384_0_1 : (⟨S1x384, .f32⟩ : BufTy).Contents (Elt F) → (⟨S10000x384, .f32⟩ : BufTy).Contents (Elt F)),
    binary main_v80 main_v82 main_v83 (addf : (⟨S10000x384, .f32⟩ : BufTy).Contents (Elt F) → (⟨S10000x384, .f32⟩ : BufTy).Contents (Elt F) → (⟨S10000x384, .f32⟩ : BufTy).Contents (Elt F)),
    unary main_v74 main_v84 ((transpose S128x384 [1, 0] · transposes_S384x128_S128x384_1_0) : (⟨S384x128, .f32⟩ : BufTy).Contents (Elt F) → (⟨S128x384, .f32⟩ : BufTy).Contents (Elt F)),
    binary main_v69 main_v84 main_v85 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_v78 main_v86 (broadcastInDim S1x384 ![1] bcast_S384_S1x384_1 : (⟨S384, .f32⟩ : BufTy).Contents (Elt F) → (⟨S1x384, .f32⟩ : BufTy).Contents (Elt F)),
    unary main_v86 main_v87 (broadcastInDim S10000x384 ![0, 1] bcast_S1x384_S10000x384_0_1 : (⟨S1x384, .f32⟩ : BufTy).Contents (Elt F) → (⟨S10000x384, .f32⟩ : BufTy).Contents (Elt F)),
    binary main_v85 main_v87 main_v88 (addf : (⟨S10000x384, .f32⟩ : BufTy).Contents (Elt F) → (⟨S10000x384, .f32⟩ : BufTy).Contents (Elt F) → (⟨S10000x384, .f32⟩ : BufTy).Contents (Elt F)),
    unary main_v83 main_v89 ((extractStridedSlice S10000x128 ![0, 0] · slices_S10000x384_S10000x128_0_0) : (⟨S10000x384, .f32⟩ : BufTy).Contents (Elt F) → (⟨S10000x128, .f32⟩ : BufTy).Contents (Elt F)),
    unary main_v83 main_v90 ((extractStridedSlice S10000x128 ![0, 128] · slices_S10000x384_S10000x128_0_128) : (⟨S10000x384, .f32⟩ : BufTy).Contents (Elt F) → (⟨S10000x128, .f32⟩ : BufTy).Contents (Elt F)),
    unary main_v83 main_v91 ((extractStridedSlice S10000x128 ![0, 256] · slices_S10000x384_S10000x128_0_256) : (⟨S10000x384, .f32⟩ : BufTy).Contents (Elt F) → (⟨S10000x128, .f32⟩ : BufTy).Contents (Elt F)),
    unary main_v88 main_v92 ((extractStridedSlice S10000x128 ![0, 0] · slices_S10000x384_S10000x128_0_0) : (⟨S10000x384, .f32⟩ : BufTy).Contents (Elt F) → (⟨S10000x128, .f32⟩ : BufTy).Contents (Elt F)),
    unary main_v88 main_v93 ((extractStridedSlice S10000x128 ![0, 128] · slices_S10000x384_S10000x128_0_128) : (⟨S10000x384, .f32⟩ : BufTy).Contents (Elt F) → (⟨S10000x128, .f32⟩ : BufTy).Contents (Elt F)),
    unary main_v88 main_v94 ((extractStridedSlice S10000x128 ![0, 256] · slices_S10000x384_S10000x128_0_256) : (⟨S10000x384, .f32⟩ : BufTy).Contents (Elt F) → (⟨S10000x128, .f32⟩ : BufTy).Contents (Elt F)),
    binary main_v89 main_v92 main_v95 (addf : (⟨S10000x128, .f32⟩ : BufTy).Contents (Elt F) → (⟨S10000x128, .f32⟩ : BufTy).Contents (Elt F) → (⟨S10000x128, .f32⟩ : BufTy).Contents (Elt F)),
    unary main_v95 main_v96 (Host.negf : (⟨S10000x128, .f32⟩ : BufTy).Contents (Elt F) → (⟨S10000x128, .f32⟩ : BufTy).Contents (Elt F)),
    unary main_v96 main_v97 (Host.exp : (⟨S10000x128, .f32⟩ : BufTy).Contents (Elt F) → (⟨S10000x128, .f32⟩ : BufTy).Contents (Elt F)),
    nullary main_cst_4 (constant S_ .f32 0x3F800000#32),
    unary main_cst_4 main_v98 (broadcastInDim S10000x128 ![] bcast_S_S10000x128 : (⟨S_, .f32⟩ : BufTy).Contents (Elt F) → (⟨S10000x128, .f32⟩ : BufTy).Contents (Elt F)),
    binary main_v98 main_v97 main_v99 (addf : (⟨S10000x128, .f32⟩ : BufTy).Contents (Elt F) → (⟨S10000x128, .f32⟩ : BufTy).Contents (Elt F) → (⟨S10000x128, .f32⟩ : BufTy).Contents (Elt F)),
    nullary main_cst_5 (constant S_ .f32 0x3F800000#32),
    unary main_cst_5 main_v100 (broadcastInDim S10000x128 ![] bcast_S_S10000x128 : (⟨S_, .f32⟩ : BufTy).Contents (Elt F) → (⟨S10000x128, .f32⟩ : BufTy).Contents (Elt F)),
    binary main_v100 main_v99 main_v101 (Host.divf : (⟨S10000x128, .f32⟩ : BufTy).Contents (Elt F) → (⟨S10000x128, .f32⟩ : BufTy).Contents (Elt F) → (⟨S10000x128, .f32⟩ : BufTy).Contents (Elt F)),
    binary main_v90 main_v93 main_v102 (addf : (⟨S10000x128, .f32⟩ : BufTy).Contents (Elt F) → (⟨S10000x128, .f32⟩ : BufTy).Contents (Elt F) → (⟨S10000x128, .f32⟩ : BufTy).Contents (Elt F)),
    unary main_v102 main_v103 (Host.negf : (⟨S10000x128, .f32⟩ : BufTy).Contents (Elt F) → (⟨S10000x128, .f32⟩ : BufTy).Contents (Elt F)),
    unary main_v103 main_v104 (Host.exp : (⟨S10000x128, .f32⟩ : BufTy).Contents (Elt F) → (⟨S10000x128, .f32⟩ : BufTy).Contents (Elt F)),
    nullary main_cst_6 (constant S_ .f32 0x3F800000#32),
    unary main_cst_6 main_v105 (broadcastInDim S10000x128 ![] bcast_S_S10000x128 : (⟨S_, .f32⟩ : BufTy).Contents (Elt F) → (⟨S10000x128, .f32⟩ : BufTy).Contents (Elt F)),
    binary main_v105 main_v104 main_v106 (addf : (⟨S10000x128, .f32⟩ : BufTy).Contents (Elt F) → (⟨S10000x128, .f32⟩ : BufTy).Contents (Elt F) → (⟨S10000x128, .f32⟩ : BufTy).Contents (Elt F)),
    nullary main_cst_7 (constant S_ .f32 0x3F800000#32),
    unary main_cst_7 main_v107 (broadcastInDim S10000x128 ![] bcast_S_S10000x128 : (⟨S_, .f32⟩ : BufTy).Contents (Elt F) → (⟨S10000x128, .f32⟩ : BufTy).Contents (Elt F)),
    binary main_v107 main_v106 main_v108 (Host.divf : (⟨S10000x128, .f32⟩ : BufTy).Contents (Elt F) → (⟨S10000x128, .f32⟩ : BufTy).Contents (Elt F) → (⟨S10000x128, .f32⟩ : BufTy).Contents (Elt F)),
    binary main_v101 main_v94 main_v109 (mulf : (⟨S10000x128, .f32⟩ : BufTy).Contents (Elt F) → (⟨S10000x128, .f32⟩ : BufTy).Contents (Elt F) → (⟨S10000x128, .f32⟩ : BufTy).Contents (Elt F)),
    binary main_v91 main_v109 main_v110 (addf : (⟨S10000x128, .f32⟩ : BufTy).Contents (Elt F) → (⟨S10000x128, .f32⟩ : BufTy).Contents (Elt F) → (⟨S10000x128, .f32⟩ : BufTy).Contents (Elt F)),
    unary main_v110 main_v111 (Host.tanh : (⟨S10000x128, .f32⟩ : BufTy).Contents (Elt F) → (⟨S10000x128, .f32⟩ : BufTy).Contents (Elt F)),
    nullary main_cst_8 (constant S_ .f32 0x3F800000#32),
    unary main_cst_8 main_v112 (broadcastInDim S10000x128 ![] bcast_S_S10000x128 : (⟨S_, .f32⟩ : BufTy).Contents (Elt F) → (⟨S10000x128, .f32⟩ : BufTy).Contents (Elt F)),
    binary main_v112 main_v108 main_v113 (subf : (⟨S10000x128, .f32⟩ : BufTy).Contents (Elt F) → (⟨S10000x128, .f32⟩ : BufTy).Contents (Elt F) → (⟨S10000x128, .f32⟩ : BufTy).Contents (Elt F)),
    binary main_v113 main_v111 main_v114 (mulf : (⟨S10000x128, .f32⟩ : BufTy).Contents (Elt F) → (⟨S10000x128, .f32⟩ : BufTy).Contents (Elt F) → (⟨S10000x128, .f32⟩ : BufTy).Contents (Elt F)),
    binary main_v108 main_v69 main_v115 (mulf : (⟨S10000x128, .f32⟩ : BufTy).Contents (Elt F) → (⟨S10000x128, .f32⟩ : BufTy).Contents (Elt F) → (⟨S10000x128, .f32⟩ : BufTy).Contents (Elt F)),
    binary main_v114 main_v115 main_v116 (addf : (⟨S10000x128, .f32⟩ : BufTy).Contents (Elt F) → (⟨S10000x128, .f32⟩ : BufTy).Contents (Elt F) → (⟨S10000x128, .f32⟩ : BufTy).Contents (Elt F)),
    unary main_arg8 main_v117 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v117 main_v118 rfl shapeCasts_S1x128x128_S128x128,
    binary main_v116 main_v118 main_v119 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v120 ((extractStridedSlice S1x128 ![1, 0] · slices_S2x128_S1x128_1_0) : (⟨S2x128, .f32⟩ : BufTy).Contents (Elt F) → (⟨S1x128, .f32⟩ : BufTy).Contents (Elt F)),
    reshape main_v120 main_v121 rfl shapeCasts_S1x128_S128,
    unary main_v121 main_v122 (broadcastInDim S1x128 ![1] bcast_S128_S1x128_1 : (⟨S128, .f32⟩ : BufTy).Contents (Elt F) → (⟨S1x128, .f32⟩ : BufTy).Contents (Elt F)),
    unary main_v122 main_v123 (broadcastInDim S10000x128 ![0, 1] bcast_S1x128_S10000x128_0_1 : (⟨S1x128, .f32⟩ : BufTy).Contents (Elt F) → (⟨S10000x128, .f32⟩ : BufTy).Contents (Elt F)),
    binary main_v119 main_v123 main_v124 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x128, .f32⟩) main_call3_v0) (broadcastInDim S10000x128 ![] bcast_S_S10000x128),
    TRef.binary (TRef.of (T := ⟨S10000x128, .f32⟩) main_v124) (TRef.of (T := ⟨S10000x128, .f32⟩) main_call3_v0) (TRef.of (T := ⟨S10000x128, .f32⟩) main_v125) maximumf,
    unary main_arg10 main_v126 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v126 main_v127 rfl shapeCasts_S1x128x128_S128x128,
    binary main_v125 main_v127 main_v128 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg11 main_v129 ((extractStridedSlice S1x128 ![1, 0] · slices_S2x128_S1x128_1_0) : (⟨S2x128, .f32⟩ : BufTy).Contents (Elt F) → (⟨S1x128, .f32⟩ : BufTy).Contents (Elt F)),
    reshape main_v129 main_v130 rfl shapeCasts_S1x128_S128,
    unary main_v130 main_v131 (broadcastInDim S1x128 ![1] bcast_S128_S1x128_1 : (⟨S128, .f32⟩ : BufTy).Contents (Elt F) → (⟨S1x128, .f32⟩ : BufTy).Contents (Elt F)),
    unary main_v131 main_v132 (broadcastInDim S10000x128 ![0, 1] bcast_S1x128_S10000x128_0_1 : (⟨S1x128, .f32⟩ : BufTy).Contents (Elt F) → (⟨S10000x128, .f32⟩ : BufTy).Contents (Elt F)),
    binary main_v128 main_v132 main_v133 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x128, .f32⟩) main_call4_v0) (broadcastInDim S10000x128 ![] bcast_S_S10000x128),
    TRef.binary (TRef.of (T := ⟨S10000x128, .f32⟩) main_v133) (TRef.of (T := ⟨S10000x128, .f32⟩) main_call4_v0) (TRef.of (T := ⟨S10000x128, .f32⟩) main_v134) maximumf,
    binary main_v134 main_arg12 main_v135 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg13 main_v136 (broadcastInDim S1x128 ![1] bcast_S128_S1x128_1 : (⟨S128, .f32⟩ : BufTy).Contents (Elt F) → (⟨S1x128, .f32⟩ : BufTy).Contents (Elt F)),
    unary main_v136 main_v137 (broadcastInDim S10000x128 ![0, 1] bcast_S1x128_S10000x128_0_1 : (⟨S1x128, .f32⟩ : BufTy).Contents (Elt F) → (⟨S10000x128, .f32⟩ : BufTy).Contents (Elt F)),
    binary main_v135 main_v137 main_v138 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S10000x128, .f32⟩) main_call5_v0) (broadcastInDim S10000x128 ![] bcast_S_S10000x128),
    TRef.binary (TRef.of (T := ⟨S10000x128, .f32⟩) main_v138) (TRef.of (T := ⟨S10000x128, .f32⟩) main_call5_v0) (TRef.of (T := ⟨S10000x128, .f32⟩) main_v139) maximumf,
    binary main_v139 main_arg14 main_v140 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    unary main_arg15 main_v141 (broadcastInDim S1x40 ![1] bcast_S40_S1x40_1 : (⟨S40, .f32⟩ : BufTy).Contents (Elt F) → (⟨S1x40, .f32⟩ : BufTy).Contents (Elt F)),
    unary main_v141 main_v142 (broadcastInDim S10000x40 ![0, 1] bcast_S1x40_S10000x40_0_1 : (⟨S1x40, .f32⟩ : BufTy).Contents (Elt F) → (⟨S10000x40, .f32⟩ : BufTy).Contents (Elt F)),
    binary main_v140 main_v142 main_v143 (addf : (⟨S10000x40, .f32⟩ : BufTy).Contents (Elt F) → (⟨S10000x40, .f32⟩ : BufTy).Contents (Elt F) → (⟨S10000x40, .f32⟩ : BufTy).Contents (Elt F)),
    nullary main_cst_9 (constant S_ .f32 0xFF800000#32),
    binary main_v143 main_cst_9 main_v144 ((fun x v => Host.reduce FloatOps.maximumf x v reducesTo_S10000x40_S10000_d1 h_S_) : (⟨S10000x40, .f32⟩ : BufTy).Contents (Elt F) → (⟨S_, .f32⟩ : BufTy).Contents (Elt F) → (⟨S10000, .f32⟩ : BufTy).Contents (Elt F)),
    nullary main_cst_10 (constant S_ .f32 0xFF800000#32),
    unary main_cst_10 main_v145 (broadcastInDim S10000 ![] bcast_S_S10000 : (⟨S_, .f32⟩ : BufTy).Contents (Elt F) → (⟨S10000, .f32⟩ : BufTy).Contents (Elt F)),
    binary main_v145 main_v144 main_v146 (maximumf : (⟨S10000, .f32⟩ : BufTy).Contents (Elt F) → (⟨S10000, .f32⟩ : BufTy).Contents (Elt F) → (⟨S10000, .f32⟩ : BufTy).Contents (Elt F)),
    unary main_v146 main_v147 (broadcastInDim S10000x1 ![0] bcast_S10000_S10000x1_0 : (⟨S10000, .f32⟩ : BufTy).Contents (Elt F) → (⟨S10000x1, .f32⟩ : BufTy).Contents (Elt F)),
    unary main_v147 main_v148 (broadcastInDim S10000x40 ![0, 1] bcast_S10000x1_S10000x40_0_1 : (⟨S10000x1, .f32⟩ : BufTy).Contents (Elt F) → (⟨S10000x40, .f32⟩ : BufTy).Contents (Elt F)),
    binary main_v143 main_v148 main_v149 (subf : (⟨S10000x40, .f32⟩ : BufTy).Contents (Elt F) → (⟨S10000x40, .f32⟩ : BufTy).Contents (Elt F) → (⟨S10000x40, .f32⟩ : BufTy).Contents (Elt F)),
    unary main_v149 main_v150 (Host.exp : (⟨S10000x40, .f32⟩ : BufTy).Contents (Elt F) → (⟨S10000x40, .f32⟩ : BufTy).Contents (Elt F)),
    nullary main_cst_11 (constant S_ .f32 0x00000000#32),
    binary main_v150 main_cst_11 main_v151 ((fun x v => Host.reduceAdd x v reducesTo_S10000x40_S10000_d1 h_S_) : (⟨S10000x40, .f32⟩ : BufTy).Contents (Elt F) → (⟨S_, .f32⟩ : BufTy).Contents (Elt F) → (⟨S10000, .f32⟩ : BufTy).Contents (Elt F)),
    unary main_v151 main_v152 (broadcastInDim S10000x1 ![0] bcast_S10000_S10000x1_0 : (⟨S10000, .f32⟩ : BufTy).Contents (Elt F) → (⟨S10000x1, .f32⟩ : BufTy).Contents (Elt F)),
    unary main_v152 main_v153 (broadcastInDim S10000x40 ![0, 1] bcast_S10000x1_S10000x40_0_1 : (⟨S10000x1, .f32⟩ : BufTy).Contents (Elt F) → (⟨S10000x40, .f32⟩ : BufTy).Contents (Elt F)),
    binary main_v150 main_v153 main_v154 (Host.divf : (⟨S10000x40, .f32⟩ : BufTy).Contents (Elt F) → (⟨S10000x40, .f32⟩ : BufTy).Contents (Elt F) → (⟨S10000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 16000000 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
set_option maxHeartbeats 72000000 in
/-- The result buffer after the operations, from the launch memory `m`, is the network of the arguments. -/
theorem result_eq (m : (ℓ : Loc nD τ sig) → Buf (Elt Ideal) ℓ) (c : Dev nD) :
    StableHlo.after (ops (F := Ideal)) (fun b => m ((c : Dev nD), b)) (Proc.devRef .tc main_v154)
      = Cert.Model.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  after_results_simp <;> rfl

set_option maxRecDepth 8192 in
set_option maxHeartbeats 72000000 in
/-- On every device, from any memory with zero counters: every weakly fair execution of the reference's @main terminates
    with the result at the network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v154) = Cert.Model.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v154).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.HostRun

end
-- ==== Proof.lean ====
/-
  The certificate of the gated graph network kernel against its jnp reference.

  The kernel computes the network in three regions: `x0 = relu (features · W1 + b1)`; one GRU-and-perceptron layer over the
  aggregation `adj · x0`; a second such layer followed by the classifier head and a row softmax. Each region walks the 10000
  nodes in 25 blocks of 400 rows, and everything it does to a block works row by row, so a region's output array is the
  whole-array stage of its inputs. The reference computes the same stages with whole-array host operations. At the ideal
  instance a kernel's matrix product and the host's `dot_general` are the same sum, the bf16 copies of the node table are the
  table itself, the logistic function is `1 / (1 + e^{-x})` as the host spells it, and the row maximum from -∞ needs no second
  maximum with -∞: both programs end with their result at `Cert.Model.net` of the arguments. No law used needs the inputs to
  be finite, so the precondition is never opened.

  The three frames: the two kernels' are the generated ones; the reference's is its run with the result dropped. The ideal
  pass rewrote nothing, so `preserves` is `True`.
-/
import proofs.«172874_g6133213298789_cont_9to1_m_1291_3_alg».proof.Defs
import proofs.«172874_g6133213298789_cont_9to1_m_1291_3_alg».proof.Proof.Gen.Kernel
import proofs.«172874_g6133213298789_cont_9to1_m_1291_3_alg».proof.Proof.Gen.Kernel.Skeleton
import proofs.«172874_g6133213298789_cont_9to1_m_1291_3_alg».proof.Proof.Gen.Kernel.Launch
import proofs.«172874_g6133213298789_cont_9to1_m_1291_3_alg».proof.Proof.Gen.Kernel.Points
import proofs.«172874_g6133213298789_cont_9to1_m_1291_3_alg».proof.Proof.Gen.Kernel.Frame
import proofs.«172874_g6133213298789_cont_9to1_m_1291_3_alg».proof.Proof.Gen.KernelIdeal
import proofs.«172874_g6133213298789_cont_9to1_m_1291_3_alg».proof.Proof.Gen.KernelIdeal.Skeleton
import proofs.«172874_g6133213298789_cont_9to1_m_1291_3_alg».proof.Proof.Gen.KernelIdeal.Launch
import proofs.«172874_g6133213298789_cont_9to1_m_1291_3_alg».proof.Proof.Gen.KernelIdeal.Points
import proofs.«172874_g6133213298789_cont_9to1_m_1291_3_alg».proof.Proof.Gen.KernelIdeal.Frame
import proofs.«172874_g6133213298789_cont_9to1_m_1291_3_alg».proof.Proof.Gen.ReferenceIdeal
import proofs.«172874_g6133213298789_cont_9to1_m_1291_3_alg».proof.Proof.Gen.Pre_finite_inputs
import proofs.«172874_g6133213298789_cont_9to1_m_1291_3_alg».proof.Proof.KRun
import proofs.«172874_g6133213298789_cont_9to1_m_1291_3_alg».proof.Proof.KValue
import proofs.«172874_g6133213298789_cont_9to1_m_1291_3_alg».proof.Proof.HostRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.HostRun.run m ρ)

theorem preserves : Cert.preserves_Kernel_KernelIdeal := trivial

/-- From memories agreeing on the arguments both idealized programs end with their result at the network of the arguments. -/
theorem algebraic : Cert.algebraic_KernelIdeal_ReferenceIdeal := by
  intro m ρ m' ρ' _ hagree
  refine ⟨fun c => Cert.Model.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨
      (h c _ (Cert.KernelIdeal.Gen.mem_uc Cert.KernelIdeal.main_v49 (by decide))).trans (Cert.KValue.result m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c),
      (h c _ (Cert.KernelIdeal.Gen.mem_uc Cert.KernelIdeal.main_arg13 (by decide))).trans (Cert.KernelIdeal.Gen.W6_main_arg13 m ρ c),
      (h c _ (Cert.KernelIdeal.Gen.mem_uc Cert.KernelIdeal.main_arg14 (by decide))).trans (Cert.KernelIdeal.Gen.W6_main_arg14 m ρ c),
      (h c _ (Cert.KernelIdeal.Gen.mem_uc Cert.KernelIdeal.main_arg15 (by decide))).trans (Cert.KernelIdeal.Gen.W6_main_arg15 m ρ c)⟩)
      (Cert.KRun.run_all m ρ)
  · refine (θ_run Cert.ReferenceIdeal.defs _ _).mono (fun r h c => ⟨(h c).1.trans ?_, (h c).2⟩) (Cert.HostRun.run m' ρ')
    obtain ⟨a0, a1, a2, a3, a4, a5, a6, a7, a8, a9, a10, a11, a12, a13, a14, a15⟩ := hagree c
    rw [a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
